-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x10 .f32) (main_arg12 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x10 .f32) (main_arg12 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 137
  | .vmem => 38
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S50000x128, .f32⟩
  | 85 => ⟨S50000x128, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S850000x1, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S50000x128, .f32⟩
  | 117 => ⟨S_, .f32⟩
  | 118 => ⟨S64x128, .f32⟩
  | 119 => ⟨S50000x1, .i32⟩
  | 120 => ⟨S64x128, .f32⟩
  | 121 => ⟨S_, .f32⟩
  | 122 => ⟨S50000, .f32⟩
  | 123 => ⟨S_, .f32⟩
  | 124 => ⟨S64, .f32⟩
  | 125 => ⟨S50000x1, .i32⟩
  | 126 => ⟨S64, .f32⟩
  | 127 => ⟨S_, .f32⟩
  | _ => ⟨S50000x128, .f32⟩

abbrev hbmTy0_1 (i : Nat) : BufTy := match i % 128 with
  | 0 => ⟨S64, .f32⟩
  | 1 => ⟨S64, .f32⟩
  | 2 => ⟨S64x1, .f32⟩
  | 3 => ⟨S64x128, .f32⟩
  | 4 => ⟨S64x128, .f32⟩
  | 5 => ⟨S64x10, .f32⟩
  | 6 => ⟨S1x10, .f32⟩
  | 7 => ⟨S64x10, .f32⟩
  | 8 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71_0 : Ref sig .tc := ⟨.hbm, 103, rfl⟩
abbrev main_v71_1 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_cst_18 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v69) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v81) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 219
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000, .i32⟩
  | 107 => ⟨S1x800000, .i32⟩
  | 108 => ⟨S800000, .i32⟩
  | 109 => ⟨S850000, .i32⟩
  | 110 => ⟨S1x800000, .i32⟩
  | 111 => ⟨S800000, .i32⟩
  | 112 => ⟨S850000, .i32⟩
  | 113 => ⟨S_, .f32⟩
  | 114 => ⟨S850000, .f32⟩
  | 115 => ⟨S_, .f32⟩
  | 116 => ⟨S50000, .f32⟩
  | 117 => ⟨S850000x1, .i32⟩
  | 118 => ⟨S50000, .f32⟩
  | 119 => ⟨S_, .f32⟩
  | 120 => ⟨S50000, .f32⟩
  | 121 => ⟨S50000, .i1⟩
  | 122 => ⟨S50000, .f32⟩
  | 123 => ⟨S_, .f32⟩
  | 124 => ⟨S_, .f32⟩
  | 125 => ⟨S50000, .f32⟩
  | 126 => ⟨S50000, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000, .f32⟩
  | 17 => ⟨S850000, .f32⟩
  | 18 => ⟨S50000x128, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000x128, .f32⟩
  | 28 => ⟨S850000x1, .f32⟩
  | 29 => ⟨S850000x128, .f32⟩
  | 30 => ⟨S850000x128, .f32⟩
  | 31 => ⟨S_, .f32⟩
  | 32 => ⟨S50000x128, .f32⟩
  | 33 => ⟨S850000x1, .i32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S128, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .f32⟩
  | 72 => ⟨S64x128, .f32⟩
  | 73 => ⟨S50000x1, .i32⟩
  | 74 => ⟨S64x128, .f32⟩
  | 75 => ⟨S_, .f32⟩
  | 76 => ⟨S50000, .f32⟩
  | 77 => ⟨S_, .f32⟩
  | 78 => ⟨S64, .f32⟩
  | 79 => ⟨S50000x1, .i32⟩
  | 80 => ⟨S64, .f32⟩
  | 81 => ⟨S_, .f32⟩
  | 82 => ⟨S64, .f32⟩
  | 83 => ⟨S64, .f32⟩
  | 84 => ⟨S64x1, .f32⟩
  | 85 => ⟨S64x128, .f32⟩
  | 86 => ⟨S64x128, .f32⟩
  | 87 => ⟨S64x10, .f32⟩
  | 88 => ⟨S1x10, .f32⟩
  | 89 => ⟨S64x10, .f32⟩
  | 90 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call1_cst : Ref sig .tc := ⟨.hbm, 103, rfl⟩
abbrev main_call1_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_cst_15 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_16 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_call2_v0 : Ref sig .tc := ⟨.hbm, 124, rfl⟩
abbrev main_call2_v1 : Ref sig .tc := ⟨.hbm, 125, rfl⟩
abbrev main_v87 : Ref sig .tc := ⟨.hbm, 126, rfl⟩
abbrev main_c_18 : Ref sig .tc := ⟨.hbm, 127, rfl⟩
abbrev main_v88 : Ref sig .tc := ⟨.hbm, 128, rfl⟩
abbrev main_v89 : Ref sig .tc := ⟨.hbm, 129, rfl⟩
abbrev main_c_19 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_c_20 : Ref sig .tc := ⟨.hbm, 136, rfl⟩
abbrev main_v95 : Ref sig .tc := ⟨.hbm, 137, rfl⟩
abbrev main_v96 : Ref sig .tc := ⟨.hbm, 138, rfl⟩
abbrev main_c_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_22 : Ref sig .tc := ⟨.hbm, 147, rfl⟩
abbrev main_v104 : Ref sig .tc := ⟨.hbm, 148, rfl⟩
abbrev main_v105 : Ref sig .tc := ⟨.hbm, 149, rfl⟩
abbrev main_c_23 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_24 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_25 : Ref sig .tc := ⟨.hbm, 166, rfl⟩
abbrev main_v120 : Ref sig .tc := ⟨.hbm, 167, rfl⟩
abbrev main_cst_26 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_27 : Ref sig .tc := ⟨.hbm, 175, rfl⟩
abbrev main_v127 : Ref sig .tc := ⟨.hbm, 176, rfl⟩
abbrev main_cst_28 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_29 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_call3_cst : Ref sig .tc := ⟨.hbm, 196, rfl⟩
abbrev main_call3_v0 : Ref sig .tc := ⟨.hbm, 197, rfl⟩
abbrev main_v145 : Ref sig .tc := ⟨.hbm, 198, rfl⟩
abbrev main_cst_30 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_31 : Ref sig .tc := ⟨.hbm, 203, rfl⟩
abbrev main_v149 : Ref sig .tc := ⟨.hbm, 204, rfl⟩
abbrev main_cst_32 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_33 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel program's run with its result named.

  The program is fourteen segments: stretches of host operations and six kernel launches. The buffer
  contents at each segment boundary are a fold from the launch memory; every weakly fair execution ends
  with every buffer that outlives the call at the last boundary's contents. Read at the result buffer,
  this names the program's result as the last boundary's contents there, beside the argument arrays,
  which end as launched.
-/
import proofs.«129027_j70815420776783_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the program terminates, nothing faulting; the result buffer ends at the
    last boundary's contents and the argument arrays as launched. -/
theorem run_valued : θ_run defs (onTc (τ := τ) (main (F := F))) ⟨m, fun _ => 0, ρ⟩ (fun r => ∀ c : Dev nD,
      r.2.mem ((c.tc : Thread nD τ).loc main_v97) = W14 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v97 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.RunValue

end
-- ==== Proof.Reads.lean ====
/-
  Buffers that a segment of the program does not write keep their contents across it.

  Each lemma walks one buffer back through the segments between two boundaries: a stretch of host
  operations that does not name the buffer among its results leaves it alone; a kernel launch leaves
  alone every buffer that is not one of its arrays, and an input array as well.
-/
import proofs.«129027_j70815420776783_1_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem Idealize.ShloMosaic.StableHlo
open Idealize.ShloMosaic.Pipeline (Dat Cfg Window)

variable (m : (ℓ : Loc nD τ sig) → Buf (Elt Ideal) ℓ) (ρ : Dev nD → PrngReg)

/-- A stretch of host operations leaves a buffer it does not write as it was. -/
macro "host_skip " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem rd3_0_main_arg0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by host_skip hostOps0_2
    _ = W1 m ρ c (Proc.devRef .tc main_arg0) := by host_skip hostOps0_1
    _ = W0 m ρ c (Proc.devRef .tc main_arg0) := by host_skip hostOps0

theorem rd3_0_main_arg3 (c : Dev nD) : W3 m ρ c (Proc.devRef .tc main_arg3) = W0 m ρ c (Proc.devRef .tc main_arg3) :=
  calc W3 m ρ c (Proc.devRef .tc main_arg3)
    _ = W2 m ρ c (Proc.devRef .tc main_arg3) := by host_skip hostOps0_2
    _ = W1 m ρ c (Proc.devRef .tc main_arg3) := by host_skip hostOps0_1
    _ = W0 m ρ c (Proc.devRef .tc main_arg3) := by host_skip hostOps0

theorem rd4_0_main_arg4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_skip hostOps0_2
    _ = W1 m ρ c (Proc.devRef .tc main_arg4) := by host_skip hostOps0_1
    _ = W0 m ρ c (Proc.devRef .tc main_arg4) := by host_skip hostOps0

theorem rd6_0_main_arg4 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_skip hostOps1
    _ = W3 m ρ c (Proc.devRef .tc main_arg4) := W4_of_ne m ρ c main_arg4 (by decide)
    _ = W2 m ρ c (Proc.devRef .tc main_arg4) := by host_skip hostOps0_2
    _ = W1 m ρ c (Proc.devRef .tc main_arg4) := by host_skip hostOps0_1
    _ = W0 m ρ c (Proc.devRef .tc main_arg4) := by host_skip hostOps0

theorem rd6_0_main_arg5 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_skip hostOps1
    _ = W3 m ρ c (Proc.devRef .tc main_arg5) := W4_of_ne m ρ c main_arg5 (by decide)
    _ = W2 m ρ c (Proc.devRef .tc main_arg5) := by host_skip hostOps0_2
    _ = W1 m ρ c (Proc.devRef .tc main_arg5) := by host_skip hostOps0_1
    _ = W0 m ρ c (Proc.devRef .tc main_arg5) := by host_skip hostOps0

theorem rd6_0_main_arg6 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_skip hostOps1
    _ = W3 m ρ c (Proc.devRef .tc main_arg6) := W4_of_ne m ρ c main_arg6 (by decide)
    _ = W2 m ρ c (Proc.devRef .tc main_arg6) := by host_skip hostOps0_2
    _ = W1 m ρ c (Proc.devRef .tc main_arg6) := by host_skip hostOps0_1
    _ = W0 m ρ c (Proc.devRef .tc main_arg6) := by host_skip hostOps0

theorem rd8_0_main_arg7 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_skip hostOps2
    _ = W5 m ρ c (Proc.devRef .tc main_arg7) := W6_of_ne m ρ c main_arg7 (by decide)
    _ = W4 m ρ c (Proc.devRef .tc main_arg7) := by host_skip hostOps1
    _ = W3 m ρ c (Proc.devRef .tc main_arg7) := W4_of_ne m ρ c main_arg7 (by decide)
    _ = W2 m ρ c (Proc.devRef .tc main_arg7) := by host_skip hostOps0_2
    _ = W1 m ρ c (Proc.devRef .tc main_arg7) := by host_skip hostOps0_1
    _ = W0 m ρ c (Proc.devRef .tc main_arg7) := by host_skip hostOps0

theorem rd9_0_main_arg8 (c : Dev nD) : W9 m ρ c (Proc.devRef .tc main_arg8) = W0 m ρ c (Proc.devRef .tc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := by host_skip hostOps2
    _ = W5 m ρ c (Proc.devRef .tc main_arg8) := W6_of_ne m ρ c main_arg8 (by decide)
    _ = W4 m ρ c (Proc.devRef .tc main_arg8) := by host_skip hostOps1
    _ = W3 m ρ c (Proc.devRef .tc main_arg8) := W4_of_ne m ρ c main_arg8 (by decide)
    _ = W2 m ρ c (Proc.devRef .tc main_arg8) := by host_skip hostOps0_2
    _ = W1 m ρ c (Proc.devRef .tc main_arg8) := by host_skip hostOps0_1
    _ = W0 m ρ c (Proc.devRef .tc main_arg8) := by host_skip hostOps0

theorem rd11_0_main_arg8 (c : Dev nD) : W11 m ρ c (Proc.devRef .tc main_arg8) = W0 m ρ c (Proc.devRef .tc main_arg8) :=
  calc W11 m ρ c (Proc.devRef .tc main_arg8)
    _ = W10 m ρ c (Proc.devRef .tc main_arg8) := W11_of_ne m ρ c main_arg8 (by decide)
    _ = W9 m ρ c (Proc.devRef .tc main_arg8) := by host_skip hostOps4
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := by host_skip hostOps2
    _ = W5 m ρ c (Proc.devRef .tc main_arg8) := W6_of_ne m ρ c main_arg8 (by decide)
    _ = W4 m ρ c (Proc.devRef .tc main_arg8) := by host_skip hostOps1
    _ = W3 m ρ c (Proc.devRef .tc main_arg8) := W4_of_ne m ρ c main_arg8 (by decide)
    _ = W2 m ρ c (Proc.devRef .tc main_arg8) := by host_skip hostOps0_2
    _ = W1 m ρ c (Proc.devRef .tc main_arg8) := by host_skip hostOps0_1
    _ = W0 m ρ c (Proc.devRef .tc main_arg8) := by host_skip hostOps0

theorem rd11_0_main_arg9 (c : Dev nD) : W11 m ρ c (Proc.devRef .tc main_arg9) = W0 m ρ c (Proc.devRef .tc main_arg9) :=
  calc W11 m ρ c (Proc.devRef .tc main_arg9)
    _ = W10 m ρ c (Proc.devRef .tc main_arg9) := W11_of_ne m ρ c main_arg9 (by decide)
    _ = W9 m ρ c (Proc.devRef .tc main_arg9) := by host_skip hostOps4
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := by host_skip hostOps2
    _ = W5 m ρ c (Proc.devRef .tc main_arg9) := W6_of_ne m ρ c main_arg9 (by decide)
    _ = W4 m ρ c (Proc.devRef .tc main_arg9) := by host_skip hostOps1
    _ = W3 m ρ c (Proc.devRef .tc main_arg9) := W4_of_ne m ρ c main_arg9 (by decide)
    _ = W2 m ρ c (Proc.devRef .tc main_arg9) := by host_skip hostOps0_2
    _ = W1 m ρ c (Proc.devRef .tc main_arg9) := by host_skip hostOps0_1
    _ = W0 m ρ c (Proc.devRef .tc main_arg9) := by host_skip hostOps0

theorem rd11_0_main_arg10 (c : Dev nD) : W11 m ρ c (Proc.devRef .tc main_arg10) = W0 m ρ c (Proc.devRef .tc main_arg10) :=
  calc W11 m ρ c (Proc.devRef .tc main_arg10)
    _ = W10 m ρ c (Proc.devRef .tc main_arg10) := W11_of_ne m ρ c main_arg10 (by decide)
    _ = W9 m ρ c (Proc.devRef .tc main_arg10) := by host_skip hostOps4
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := by host_skip hostOps2
    _ = W5 m ρ c (Proc.devRef .tc main_arg10) := W6_of_ne m ρ c main_arg10 (by decide)
    _ = W4 m ρ c (Proc.devRef .tc main_arg10) := by host_skip hostOps1
    _ = W3 m ρ c (Proc.devRef .tc main_arg10) := W4_of_ne m ρ c main_arg10 (by decide)
    _ = W2 m ρ c (Proc.devRef .tc main_arg10) := by host_skip hostOps0_2
    _ = W1 m ρ c (Proc.devRef .tc main_arg10) := by host_skip hostOps0_1
    _ = W0 m ρ c (Proc.devRef .tc main_arg10) := by host_skip hostOps0

theorem rd13_0_main_arg2 (c : Dev nD) : W13 m ρ c (Proc.devRef .tc main_arg2) = W0 m ρ c (Proc.devRef .tc main_arg2) :=
  calc W13 m ρ c (Proc.devRef .tc main_arg2)
    _ = W12 m ρ c (Proc.devRef .tc main_arg2) := W13_of_ne m ρ c main_arg2 (by decide)
    _ = W11 m ρ c (Proc.devRef .tc main_arg2) := by host_skip hostOps5
    _ = W10 m ρ c (Proc.devRef .tc main_arg2) := W11_of_ne m ρ c main_arg2 (by decide)
    _ = W9 m ρ c (Proc.devRef .tc main_arg2) := by host_skip hostOps4
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := by host_skip hostOps2
    _ = W5 m ρ c (Proc.devRef .tc main_arg2) := W6_of_ne m ρ c main_arg2 (by decide)
    _ = W4 m ρ c (Proc.devRef .tc main_arg2) := by host_skip hostOps1
    _ = W3 m ρ c (Proc.devRef .tc main_arg2) := W4_of_ne m ρ c main_arg2 (by decide)
    _ = W2 m ρ c (Proc.devRef .tc main_arg2) := by host_skip hostOps0_2
    _ = W1 m ρ c (Proc.devRef .tc main_arg2) := by host_skip hostOps0_1
    _ = W0 m ρ c (Proc.devRef .tc main_arg2) := by host_skip hostOps0

theorem rd13_0_main_arg11 (c : Dev nD) : W13 m ρ c (Proc.devRef .tc main_arg11) = W0 m ρ c (Proc.devRef .tc main_arg11) :=
  calc W13 m ρ c (Proc.devRef .tc main_arg11)
    _ = W12 m ρ c (Proc.devRef .tc main_arg11) := W13_of_ne m ρ c main_arg11 (by decide)
    _ = W11 m ρ c (Proc.devRef .tc main_arg11) := by host_skip hostOps5
    _ = W10 m ρ c (Proc.devRef .tc main_arg11) := W11_of_ne m ρ c main_arg11 (by decide)
    _ = W9 m ρ c (Proc.devRef .tc main_arg11) := by host_skip hostOps4
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := by host_skip hostOps2
    _ = W5 m ρ c (Proc.devRef .tc main_arg11) := W6_of_ne m ρ c main_arg11 (by decide)
    _ = W4 m ρ c (Proc.devRef .tc main_arg11) := by host_skip hostOps1
    _ = W3 m ρ c (Proc.devRef .tc main_arg11) := W4_of_ne m ρ c main_arg11 (by decide)
    _ = W2 m ρ c (Proc.devRef .tc main_arg11) := by host_skip hostOps0_2
    _ = W1 m ρ c (Proc.devRef .tc main_arg11) := by host_skip hostOps0_1
    _ = W0 m ρ c (Proc.devRef .tc main_arg11) := by host_skip hostOps0

theorem rd13_0_main_arg12 (c : Dev nD) : W13 m ρ c (Proc.devRef .tc main_arg12) = W0 m ρ c (Proc.devRef .tc main_arg12) :=
  calc W13 m ρ c (Proc.devRef .tc main_arg12)
    _ = W12 m ρ c (Proc.devRef .tc main_arg12) := W13_of_ne m ρ c main_arg12 (by decide)
    _ = W11 m ρ c (Proc.devRef .tc main_arg12) := by host_skip hostOps5
    _ = W10 m ρ c (Proc.devRef .tc main_arg12) := W11_of_ne m ρ c main_arg12 (by decide)
    _ = W9 m ρ c (Proc.devRef .tc main_arg12) := by host_skip hostOps4
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := by host_skip hostOps2
    _ = W5 m ρ c (Proc.devRef .tc main_arg12) := W6_of_ne m ρ c main_arg12 (by decide)
    _ = W4 m ρ c (Proc.devRef .tc main_arg12) := by host_skip hostOps1
    _ = W3 m ρ c (Proc.devRef .tc main_arg12) := W4_of_ne m ρ c main_arg12 (by decide)
    _ = W2 m ρ c (Proc.devRef .tc main_arg12) := by host_skip hostOps0_2
    _ = W1 m ρ c (Proc.devRef .tc main_arg12) := by host_skip hostOps0_1
    _ = W0 m ρ c (Proc.devRef .tc main_arg12) := by host_skip hostOps0

theorem rd4_3_main_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem rd4_3_main_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem rd4_3_main_v29 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem rd9_3_main_v3 (c : Dev nD) : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by host_skip hostOps2
    _ = W5 m ρ c (Proc.devRef .tc main_v3) := W6_of_ne m ρ c main_v3 (by decide)
    _ = W4 m ρ c (Proc.devRef .tc main_v3) := by host_skip hostOps1
    _ = W3 m ρ c (Proc.devRef .tc main_v3) := W4_of_ne m ρ c main_v3 (by decide)

theorem rd9_3_main_v6 (c : Dev nD) : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_skip hostOps2
    _ = W5 m ρ c (Proc.devRef .tc main_v6) := W6_of_ne m ρ c main_v6 (by decide)
    _ = W4 m ρ c (Proc.devRef .tc main_v6) := by host_skip hostOps1
    _ = W3 m ρ c (Proc.devRef .tc main_v6) := W4_of_ne m ρ c main_v6 (by decide)

theorem rd9_3_main_v29 (c : Dev nD) : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := by host_skip hostOps2
    _ = W5 m ρ c (Proc.devRef .tc main_v29) := W6_of_ne m ρ c main_v29 (by decide)
    _ = W4 m ρ c (Proc.devRef .tc main_v29) := by host_skip hostOps1
    _ = W3 m ρ c (Proc.devRef .tc main_v29) := W4_of_ne m ρ c main_v29 (by decide)

theorem rd7_5_main_v43 (c : Dev nD) : W7 m ρ c (Proc.devRef .tc main_v43) = W5 m ρ c (Proc.devRef .tc main_v43) :=
  calc W7 m ρ c (Proc.devRef .tc main_v43)
    _ = W6 m ρ c (Proc.devRef .tc main_v43) := by host_skip hostOps2
    _ = W5 m ρ c (Proc.devRef .tc main_v43) := (W6_arr m ρ c 0).trans (((dat1 (V5 m ρ) c).arrAt_in 0 rfl _).trans (A_eq1 (V5 m ρ) c 0))

theorem rd12_10_main_v69 (c : Dev nD) : W12 m ρ c (Proc.devRef .tc main_v69) = W10 m ρ c (Proc.devRef .tc main_v69) :=
  calc W12 m ρ c (Proc.devRef .tc main_v69)
    _ = W11 m ρ c (Proc.devRef .tc main_v69) := by host_skip hostOps5
    _ = W10 m ρ c (Proc.devRef .tc main_v69) := (W11_arr m ρ c 0).trans (((dat4 (V10 m ρ) c).arrAt_in 0 rfl _).trans (A_eq4 (V10 m ρ) c 0))

theorem rd3_0_main_arg1 (c : Dev nD) : W3 m ρ c (Proc.devRef .tc main_arg1) = W0 m ρ c (Proc.devRef .tc main_arg1) :=
  calc W3 m ρ c (Proc.devRef .tc main_arg1)
    _ = W2 m ρ c (Proc.devRef .tc main_arg1) := by host_skip hostOps0_2
    _ = W1 m ρ c (Proc.devRef .tc main_arg1) := by host_skip hostOps0_1
    _ = W0 m ρ c (Proc.devRef .tc main_arg1) := by host_skip hostOps0

end Cert.KernelIdeal.Chain

end
-- ==== Proof.ChainNorm.lean ====
/-
  The first stretches of host operations of the kernel program: from the edge list to the source and
  destination index vectors (the edges followed by one self-loop per node) and the edge weights — the product
  of the guarded inverse square roots of the destination-degree counts at an edge's two ends.
-/
import proofs.«129027_j70815420776783_1_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem Idealize.ShloMosaic.StableHlo
open Idealize.ShloMosaic.Pipeline (Dat Cfg Window)

variable (m : (ℓ : Loc nD τ sig) → Buf (Elt Ideal) ℓ) (ρ : Dev nD → PrngReg)

/-- The source indices: row 0 of the edge list followed by 0 … 49999. -/
def srcK (E : IVec S2x800000 32) : IVec S850000 32 :=
  concatenate S850000 0 [⟨S800000, shapeCast S800000 (extractStridedSlice S1x800000 ![0, 0] E slices_S2x800000_S1x800000_0_0) shapeCasts_S1x800000_S800000⟩, ⟨S50000, iotaInDim S50000 32 0⟩] concatenates_S800000_S50000_S850000_d0

/-- The destination indices: row 1 of the edge list followed by 0 … 49999. -/
def dstK (E : IVec S2x800000 32) : IVec S850000 32 :=
  concatenate S850000 0 [⟨S800000, shapeCast S800000 (extractStridedSlice S1x800000 ![1, 0] E slices_S2x800000_S1x800000_1_0) shapeCasts_S1x800000_S800000⟩, ⟨S50000, iotaInDim S50000 32 0⟩] concatenates_S800000_S50000_S850000_d0

/-- The degree counts: ones added at the destination indices. -/
def degK (E : IVec S2x800000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (dstK E))
    (broadcastInDim S850000 ![] bcast_S_S850000 (constant (F := Ideal) S_ .f32 0x3F800000#32))

/-- The guarded inverse square root of the degree: rsqrt where the count is positive, else 0. -/
def dinvK (E : IVec S2x800000 32) : FVec Ideal S50000 .f32 :=
  select (cmpf .ogt (degK E) (broadcastInDim S50000 ![] bcast_S_S50000 (constant (F := Ideal) S_ .f32 0x00000000#32)))
    (Host.rsqrt (degK E))
    (broadcastInDim S50000 ![] bcast_S_S50000 (id (constant (F := Ideal) S_ .f32 0x00000000#32)))

/-- An index vector with its negative entries wrapped by the node count. -/
def wrapK (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The edge weights: the guarded inverse square roots at the source times those at the destination. -/
def normK (E : IVec S2x800000 32) : FVec Ideal S850000 .f32 :=
  mulf (Host.gather gather_S50000_S850000x1_S850000_n_0_n_n_0_1_1 (dinvK E) (wrapK (srcK E)))
    (Host.gather gather_S50000_S850000x1_S850000_n_0_n_n_0_1_1 (dinvK E) (wrapK (dstK E)))

set_option maxHeartbeats 8000000 in
theorem W3_v3 (c : Dev nD) : W3 m ρ c (Proc.devRef .tc main_v3) = srcK (W0 m ρ c (Proc.devRef .tc main_arg1)) := by
  dsimp only [W3, W2, W1]
  after_results
  all_goals rfl

set_option maxHeartbeats 8000000 in
theorem W3_v6 (c : Dev nD) : W3 m ρ c (Proc.devRef .tc main_v6) = dstK (W0 m ρ c (Proc.devRef .tc main_arg1)) := by
  dsimp only [W3, W2, W1]
  after_results
  all_goals rfl

end Cert.KernelIdeal.Chain

end
-- ==== Proof.ChainNormW.lean ====
/-
  The edge weights as the first launch finds them, stretch by stretch: after the first stretch the degree
  counts' comparison with zero and their inverse square roots; after the outlined selection the guarded inverse
  square roots; after the third stretch the products of the two gathered guards, one per edge.
-/
import proofs.«129027_j70815420776783_1_alg».proof.Proof.Reads
import proofs.«129027_j70815420776783_1_alg».proof.Proof.ChainNorm
set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem Idealize.ShloMosaic.StableHlo
open Idealize.ShloMosaic.Pipeline (Dat Cfg Window)

variable (m : (ℓ : Loc nD τ sig) → Buf (Elt Ideal) ℓ) (ρ : Dev nD → PrngReg)

set_option maxHeartbeats 8000000 in
/-- After the first stretch: which degree counts are positive. -/
theorem W1_v12 (c : Dev nD) : W1 m ρ c (Proc.devRef .tc main_v12)
    = cmpf .ogt (degK (W0 m ρ c (Proc.devRef .tc main_arg1))) (broadcastInDim S50000 ![] bcast_S_S50000 (constant (F := Ideal) S_ .f32 0x00000000#32)) := by
  dsimp only [W1]
  after_results
  all_goals rfl

set_option maxHeartbeats 8000000 in
/-- After the first stretch: the inverse square roots of the degree counts. -/
theorem W1_v13 (c : Dev nD) : W1 m ρ c (Proc.devRef .tc main_v13)
    = Host.rsqrt (degK (W0 m ρ c (Proc.devRef .tc main_arg1))) := by
  dsimp only [W1]
  after_results
  all_goals rfl

set_option maxHeartbeats 8000000 in
/-- After the first stretch: the zero the selection falls back to. -/
theorem W1_cst2 (c : Dev nD) : W1 m ρ c (Proc.devRef .tc main_cst_2) = (constant (F := Ideal) S_ .f32 0x00000000#32) := by
  dsimp only [W1]
  after_results
  all_goals rfl

/-- The source indices are not touched by the second and third stretches. -/
theorem W2_v3 (c : Dev nD) : W2 m ρ c (Proc.devRef .tc main_v3) = srcK (W0 m ρ c (Proc.devRef .tc main_arg1)) :=
  (show W3 m ρ c (Proc.devRef .tc main_v3) = W2 m ρ c (Proc.devRef .tc main_v3) from by host_skip hostOps0_2).symm.trans (W3_v3 m ρ c)

/-- The destination indices are not touched by the second and third stretches. -/
theorem W2_v6 (c : Dev nD) : W2 m ρ c (Proc.devRef .tc main_v6) = dstK (W0 m ρ c (Proc.devRef .tc main_arg1)) :=
  (show W3 m ρ c (Proc.devRef .tc main_v6) = W2 m ρ c (Proc.devRef .tc main_v6) from by host_skip hostOps0_2).symm.trans (W3_v6 m ρ c)

set_option maxHeartbeats 8000000 in
/-- The outlined selection, from any contents before it: where the comparison holds the inverse square root,
    elsewhere the spread zero. -/
theorem sel_of (V1 : Valuation τ sig (Elt Ideal)) :
    StableHlo.after hostOps0_1 V1 (Proc.devRef .tc main_v14)
      = select (V1 (Proc.devRef .tc main_v12) : IVec S50000 1) (V1 (Proc.devRef .tc main_v13) : FVec Ideal S50000 .f32)
          (broadcastInDim S50000 ![] bcast_S_S50000 (id (V1 (Proc.devRef .tc main_cst_2) : FVec Ideal S_ .f32))) := by
  after_results
  all_goals rfl

/-- After the outlined selection: the guarded inverse square roots of the degree counts. -/
theorem W2_v14 (c : Dev nD) : W2 m ρ c (Proc.devRef .tc main_v14) = dinvK (W0 m ρ c (Proc.devRef .tc main_arg1)) := by
  refine (sel_of (W1 m ρ c)).trans ?_
  rw [W1_v12, W1_v13, W1_cst2]
  rfl

set_option maxHeartbeats 8000000 in
/-- The third stretch, from any contents before it: the product of the guards gathered at the wrapped sources and
    at the wrapped destinations. -/
theorem weights_of (V2 : Valuation τ sig (Elt Ideal)) :
    (StableHlo.after hostOps0_2 V2 (Proc.devRef .tc main_v29) : FVec Ideal S850000 .f32)
      = mulf (F := Ideal) (φ := .f32) (Host.gather gather_S50000_S850000x1_S850000_n_0_n_n_0_1_1 (V2 (Proc.devRef .tc main_v14) : FVec Ideal S50000 .f32)
            (wrapK (V2 (Proc.devRef .tc main_v3) : IVec S850000 32)))
          (Host.gather gather_S50000_S850000x1_S850000_n_0_n_n_0_1_1 (V2 (Proc.devRef .tc main_v14) : FVec Ideal S50000 .f32)
            (wrapK (V2 (Proc.devRef .tc main_v6) : IVec S850000 32))) := by
  after_results
  all_goals rfl

/-- The weight buffer at the first launch is the edge weights of the launched edge list. -/
theorem W3_v29 (c : Dev nD) : W3 m ρ c (Proc.devRef .tc main_v29) = normK (W0 m ρ c (Proc.devRef .tc main_arg1)) := by
  refine (weights_of (W2 m ρ c)).trans ?_
  rw [W2_v14, W2_v3, W2_v6]
  rfl

end Cert.KernelIdeal.Chain

end
-- ==== Proof.ChainConv.lean ====
/-
  The message-passing stretches of host operations of the kernel program: gather the transformed features'
  rows at the source indices (negative indices wrapped by the node count), scale each gathered row by its edge's
  weight, and add the rows into the table at the destination indices; and the bias recast as a row.
-/
import proofs.«129027_j70815420776783_1_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem Idealize.ShloMosaic.StableHlo
open Idealize.ShloMosaic.Pipeline (Dat Cfg Window)

variable (m : (ℓ : Loc nD τ sig) → Buf (Elt Ideal) ℓ) (ρ : Dev nD → PrngReg)

/-- Gather rows at the wrapped source indices, scale by the edge weights, scatter-add at the destinations. -/
def convK (h : (⟨S50000x128, .f32⟩ : BufTy).Contents (Elt Ideal)) (src dst : (⟨S850000, .i32⟩ : BufTy).Contents (Elt Ideal)) (w : (⟨S850000, .f32⟩ : BufTy).Contents (Elt Ideal)) : (⟨S50000x128, .f32⟩ : BufTy).Contents (Elt Ideal) :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (mulf
      (Host.gather gather_S50000x128_S850000x1_S850000x128_1_0_n_n_0_1_1128 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x128 ![0, 1] bcast_S850000x1_S850000x128_0_1
        (broadcastInDim S850000x1 ![0] bcast_S850000_S850000x1_0 w)))

set_option maxHeartbeats 4000000 in
/-- Layer 1's aggregated features, from the first product and the index and weight buffers as the first launch leaves them. -/
theorem W5_v43 (c : Dev nD) : W5 m ρ c (Proc.devRef .tc main_v43)
    = convK (W4 m ρ c (Proc.devRef .tc main_v30)) (W4 m ρ c (Proc.devRef .tc main_v3))
        (W4 m ρ c (Proc.devRef .tc main_v6)) (W4 m ρ c (Proc.devRef .tc main_v29)) := by
  dsimp only [W5]
  after_results
  all_goals rfl

set_option maxHeartbeats 4000000 in
/-- Layer 1's bias as a row. -/
theorem W5_v44 (c : Dev nD) : W5 m ρ c (Proc.devRef .tc main_v44)
    = shapeCast S1x128 (W4 m ρ c (Proc.devRef .tc main_arg4)) shapeCasts_S128_S1x128 := by
  dsimp only [W5]
  after_results
  all_goals rfl

set_option maxHeartbeats 4000000 in
/-- Layer 2's aggregated features. -/
theorem W10_v69 (c : Dev nD) : W10 m ρ c (Proc.devRef .tc main_v69)
    = convK (W9 m ρ c (Proc.devRef .tc main_v56)) (W9 m ρ c (Proc.devRef .tc main_v3))
        (W9 m ρ c (Proc.devRef .tc main_v6)) (W9 m ρ c (Proc.devRef .tc main_v29)) := by
  dsimp only [W10]
  after_results
  all_goals rfl

set_option maxHeartbeats 4000000 in
/-- Layer 2's bias as a row. -/
theorem W10_v70 (c : Dev nD) : W10 m ρ c (Proc.devRef .tc main_v70)
    = shapeCast S1x128 (W9 m ρ c (Proc.devRef .tc main_arg8)) shapeCasts_S128_S1x128 := by
  dsimp only [W10]
  after_results
  all_goals rfl

end Cert.KernelIdeal.Chain

end
-- ==== Proof.ChainTail.lean ====
/-
  The last stretch of host operations of the kernel program: the per-graph sums of the node features and
  the per-graph node counts (two accumulating scatters by graph id), the quotient by max(count, 1), the
  dense layer and its bias, as one function of the node features, the graph ids, the weights and the bias.
-/
import proofs.«129027_j70815420776783_1_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem Idealize.ShloMosaic.StableHlo
open Idealize.ShloMosaic.Pipeline (Dat Cfg Window)

variable (m : (ℓ : Loc nD τ sig) → Buf (Elt Ideal) ℓ) (ρ : Dev nD → PrngReg)

/-- Mean pooling per graph followed by the dense layer: sums by graph id over max(count, 1), times Wfc, plus bfc. -/
def tailK (y : FVec Ideal S50000x128 .f32) (batch : IVec S50000 32) (wfc : FVec Ideal S128x10 .f32) (bfc : FVec Ideal S10 .f32) : FVec Ideal S64x10 .f32 :=
  addf
    (Host.dotGeneral dot_S64x128_S128x10_S64x10_1_0_0_1_n_n none
      (Host.divf
        (Host.scatterAdd scatter_S64x128_S50000x1_S50000x128_1_0_0_1
          (broadcastInDim S64x128 ![] bcast_S_S64x128 (constant (F := Ideal) S_ .f32 0x00000000#32))
          (broadcastInDim S50000x1 ![0] bcast_S50000_S50000x1_0 batch) y)
        (broadcastInDim S64x128 ![0, 1] bcast_S64x1_S64x128_0_1
          (broadcastInDim S64x1 ![0] bcast_S64_S64x1_0
            (maximumf
              (Host.scatterAdd scatter_S64_S50000x1_S50000_n_0_0_1
                (broadcastInDim S64 ![] bcast_S_S64 (constant (F := Ideal) S_ .f32 0x00000000#32))
                (broadcastInDim S50000x1 ![0] bcast_S50000_S50000x1_0 batch)
                (broadcastInDim S50000 ![] bcast_S_S50000 (constant (F := Ideal) S_ .f32 0x3F800000#32)))
              (broadcastInDim S64 ![] bcast_S_S64 (constant (F := Ideal) S_ .f32 0x3F800000#32))))))
      wfc)
    (broadcastInDim S64x10 ![0, 1] bcast_S1x10_S64x10_0_1 (broadcastInDim S1x10 ![1] bcast_S10_S1x10_1 bfc))

set_option maxHeartbeats 4000000 in
/-- The program's result is the pooled dense layer of the second layer's output, the graph ids, the weights and
    the bias as the last launch leaves them. -/
theorem W14_result (c : Dev nD) : W14 m ρ c (Proc.devRef .tc main_v97)
    = tailK (W13 m ρ c (Proc.devRef .tc main_v81)) (W13 m ρ c (Proc.devRef .tc main_arg2))
        (W13 m ρ c (Proc.devRef .tc main_arg11)) (W13 m ρ c (Proc.devRef .tc main_arg12)) := by
  dsimp only [W14]
  after_results
  all_goals rfl

end Cert.KernelIdeal.Chain

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowsProduct.lean ====
/-
  A product of an M×K array with a K×N matrix as ONE function of the two arrays: entry (p, q) is row p of the left
  array times the matrix, at column q, and depends on no other row.  The host's dot_general of the plain dimension
  numbers is that function.  So when the rows are cut into consecutive blocks and each block is multiplied by the whole
  matrix, the blocks laid end to end are the whole product.
-/
import Idealize.ShloMosaic.Lib.ValueIdx
import Idealize.ShloMosaic.PureOps.Ideal.Laws
import proofs.«129027_j70815420776783_1_alg».proof.Proof.LibRowDot

noncomputable section

open scoped BigOperators

namespace Cert.RowsProduct

open Idealize.ShloMosaic Idealize.ShloMosaic.ValueIdx Cert.RowDot

/-- The whole product: entry i is (row (i 0) of x) · w at column (i 1). -/
def rowsTimes {M K N : Nat} (x : (⟨2, ![M, K]⟩ : Shape).Idx → EReal) (w : (⟨2, ![K, N]⟩ : Shape).Idx → EReal) :
    (⟨2, ![M, N]⟩ : Shape).Idx → EReal :=
  fun i => rowDot (rowOf x (i 0)) w (i 1)

/-- The host's product of the plain dimension numbers is the whole product. -/
theorem hostDot_eq_rowsTimes {M K N : Nat} (prec : Option ContractPrecision)
    (x : FVec Ideal (⟨2, ![M, K]⟩ : Shape) .f32) (w : FVec Ideal (⟨2, ![K, N]⟩ : Shape) .f32) :
    Host.dotGeneral (F := Ideal) (DotDims.plain M K N) prec x w = rowsTimes x w :=
  funext fun j => dotGeneral_plain_apply prec .single x w j

/-- The vector unit's product into zero of a block of rows, after the changes of float format that keep every value:
    entry j is row (j 0) of the block times the matrix at column (j 1). -/
theorem blockDot_apply {M K N : Nat} {ψ₁ ψ₂ : FTy} (prec : Option ContractPrecision) (h₁ : ψ₁.bits < FTy.f32.bits) (h₂ : ψ₂.bits < FTy.f32.bits)
    (a : FVec Ideal (⟨2, ![M, K]⟩ : Shape) .f32) (w : FVec Ideal (⟨2, ![K, N]⟩ : Shape) .f32) (j : (⟨2, ![M, N]⟩ : Shape).Idx) :
    matmul (DotDims.plain M K N) prec (truncf ψ₁ a h₁) (truncf ψ₂ w h₂)
        (constant (F := Ideal) ⟨2, ![M, N]⟩ .f32 0x00000000#32) j
      = rowDot (rowOf a (j 0)) w (j 1) :=
  matmul_plain_zero_apply prec (φ₁ := ψ₁) (φ₂ := ψ₂) a w j

end Cert.RowsProduct

end
-- ==== Proof.RegMatmul0.lean ====
/-
  The first product kernel, read as one function of whole arrays.

  The 50000 rows of the left array are cut into 25 consecutive blocks of 2000 rows.  Grid point t multiplies block t
  by the whole 128×128 matrix and writes the 2000×128 result to rows 2000t … 2000t + 1999 of the output.  Entry (p, q)
  of a product depends only on row p of the left array, so block t of the output is block t of the whole product, and
  the 25 blocks, which tile the rows, leave the whole product.
-/
import proofs.«129027_j70815420776783_1_alg».proof.Proof.Gen.KernelIdeal.Frame
import proofs.«129027_j70815420776783_1_alg».proof.Proof.LibRowsProduct
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.RowDot Cert.RowsProduct

/-- The product's dimension numbers are the plain ones of a 2000×128 by 128×128 product. -/
theorem dims0 : dot_S2000x128_S128x128_S2000x128_1_0_0_1_n_n = DotDims.plain 2000 128 128 := rfl

/-- The offsets (0, 0) are zero on every axis. -/
theorem origin0 : (![0, 0] : Fin 2 → Nat) = fun _ => 0 := funext fun a => by fin_cases a <;> rfl

/-- The value the body stores, at an entry: row (j 0) of the block of rows times the matrix, at column (j 1).  The
    changes of float format on the way into the product keep every value. -/
theorem pay0_apply (x0 : Vec Ideal S2000x128 .f32) (x1 : Vec Ideal S128x128 .f32) (j : S2000x128.Idx) :
    k0_pay1 x0 x1 j = rowDot (rowOf x0 (j 0)) x1 (j 1) := by
  unfold k0_pay1
  rw [dims0]
  exact blockDot_apply none bitsLt_bf16_f32 bitsLt_bf16_f32 x0 x1 j

/-- The block indices over the 25 grid points: the two row windows sit at block (t, 0), the matrix at (0, 0). -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section AnyValues

variable {F : FTy → Type} [FloatOps F]
variable (V : (c : Dev nD) → (b : Ref sig .tc) → Buf (Elt F) ((c : Thread nD τ).loc b))

/-- Block t of the left array is its rows 2000t … 2000t + 1999. -/
theorem rows0_apply (c : Dev nD) (t : Fin cfg0.N) (y : S2000x128.Idx) (k : S50000x128.Idx)
    (hk0 : (k 0).val = 2000 * t.val + (y 0).val) (hk1 : (k 1).val = (y 1).val) :
    (iblk0 V c 0 t : Vec F S2000x128 .f32) y = (V c (Pipeline.arrRef spec0 0) : S50000x128.Idx → Elt F .f32) k := by
  obtain ⟨e0, e1, -⟩ := where0 t
  unfold iblk0
  rw [View.read_apply]
  show V c (Pipeline.arrRef spec0 0) _ = V c (Pipeline.arrRef spec0 0) _
  refine congrArg (V c (Pipeline.arrRef spec0 0)) ?_
  funext a
  apply Fin.ext
  match a with
  | ⟨0, _⟩ => show win0_0.index t 0 * 2000 + 1 * (y 0).val = (k 0).val; rw [e0, hk0]; omega
  | ⟨1, _⟩ => show win0_0.index t 1 * 128 + 1 * (y 1).val = (k 1).val; rw [e1, hk1]; omega

/-- The matrix's one block is the whole matrix. -/
theorem mat0_apply (c : Dev nD) (t : Fin cfg0.N) (y : S128x128.Idx) :
    (iblk0 V c 1 t : Vec F S128x128 .f32) y = (V c (Pipeline.arrRef spec0 1) : S128x128.Idx → Elt F .f32) y := by
  obtain ⟨-, -, e2, e3, -⟩ := where0 t
  unfold iblk0
  rw [View.read_apply]
  show V c (Pipeline.arrRef spec0 1) _ = V c (Pipeline.arrRef spec0 1) _
  refine congrArg (V c (Pipeline.arrRef spec0 1)) ?_
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

end AnyValues

section ExactValues

variable (V : (c : Dev nD) → (b : Ref sig .tc) → Buf (Elt Ideal) ((c : Thread nD τ).loc b))

/-- The whole product of the two arrays as the region finds them. -/
abbrev whole0 (c : Dev nD) : S50000x128.Idx → EReal :=
  rowsTimes (M := 50000) (K := 128) (N := 128) (V c (Pipeline.arrRef spec0 0)) (V c (Pipeline.arrRef spec0 1))

/-- Grid point t writes back block t of the whole product: entry (p, q) of the block's product reads row p of the
    block, which is row 2000t + p of the left array, and column q of the whole matrix. -/
theorem wrote0 (c : Dev nD) (t : Fin cfg0.N) :
    (dat0 (F := Ideal) V c).flushed 2 t = ((cfg0.win 2).blk t).view.read (Elt Ideal) (whole0 V c) := by
  show (cfg0.win 2).cut (grid0.coords t) ((dat0 V c).after 2 t) = _
  rw [after0_2]
  unfold out0_2
  rw [View.canon_unit_zero origin0]
  simp only [View.ld_unit_zero (S := S2000x128) origin0, View.ld_unit_zero (S := S128x128) origin0]
  obtain ⟨-, -, -, -, e4, e5⟩ := where0 t
  funext j
  show k0_pay1 (iblk0 V c 0 t) (iblk0 V c 1 t) j = whole0 V c (((cfg0.win 2).blk t).view.emb j)
  refine (pay0_apply (iblk0 V c 0 t) (iblk0 V c 1 t) j).trans ?_
  unfold whole0 rowsTimes rowDot rowOf
  refine Finset.sum_congr rfl fun k _ => ?_
  refine congrArg₂ (fun a b : EReal => a * b) ?_ ?_
  · refine rows0_apply V c t (ix2 (j 0) k) _ ?_ ?_
    · show win0_2.index t 0 * 2000 + 1 * (j 0).val = 2000 * t.val + (j 0).val
      rw [e4]; omega
    · rfl
  · refine (mat0_apply V c t (ix2 k (j 1))).trans (congrArg (V c (Pipeline.arrRef spec0 1)) ?_)
    funext a
    apply Fin.ext
    match a with
    | ⟨0, _⟩ => rfl
    | ⟨1, _⟩ => show (j 1).val = win0_2.index t 1 * 128 + 1 * (j 1).val; rw [e5]; omega

/-- An index of the output lies in point t's block iff each coordinate lies in the block's range on its axis. -/
theorem inBlock0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Row r of the output is written by grid point r / 2000: the 25 blocks tile the 50000 rows. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, e4, e5⟩ := where0 t
  refine ⟨t, flush0_2 t, ?_⟩
  rw [inBlock0]
  intro a
  match a with
  | ⟨0, _⟩ =>
    show win0_2.index t 0 * 2000 ≤ (i 0).val ∧ (i 0).val < win0_2.index t 0 * 2000 + 2000
    rw [e4, ht]; omega
  | ⟨1, _⟩ =>
    show win0_2.index t 1 * 128 ≤ (i 1).val ∧ (i 1).val < win0_2.index t 1 * 128 + 128
    rw [e5]; omega

/-- After the region the output array holds the whole product of the two arrays the region found. -/
theorem final0 (c : Dev nD) :
    (dat0 (F := Ideal) V c).arrAt 2 cfg0.N
      = Cert.RowsProduct.rowsTimes (V c (Pipeline.arrRef spec0 0)) (V c (Pipeline.arrRef spec0 1)) :=
  (dat0 V c).arrAt_eq_of_cover 2 (whole0 V c) (fun t _ => wrote0 V c t) covered0

end ExactValues

end Cert.KernelIdeal.RegionValue

end
-- ==== Proof.RegMatmul3.lean ====
/-
  The second product kernel, read as one function of whole arrays.

  The 50000 rows of the left array are cut into 25 consecutive blocks of 2000 rows.  Grid point t multiplies block t
  by the whole 128×128 matrix and writes the 2000×128 result to rows 2000t … 2000t + 1999 of the output.  Entry (p, q)
  of a product depends only on row p of the left array, so block t of the output is block t of the whole product, and
  the 25 blocks, which tile the rows, leave the whole product.
-/
import proofs.«129027_j70815420776783_1_alg».proof.Proof.Gen.KernelIdeal.Frame
import proofs.«129027_j70815420776783_1_alg».proof.Proof.LibRowsProduct
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.RowDot Cert.RowsProduct

/-- The product's dimension numbers are the plain ones of a 2000×128 by 128×128 product. -/
theorem dims3 : dot_S2000x128_S128x128_S2000x128_1_0_0_1_n_n = DotDims.plain 2000 128 128 := rfl

/-- The offsets (0, 0) are zero on every axis. -/
theorem origin3 : (![0, 0] : Fin 2 → Nat) = fun _ => 0 := funext fun a => by fin_cases a <;> rfl

/-- The value the body stores, at an entry: row (j 0) of the block of rows times the matrix, at column (j 1).  The
    changes of float format on the way into the product keep every value, and the recast of the block to its own shape
    changes nothing. -/
theorem pay3_apply (x0 : Vec Ideal S2000x128 .f32) (x1 : Vec Ideal S128x128 .f32) (j : S2000x128.Idx) :
    k3_pay1 x0 x1 j = rowDot (rowOf x0 (j 0)) x1 (j 1) := by
  unfold k3_pay1
  rw [dims3, shapeCast_self]
  exact blockDot_apply none bitsLt_bf16_f32 bitsLt_bf16_f32 x0 x1 j

/-- The block indices over the 25 grid points: the two row windows sit at block (t, 0), the matrix at (0, 0). -/
theorem where3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section AnyValues

variable {F : FTy → Type} [FloatOps F]
variable (V : (c : Dev nD) → (b : Ref sig .tc) → Buf (Elt F) ((c : Thread nD τ).loc b))

/-- Block t of the left array is its rows 2000t … 2000t + 1999. -/
theorem rows3_apply (c : Dev nD) (t : Fin cfg3.N) (y : S2000x128.Idx) (k : S50000x128.Idx)
    (hk0 : (k 0).val = 2000 * t.val + (y 0).val) (hk1 : (k 1).val = (y 1).val) :
    (iblk3 V c 0 t : Vec F S2000x128 .f32) y = (V c (Pipeline.arrRef spec3 0) : S50000x128.Idx → Elt F .f32) k := by
  obtain ⟨e0, e1, -⟩ := where3 t
  unfold iblk3
  rw [View.read_apply]
  show V c (Pipeline.arrRef spec3 0) _ = V c (Pipeline.arrRef spec3 0) _
  refine congrArg (V c (Pipeline.arrRef spec3 0)) ?_
  funext a
  apply Fin.ext
  match a with
  | ⟨0, _⟩ => show win3_0.index t 0 * 2000 + 1 * (y 0).val = (k 0).val; rw [e0, hk0]; omega
  | ⟨1, _⟩ => show win3_0.index t 1 * 128 + 1 * (y 1).val = (k 1).val; rw [e1, hk1]; omega

/-- The matrix's one block is the whole matrix. -/
theorem mat3_apply (c : Dev nD) (t : Fin cfg3.N) (y : S128x128.Idx) :
    (iblk3 V c 1 t : Vec F S128x128 .f32) y = (V c (Pipeline.arrRef spec3 1) : S128x128.Idx → Elt F .f32) y := by
  obtain ⟨-, -, e2, e3, -⟩ := where3 t
  unfold iblk3
  rw [View.read_apply]
  show V c (Pipeline.arrRef spec3 1) _ = V c (Pipeline.arrRef spec3 1) _
  refine congrArg (V c (Pipeline.arrRef spec3 1)) ?_
  funext a
  apply Fin.ext
  match a with
  | ⟨0, _⟩ => show win3_1.index t 0 * 128 + 1 * (y 0).val = (y 0).val; rw [e2]; omega
  | ⟨1, _⟩ => show win3_1.index t 1 * 128 + 1 * (y 1).val = (y 1).val; rw [e3]; omega

end AnyValues

section ExactValues

variable (V : (c : Dev nD) → (b : Ref sig .tc) → Buf (Elt Ideal) ((c : Thread nD τ).loc b))

/-- The whole product of the two arrays as the region finds them. -/
abbrev whole3 (c : Dev nD) : S50000x128.Idx → EReal :=
  rowsTimes (M := 50000) (K := 128) (N := 128) (V c (Pipeline.arrRef spec3 0)) (V c (Pipeline.arrRef spec3 1))

/-- Grid point t writes back block t of the whole product: entry (p, q) of the block's product reads row p of the
    block, which is row 2000t + p of the left array, and column q of the whole matrix. -/
theorem wrote3 (c : Dev nD) (t : Fin cfg3.N) :
    (dat3 (F := Ideal) V c).flushed 2 t = ((cfg3.win 2).blk t).view.read (Elt Ideal) (whole3 V c) := by
  show (cfg3.win 2).cut (grid3.coords t) ((dat3 V c).after 2 t) = _
  rw [after3_2]
  unfold out3_2
  rw [View.canon_unit_zero origin3]
  simp only [View.ld_unit_zero (S := S2000x128) origin3, View.ld_unit_zero (S := S128x128) origin3]
  obtain ⟨-, -, -, -, e4, e5⟩ := where3 t
  funext j
  show k3_pay1 (iblk3 V c 0 t) (iblk3 V c 1 t) j = whole3 V c (((cfg3.win 2).blk t).view.emb j)
  refine (pay3_apply (iblk3 V c 0 t) (iblk3 V c 1 t) j).trans ?_
  unfold whole3 rowsTimes rowDot rowOf
  refine Finset.sum_congr rfl fun k _ => ?_
  refine congrArg₂ (fun a b : EReal => a * b) ?_ ?_
  · refine rows3_apply V c t (ix2 (j 0) k) _ ?_ ?_
    · show win3_2.index t 0 * 2000 + 1 * (j 0).val = 2000 * t.val + (j 0).val
      rw [e4]; omega
    · rfl
  · refine (mat3_apply V c t (ix2 k (j 1))).trans (congrArg (V c (Pipeline.arrRef spec3 1)) ?_)
    funext a
    apply Fin.ext
    match a with
    | ⟨0, _⟩ => rfl
    | ⟨1, _⟩ => show (j 1).val = win3_2.index t 1 * 128 + 1 * (j 1).val; rw [e5]; omega

/-- An index of the output lies in point t's block iff each coordinate lies in the block's range on its axis. -/
theorem inBlock3 (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v56).slice (win3_2.rect t)).set ↔ _
  rw [View.set_slice_whole, Rect.mem_set_unit]
  exact Iff.rfl

/-- Row r of the output is written by grid point r / 2000: the 25 blocks tile the 50000 rows. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by omega⟩, rfl⟩
  obtain ⟨-, -, -, -, e4, e5⟩ := where3 t
  refine ⟨t, flush3_2 t, ?_⟩
  rw [inBlock3]
  intro a
  match a with
  | ⟨0, _⟩ =>
    show win3_2.index t 0 * 2000 ≤ (i 0).val ∧ (i 0).val < win3_2.index t 0 * 2000 + 2000
    rw [e4, ht]; omega
  | ⟨1, _⟩ =>
    show win3_2.index t 1 * 128 ≤ (i 1).val ∧ (i 1).val < win3_2.index t 1 * 128 + 128
    rw [e5]; omega

/-- After the region the output array holds the whole product of the two arrays the region found. -/
theorem final3 (c : Dev nD) :
    (dat3 (F := Ideal) V c).arrAt 2 cfg3.N
      = Cert.RowsProduct.rowsTimes (V c (Pipeline.arrRef spec3 0)) (V c (Pipeline.arrRef spec3 1)) :=
  (dat3 V c).arrAt_eq_of_cover 2 (whole3 V c) (fun t _ => wrote3 V c t) covered3

end ExactValues

end Cert.KernelIdeal.RegionValue

end
-- ==== Proof.KStages.lean ====
/-
  The kernel program's products and aggregations as functions of the launch contents: each row-tiled
  product launch leaves the whole product of its two input arrays; each message-passing stretch applies the
  gather, scale and scatter-add to it, with the index vectors and the edge weights computed from the edge list
  before the first launch and carried unchanged to where they are read.
-/
import proofs.«129027_j70815420776783_1_alg».proof.Proof.Reads
import proofs.«129027_j70815420776783_1_alg».proof.Proof.ChainNorm
import proofs.«129027_j70815420776783_1_alg».proof.Proof.ChainNormW
import proofs.«129027_j70815420776783_1_alg».proof.Proof.ChainConv
import proofs.«129027_j70815420776783_1_alg».proof.Proof.ChainTail
import proofs.«129027_j70815420776783_1_alg».proof.Proof.RegMatmul0
import proofs.«129027_j70815420776783_1_alg».proof.Proof.RegMatmul3
set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem Idealize.ShloMosaic.StableHlo
open Idealize.ShloMosaic.Pipeline (Dat Cfg Window)

variable (m : (ℓ : Loc nD τ sig) → Buf (Elt Ideal) ℓ) (ρ : Dev nD → PrngReg)

open Cert.KernelIdeal.RegionValue

/-- The first launch leaves the product of the node features and the first weight matrix. -/
theorem W4_v30 (c : Dev nD) : W4 m ρ c (Proc.devRef .tc main_v30)
    = Cert.RowsProduct.rowsTimes (m ((c.tc : Thread nD τ).loc main_arg0)) (m ((c.tc : Thread nD τ).loc main_arg3)) := by
  have h := (W4_arr m ρ c 2).trans (final0 (V3 m ρ) c)
  have h0 : V3 m ρ c (Pipeline.arrRef spec0 0) = (m ((c.tc : Thread nD τ).loc main_arg0)) := rd3_0_main_arg0 m ρ c
  have h1 : V3 m ρ c (Pipeline.arrRef spec0 1) = (m ((c.tc : Thread nD τ).loc main_arg3)) := rd3_0_main_arg3 m ρ c
  rw [h0, h1] at h
  exact h

/-- Layer 1's aggregated features, from the launch contents. -/
theorem W5_v43_eq (c : Dev nD) : W5 m ρ c (Proc.devRef .tc main_v43)
    = convK (Cert.RowsProduct.rowsTimes (m ((c.tc : Thread nD τ).loc main_arg0)) (m ((c.tc : Thread nD τ).loc main_arg3)))
        (srcK (m ((c.tc : Thread nD τ).loc main_arg1))) (dstK (m ((c.tc : Thread nD τ).loc main_arg1))) (normK (m ((c.tc : Thread nD τ).loc main_arg1))) := by
  rw [W5_v43, W4_v30, rd4_3_main_v3, rd4_3_main_v6, rd4_3_main_v29, W3_v3, W3_v6, W3_v29]

/-- The fourth launch leaves the product of layer 1's output and the second weight matrix. -/
theorem W9_v56 (c : Dev nD) : W9 m ρ c (Proc.devRef .tc main_v56)
    = Cert.RowsProduct.rowsTimes (W8 m ρ c (Proc.devRef .tc main_v55)) (m ((c.tc : Thread nD τ).loc main_arg7)) := by
  have h := (W9_arr m ρ c 2).trans (final3 (V8 m ρ) c)
  have h1 : V8 m ρ c (Pipeline.arrRef spec3 1) = (m ((c.tc : Thread nD τ).loc main_arg7)) := rd8_0_main_arg7 m ρ c
  rw [h1] at h
  exact h

/-- Layer 2's aggregated features, from layer 1's output and the launch contents. -/
theorem W10_v69_eq (c : Dev nD) : W10 m ρ c (Proc.devRef .tc main_v69)
    = convK (Cert.RowsProduct.rowsTimes (W8 m ρ c (Proc.devRef .tc main_v55)) (m ((c.tc : Thread nD τ).loc main_arg7)))
        (srcK (m ((c.tc : Thread nD τ).loc main_arg1))) (dstK (m ((c.tc : Thread nD τ).loc main_arg1))) (normK (m ((c.tc : Thread nD τ).loc main_arg1))) := by
  rw [W10_v69, W9_v56, rd9_3_main_v3, rd9_3_main_v6, rd9_3_main_v29, W3_v3, W3_v6, W3_v29]

/-- The program's result, from layer 2's output and the launch contents. -/
theorem W14_result_eq (c : Dev nD) : W14 m ρ c (Proc.devRef .tc main_v97)
    = tailK (W13 m ρ c (Proc.devRef .tc main_v81)) (m ((c.tc : Thread nD τ).loc main_arg2)) (m ((c.tc : Thread nD τ).loc main_arg11)) (m ((c.tc : Thread nD τ).loc main_arg12)) := by
  rw [W14_result, rd13_0_main_arg2, rd13_0_main_arg11, rd13_0_main_arg12]

end Cert.KernelIdeal.Chain

end
-- ==== Proof.ChainStats.lean ====
/-
  The stretches of host operations between the statistics launch and the normalising launch of each layer:
  the column sums over the node count give the means, the sums of squares over the node count minus the
  squared means give the variances; the bias, scale and shift vectors are recast as rows.
-/
import proofs.«129027_j70815420776783_1_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem Idealize.ShloMosaic.StableHlo
open Idealize.ShloMosaic.Pipeline (Dat Cfg Window)

variable (m : (ℓ : Loc nD τ sig) → Buf (Elt Ideal) ℓ) (ρ : Dev nD → PrngReg)

set_option maxHeartbeats 4000000 in
/-- The column means: the column sums over the node count. -/
theorem W7_v47 (c : Dev nD) : W7 m ρ c (Proc.devRef .tc main_v47)
    = Host.divf (W6 m ρ c (Proc.devRef .tc main_v45_0)) (broadcastInDim S1x128 ![] bcast_S_S1x128 (constant (F := Ideal) S_ .f32 0x47435000#32)) := by
  dsimp only [W7]
  after_results
  all_goals rfl

set_option maxHeartbeats 4000000 in
/-- The column variances: the mean of the squares minus the squared mean. -/
theorem W7_v51 (c : Dev nD) : W7 m ρ c (Proc.devRef .tc main_v51)
    = subf (Host.divf (W6 m ρ c (Proc.devRef .tc main_v45_1)) (broadcastInDim S1x128 ![] bcast_S_S1x128 (constant (F := Ideal) S_ .f32 0x47435000#32)))
        (mulf (Host.divf (W6 m ρ c (Proc.devRef .tc main_v45_0)) (broadcastInDim S1x128 ![] bcast_S_S1x128 (constant (F := Ideal) S_ .f32 0x47435000#32)))
          (Host.divf (W6 m ρ c (Proc.devRef .tc main_v45_0)) (broadcastInDim S1x128 ![] bcast_S_S1x128 (constant (F := Ideal) S_ .f32 0x47435000#32)))) := by
  dsimp only [W7]
  after_results
  all_goals rfl

set_option maxHeartbeats 4000000 in
/-- A length-128 argument recast as a row. -/
theorem W7_v52 (c : Dev nD) : W7 m ρ c (Proc.devRef .tc main_v52)
    = shapeCast S1x128 (W6 m ρ c (Proc.devRef .tc main_arg4)) shapeCasts_S128_S1x128 := by
  dsimp only [W7]
  after_results
  all_goals rfl

set_option maxHeartbeats 4000000 in
/-- A length-128 argument recast as a row. -/
theorem W7_v53 (c : Dev nD) : W7 m ρ c (Proc.devRef .tc main_v53)
    = shapeCast S1x128 (W6 m ρ c (Proc.devRef .tc main_arg5)) shapeCasts_S128_S1x128 := by
  dsimp only [W7]
  after_results
  all_goals rfl

set_option maxHeartbeats 4000000 in
/-- A length-128 argument recast as a row. -/
theorem W7_v54 (c : Dev nD) : W7 m ρ c (Proc.devRef .tc main_v54)
    = shapeCast S1x128 (W6 m ρ c (Proc.devRef .tc main_arg6)) shapeCasts_S128_S1x128 := by
  dsimp only [W7]
  after_results
  all_goals rfl

set_option maxHeartbeats 4000000 in
/-- The column means: the column sums over the node count. -/
theorem W12_v73 (c : Dev nD) : W12 m ρ c (Proc.devRef .tc main_v73)
    = Host.divf (W11 m ρ c (Proc.devRef .tc main_v71_0)) (broadcastInDim S1x128 ![] bcast_S_S1x128 (constant (F := Ideal) S_ .f32 0x47435000#32)) := by
  dsimp only [W12]
  after_results
  all_goals rfl

set_option maxHeartbeats 4000000 in
/-- The column variances: the mean of the squares minus the squared mean. -/
theorem W12_v77 (c : Dev nD) : W12 m ρ c (Proc.devRef .tc main_v77)
    = subf (Host.divf (W11 m ρ c (Proc.devRef .tc main_v71_1)) (broadcastInDim S1x128 ![] bcast_S_S1x128 (constant (F := Ideal) S_ .f32 0x47435000#32)))
        (mulf (Host.divf (W11 m ρ c (Proc.devRef .tc main_v71_0)) (broadcastInDim S1x128 ![] bcast_S_S1x128 (constant (F := Ideal) S_ .f32 0x47435000#32)))
          (Host.divf (W11 m ρ c (Proc.devRef .tc main_v71_0)) (broadcastInDim S1x128 ![] bcast_S_S1x128 (constant (F := Ideal) S_ .f32 0x47435000#32)))) := by
  dsimp only [W12]
  after_results
  all_goals rfl

set_option maxHeartbeats 4000000 in
/-- A length-128 argument recast as a row. -/
theorem W12_v78 (c : Dev nD) : W12 m ρ c (Proc.devRef .tc main_v78)
    = shapeCast S1x128 (W11 m ρ c (Proc.devRef .tc main_arg8)) shapeCasts_S128_S1x128 := by
  dsimp only [W12]
  after_results
  all_goals rfl

set_option maxHeartbeats 4000000 in
/-- A length-128 argument recast as a row. -/
theorem W12_v79 (c : Dev nD) : W12 m ρ c (Proc.devRef .tc main_v79)
    = shapeCast S1x128 (W11 m ρ c (Proc.devRef .tc main_arg9)) shapeCasts_S128_S1x128 := by
  dsimp only [W12]
  after_results
  all_goals rfl

set_option maxHeartbeats 4000000 in
/-- A length-128 argument recast as a row. -/
theorem W12_v80 (c : Dev nD) : W12 m ρ c (Proc.devRef .tc main_v80)
    = shapeCast S1x128 (W11 m ρ c (Proc.devRef .tc main_arg10)) shapeCasts_S128_S1x128 := by
  dsimp only [W12]
  after_results
  all_goals rfl

end Cert.KernelIdeal.Chain

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.LibBlockSum.lean ====
/-
  A finite sum taken block by block.

  A sum over d < N can be accumulated in consecutive blocks: start from nothing, and at each step add the sum of
  the next b terms.  After the blocks that make up the first a terms the accumulator holds the a-th partial sum,
  and once the blocks have exhausted the range it holds the whole sum.  Only that addition is associative and
  commutative is used, so this holds in any commutative monoid — in particular over the extended reals, where no
  finiteness of the terms is needed.

  To speak of the a-th partial sum for every natural a, the summand is extended by zero beyond N.
-/
import Mathlib.Algebra.BigOperators.Fin
import Mathlib.Algebra.BigOperators.Intervals

open scoped BigOperators

namespace Cert.BlockSum

variable {M : Type*} [AddCommMonoid M]

/-- A summand on the indices below N, extended by zero to every natural number. -/
def ext0 {N : ℕ} (f : Fin N → M) (d : ℕ) : M := if h : d < N then f ⟨d, h⟩ else 0

theorem ext0_of_lt {N : ℕ} (f : Fin N → M) (d : ℕ) (h : d < N) : ext0 f d = f ⟨d, h⟩ := dif_pos h

/-- The sum of the first n terms. -/
def partialSum {N : ℕ} (f : Fin N → M) (n : ℕ) : M := ∑ d ∈ Finset.range n, ext0 f d

theorem partialSum_zero {N : ℕ} (f : Fin N → M) : partialSum f 0 = 0 := Finset.sum_range_zero _

/-- The N-th partial sum is the whole sum. -/
theorem partialSum_full {N : ℕ} (f : Fin N → M) : partialSum f N = ∑ d : Fin N, f d := by
  unfold partialSum
  rw [← Fin.sum_univ_eq_sum_range (ext0 f) N]
  exact Finset.sum_congr rfl fun d _ => ext0_of_lt f d.val d.isLt

/-- The block of b terms starting at a, as a sum over k < b. -/
theorem block_eq {N : ℕ} (f : Fin N → M) (a b : ℕ) (h : a + b ≤ N) :
    ∑ k : Fin b, f ⟨a + k.val, Nat.lt_of_lt_of_le (Nat.add_lt_add_left k.isLt a) h⟩
      = ∑ k ∈ Finset.range b, ext0 f (a + k) := by
  rw [← Fin.sum_univ_eq_sum_range (fun k => ext0 f (a + k)) b]
  exact Finset.sum_congr rfl fun k _ => (ext0_of_lt f (a + k.val) _).symm

/-- Adding the next block of b terms to the a-th partial sum gives the (a + b)-th. -/
theorem partialSum_add_block {N : ℕ} (f : Fin N → M) (a b : ℕ) (h : a + b ≤ N) :
    partialSum f a + ∑ k : Fin b, f ⟨a + k.val, Nat.lt_of_lt_of_le (Nat.add_lt_add_left k.isLt a) h⟩
      = partialSum f (a + b) := by
  rw [block_eq f a b h]
  unfold partialSum
  exact (Finset.sum_range_add (ext0 f) a b).symm

end Cert.BlockSum
-- ==== Proof.RegStats1.lean ====
/-
  The batch-norm statistics kernel of the first layer, at the exact (extended-real) values.

  The kernel walks a 50000×128 array x in 25 blocks of 2000 rows.  Two 1×128 rows are carried from block to block:
  at the first block they are set to zero, and at every block the first gains, per column, the sum over the block's
  rows of x + b (b a 1×128 bias row), the second the sum of (x + b)².  After the last block the rows are written to
  the two result arrays.  Addition of extended reals is associative and commutative, so the 25 block sums added in
  turn are the sum over all 50000 rows: the first result is ∑ₚ (x(p, q) + b(q)), the second ∑ₚ (x(p, q) + b(q))².
-/
import proofs.«129027_j70815420776783_1_alg».proof.Proof.Gen.KernelIdeal.Frame
import proofs.«129027_j70815420776783_1_alg».proof.Proof.LibRowBias
import proofs.«129027_j70815420776783_1_alg».proof.Proof.LibBlockSum
import Idealize.ShloMosaic.Lib.Pipeline.Value
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

/-! ## The mathematics: column sums, and a sum over 50000 rows taken in 25 blocks of 2000 -/

namespace Cert.StatsSum

open Cert.BlockSum

/-- The vector unit's sum along the first axis of an a×b array of extended reals, at column q: the sum of that
    column's a entries. -/
theorem colSum_apply {a b : ℕ} (v : FVec Ideal ⟨2, ![a, b]⟩ .f32)
    (h : (⟨2, ![a, b]⟩ : Shape).Reduces [0] ⟨1, ![b]⟩) (hφ : FKind.Formats .f32)
    (hacc : (0x00000000#32 : BitVec (FTy.f32).bits) = FKind.add.neutral .f32 hφ) (q : Fin b) :
    multiReduction .add [0] ⟨1, ![b]⟩ v 0x00000000#32 h hφ hacc (ix1 q) = ∑ p : Fin a, v (ix2 p q) := by
  refine (Ideal.multiReduction_add_single v _ h hφ hacc (ix1 q)).trans ?_
  show ∑ k : Fin a, v (h.lift (ix1 q) k) = _
  refine Finset.sum_congr rfl fun k _ => congrArg v ?_
  funext ax
  apply Fin.ext
  match ax with
  | ⟨0, _⟩ => rfl
  | ⟨1, _⟩ => rfl

/-- A carried 1×b row plus the column sums of an a×b array (kept as a 1×b row), at (0, q): the carried entry plus
    the sum of column q. -/
theorem addColSum_apply {a b : ℕ} (acc : FVec Ideal ⟨2, ![1, b]⟩ .f32) (v : FVec Ideal ⟨2, ![a, b]⟩ .f32)
    (h : (⟨2, ![a, b]⟩ : Shape).Reduces [0] ⟨1, ![b]⟩) (hφ : FKind.Formats .f32)
    (hacc : (0x00000000#32 : BitVec (FTy.f32).bits) = FKind.add.neutral .f32 hφ)
    (hc1 : (⟨2, ![1, b]⟩ : Shape).ShapeCasts ⟨2, ![1, b]⟩) (hc2 : (⟨1, ![b]⟩ : Shape).ShapeCasts ⟨2, ![1, b]⟩) (q : Fin b) :
    addf (shapeCast ⟨2, ![1, b]⟩ acc hc1)
        (shapeCast ⟨2, ![1, b]⟩ (multiReduction .add [0] ⟨1, ![b]⟩ v 0x00000000#32 h hφ hacc) hc2) (ix2 0 q)
      = acc (ix2 0 q) + ∑ p : Fin a, v (ix2 p q) := by
  rw [shapeCast_self]
  show FloatOps.addf (acc (ix2 0 q))
      (shapeCast ⟨2, ![1, b]⟩ (multiReduction .add [0] ⟨1, ![b]⟩ v 0x00000000#32 h hφ hacc) hc2 (ix2 0 q)) = _
  rw [Cert.RowBias.asRow_apply, colSum_apply]
  rfl

/-- Row p of block n, of 25 blocks of 2000 rows: row 2000·n + p of the whole array. -/
def row (n : ℕ) (hn : n < 25) (p : Fin 2000) : Fin 50000 := ⟨2000 * n + p.val, by have := p.isLt; omega⟩

/-- The sum of the first 2000·n terms plus the sum over block n is the sum of the first 2000·(n + 1) terms. -/
theorem partial_step (f : Fin 50000 → EReal) (n : ℕ) (hn : n < 25) :
    partialSum f (2000 * n) + ∑ p : Fin 2000, f (row n hn p) = partialSum f (2000 * (n + 1)) :=
  (partialSum_add_block f (2000 * n) 2000 (by omega)).trans (congrArg (partialSum f) (by omega))

/-- After all 25 blocks the partial sum is the whole sum. -/
theorem partial_all (f : Fin 50000 → EReal) : partialSum f (2000 * (24 + 1)) = ∑ p : Fin 50000, f p :=
  (congrArg (partialSum f) (by norm_num)).trans (partialSum_full f)

end Cert.StatsSum

namespace Cert.KernelIdeal.StatsValue
open Cert.KernelIdeal Cert.KernelIdeal.Gen

/-- The zero offsets of a whole-block access, spelt as a constant function. -/
theorem hz : (![0, 0] : Fin 2 → Nat) = fun _ => 0 := funext fun a => by fin_cases a <;> rfl

section Pieces
variable {F : FTy → Type} [FloatOps F]

/-- Away from the first grid point the body leaves in the first output the carried row plus the column sums of
    the point's block of (x + bias row): its one covering store's value, the loads reading whole buffers. -/
theorem out_B_2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S2000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread,
    View.ld_unit_zero (S := S2000x128) hz, View.ld_unit_zero (S := S1x128) hz]

/-- Likewise the second output: the carried row plus the column sums of the squares. -/
theorem out_B_3 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S2000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h4.read_unread,
    View.ld_unit_zero (S := S2000x128) hz, View.ld_unit_zero (S := S1x128) hz]

/-- At the first grid point the body first stores the zero row, reads it back, and leaves the zero row plus the
    column sums of the block. -/
theorem out_A_2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S2000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S2000x128) hz, View.ld_unit_zero (S := S1x128) hz]

/-- Likewise the second output at the first grid point: the zero row plus the column sums of the squares. -/
theorem out_A_3 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S2000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S2000x128) hz, View.ld_unit_zero (S := S1x128) hz]

end Pieces

/-! ## The body's values at the exact reals, read one entry at a time -/

section AtIdeal

open Cert.StatsSum Cert.BlockSum

/-- The block plus the bias row on every row. -/
theorem pay3_eq (x0 : Vec Ideal S2000x128 .f32) (x1 : Vec Ideal S1x128 .f32) :
    k1_pay3 (F := Ideal) x0 x1 = Cert.RowBias.addRow x0 x1 :=
  Cert.RowBias.addf_spread_eq x0 x1 _ _ _

/-- The first output's new row at column q: the carried entry plus the sum over the block's rows of (x + bias). -/
theorem pay4_apply (x0 : Vec Ideal S2000x128 .f32) (x1 acc : Vec Ideal S1x128 .f32) (q : Fin 128) :
    k1_pay4 (F := Ideal) x0 x1 acc (ix2 0 q) = acc (ix2 0 q) + ∑ p : Fin 2000, (x0 (ix2 p q) + x1 (ix2 0 q)) := by
  unfold k1_pay4
  rw [pay3_eq]
  exact addColSum_apply acc (Cert.RowBias.addRow x0 x1) _ _ _ _ _ q

/-- The second output's new row at column q: the carried entry plus the sum over the block's rows of (x + bias)². -/
theorem pay5_apply (x0 : Vec Ideal S2000x128 .f32) (x1 acc : Vec Ideal S1x128 .f32) (q : Fin 128) :
    k1_pay5 (F := Ideal) x0 x1 acc (ix2 0 q)
      = acc (ix2 0 q) + ∑ p : Fin 2000, (x0 (ix2 p q) + x1 (ix2 0 q)) * (x0 (ix2 p q) + x1 (ix2 0 q)) := by
  unfold k1_pay5
  rw [pay3_eq]
  exact addColSum_apply acc (mulf (Cert.RowBias.addRow x0 x1) (Cert.RowBias.addRow x0 x1)) _ _ _ _ _ q

/-- The zero rows stored at the first point hold 0. -/
theorem pay1_apply (q : Fin 128) : k1_pay1 (F := Ideal) (ix2 0 q) = 0 := Ideal.ofBits_zero_f32
theorem pay2_apply (q : Fin 128) : k1_pay2 (F := Ideal) (ix2 0 q) = 0 := Ideal.ofBits_zero_f32

/-- One step of the accumulation, for any summand f q p: if the block's entries are the terms of block n and the
    carried row holds the sum of the first 2000·n terms, the new row holds the sum of the first 2000·(n + 1). -/
theorem step2 (x0 : Vec Ideal S2000x128 .f32) (x1 acc : Vec Ideal S1x128 .f32) (f : Fin 128 → Fin 50000 → EReal)
    (n : ℕ) (hn : n < 25)
    (hx : ∀ (p : Fin 2000) (q : Fin 128), x0 (ix2 p q) + x1 (ix2 0 q) = f q (row n hn p))
    (hacc : ∀ q : Fin 128, acc (ix2 0 q) = partialSum (f q) (2000 * n)) :
    k1_pay4 (F := Ideal) x0 x1 acc = fun j => partialSum (f (j 1)) (2000 * (n + 1)) := by
  funext j
  obtain ⟨u, q, rfl⟩ : ∃ (u : Fin 1) (q : Fin 128), j = ix2 u q := ⟨j 0, j 1, eq_ix2 j⟩
  obtain rfl : u = 0 := Subsingleton.elim _ _
  refine (pay4_apply x0 x1 acc q).trans ?_
  show _ = partialSum (f q) (2000 * (n + 1))
  rw [hacc, ← partial_step (f q) n hn]
  exact congrArg _ (Finset.sum_congr rfl fun p _ => hx p q)

/-- The same step for the squares. -/
theorem step3 (x0 : Vec Ideal S2000x128 .f32) (x1 acc : Vec Ideal S1x128 .f32) (f : Fin 128 → Fin 50000 → EReal)
    (n : ℕ) (hn : n < 25)
    (hx : ∀ (p : Fin 2000) (q : Fin 128), x0 (ix2 p q) + x1 (ix2 0 q) = f q (row n hn p))
    (hacc : ∀ q : Fin 128, acc (ix2 0 q) = partialSum (fun p => f q p * f q p) (2000 * n)) :
    k1_pay5 (F := Ideal) x0 x1 acc = fun j => partialSum (fun p => f (j 1) p * f (j 1) p) (2000 * (n + 1)) := by
  funext j
  obtain ⟨u, q, rfl⟩ : ∃ (u : Fin 1) (q : Fin 128), j = ix2 u q := ⟨j 0, j 1, eq_ix2 j⟩
  obtain rfl : u = 0 := Subsingleton.elim _ _
  refine (pay5_apply x0 x1 acc q).trans ?_
  show _ = partialSum (fun p => f q p * f q p) (2000 * (n + 1))
  rw [hacc, ← partial_step (fun p => f q p * f q p) n hn]
  exact congrArg _ (Finset.sum_congr rfl fun p _ => by rw [hx p q])

end AtIdeal

/-! ## The 25 grid points: the outputs hold the running sums -/

section Run

open Cert.StatsSum Cert.BlockSum

variable (V : (c : Dev nD) → (b : Ref sig .tc) → Buf (Elt Ideal) ((c : Thread nD τ).loc b))

/-- The 50000×128 array and the 1×128 bias row as the region finds them. -/
abbrev arrX (c : Dev nD) : S50000x128.Idx → EReal := V c (Pipeline.arrRef spec1 0)
abbrev rowB (c : Dev nD) : S1x128.Idx → EReal := V c (Pipeline.arrRef spec1 1)

/-- Entry (p, q) of the 50000×128 array plus entry q of the bias row: the summand of column q. -/
def shifted (c : Dev nD) (q : Fin 128) (p : Fin 50000) : EReal := arrX V c (ix2 p q) + rowB V c (ix2 0 q)

/-- The printed index maps, decided over the grid: the array's block at point t is block t of its rows, and the
    three 1×128 windows stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem lt25 (t : Fin cfg1.N) : t.val < 25 := by have := t.isLt; have hN : cfg1.N = 25 := N_1; omega

/-- The array's block at point t holds, at (p, q), the array's entry (2000·t + p, q). -/
theorem iblk0_apply (c : Dev nD) (t : Fin cfg1.N) (p : Fin 2000) (q : Fin 128) :
    (iblk1 V c 0 t : Vec Ideal S2000x128 .f32) (ix2 p q) = arrX V c (ix2 (row t.val (lt25 t) p) q) := by
  obtain ⟨e0, e1, -⟩ := idx_facts t
  unfold iblk1
  rw [View.read_apply]
  show V c (Pipeline.arrRef spec1 0) (((cfg1.win 0).blk t).view.emb (ix2 p q)) = V c (Pipeline.arrRef spec1 0) _
  refine congrArg _ ?_
  funext a; apply Fin.ext
  match a with
  | ⟨0, _⟩ => show win1_0.index t (0 : Fin 2) * 2000 + 1 * p.val = 2000 * t.val + p.val; rw [e0]; omega
  | ⟨1, _⟩ => show win1_0.index t (1 : Fin 2) * 128 + 1 * q.val = q.val; rw [e1]; omega

/-- The bias row's block at every point is the bias row. -/
theorem iblk1_apply (c : Dev nD) (t : Fin cfg1.N) (q : Fin 128) :
    (iblk1 V c 1 t : Vec Ideal S1x128 .f32) (ix2 0 q) = rowB V c (ix2 0 q) := by
  obtain ⟨-, -, e0, e1, -⟩ := idx_facts t
  unfold iblk1
  rw [View.read_apply]
  show V c (Pipeline.arrRef spec1 1) (((cfg1.win 1).blk t).view.emb (ix2 0 q)) = V c (Pipeline.arrRef spec1 1) _
  refine congrArg _ ?_
  funext a; apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- So the block's entries plus the bias are the summands of block t. -/
theorem blk_terms (c : Dev nD) (t : Fin cfg1.N) (p : Fin 2000) (q : Fin 128)
    (x0 : Vec Ideal S2000x128 .f32) (x1 : Vec Ideal S1x128 .f32) (h0 : x0 = iblk1 V c 0 t) (h1 : x1 = iblk1 V c 1 t) :
    x0 (ix2 p q) + x1 (ix2 0 q) = shifted V c q (row t.val (lt25 t) p) := by
  subst h0 h1
  rw [iblk0_apply V c t p q, iblk1_apply V c t q]; rfl

/-- The running sums after point n: per column, the sum of the first 2000·(n + 1) summands, and of their squares. -/
def run2 (c : Dev nD) (n : ℕ) : Vec Ideal S1x128 .f32 := fun j => partialSum (shifted V c (j 1)) (2000 * (n + 1))
def run3 (c : Dev nD) (n : ℕ) : Vec Ideal S1x128 .f32 :=
  fun j => partialSum (fun p => shifted V c (j 1) p * shifted V c (j 1) p) (2000 * (n + 1))

/-- What the two outputs hold after point n is the running sums: by induction on the point. -/
theorem outsAt_eq (c : Dev nD) : ∀ (n : ℕ) (h : n < cfg1.N), outsAt1 V c n h = (run2 V c n, run3 V c n)
  | 0, h => by
    rw [outsAt1_A V c ⟨0, h⟩ rfl]
    refine Prod.ext ?_ ?_
    · dsimp only
      refine (out_A_2 (F := Ideal) c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) (ms1_3 ⟨0, h⟩) (hs1_3 ⟨0, h⟩) ((hcond1_0 ⟨0, h⟩).mpr rfl)
        (iblk1 V c 0 ⟨0, h⟩) (iblk1 V c 1 ⟨0, h⟩)).trans ?_
      exact step2 (iblk1 V c 0 ⟨0, h⟩) (iblk1 V c 1 ⟨0, h⟩) (k1_pay1 (F := Ideal)) (shifted V c) 0 (by omega)
        (fun p q => blk_terms V c ⟨0, h⟩ p q (iblk1 V c 0 ⟨0, h⟩) (iblk1 V c 1 ⟨0, h⟩) rfl rfl) (fun q => (pay1_apply q).trans (partialSum_zero _).symm)
    · dsimp only
      refine (out_A_3 (F := Ideal) c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) (ms1_3 ⟨0, h⟩) (hs1_3 ⟨0, h⟩) ((hcond1_0 ⟨0, h⟩).mpr rfl)
        (iblk1 V c 0 ⟨0, h⟩) (iblk1 V c 1 ⟨0, h⟩)).trans ?_
      exact step3 (iblk1 V c 0 ⟨0, h⟩) (iblk1 V c 1 ⟨0, h⟩) (k1_pay2 (F := Ideal)) (shifted V c) 0 (by omega)
        (fun p q => blk_terms V c ⟨0, h⟩ p q (iblk1 V c 0 ⟨0, h⟩) (iblk1 V c 1 ⟨0, h⟩) rfl rfl) (fun q => (pay2_apply q).trans (partialSum_zero _).symm)
  | n + 1, h => by
    have hN : cfg1.N = 25 := N_1
    have hB : ¬(⟨n + 1, h⟩ : Fin cfg1.N).val % 25 = 0 := by dsimp only; omega
    have ih : outsAt1 V c ((⟨n + 1, h⟩ : Fin cfg1.N).val - 1)
        (Nat.lt_of_le_of_lt (Nat.sub_le _ _) (⟨n + 1, h⟩ : Fin cfg1.N).isLt) = (run2 V c n, run3 V c n) :=
      outsAt_eq c n (Nat.lt_of_succ_lt h)
    rw [outsAt1_B V c ⟨n + 1, h⟩ hB, ih]
    refine Prod.ext ?_ ?_
    · dsimp only
      refine (out_B_2 (F := Ideal) c (grid1.coords ⟨n + 1, h⟩) (ms1_0 ⟨n + 1, h⟩) (hs1_0 ⟨n + 1, h⟩) (ms1_1 ⟨n + 1, h⟩)
        (hs1_1 ⟨n + 1, h⟩) (ms1_2 ⟨n + 1, h⟩) (hs1_2 ⟨n + 1, h⟩) (ms1_3 ⟨n + 1, h⟩) (hs1_3 ⟨n + 1, h⟩)
        (fun hh => hB ((hcond1_0 ⟨n + 1, h⟩).mp hh)) (iblk1 V c 0 ⟨n + 1, h⟩) (iblk1 V c 1 ⟨n + 1, h⟩)
        (run2 V c n) (run3 V c n)).trans ?_
      exact step2 (iblk1 V c 0 ⟨n + 1, h⟩) (iblk1 V c 1 ⟨n + 1, h⟩) (run2 V c n) (shifted V c) (n + 1) (by omega)
        (fun p q => blk_terms V c ⟨n + 1, h⟩ p q (iblk1 V c 0 ⟨n + 1, h⟩) (iblk1 V c 1 ⟨n + 1, h⟩) rfl rfl) (fun q => rfl)
    · dsimp only
      refine (out_B_3 (F := Ideal) c (grid1.coords ⟨n + 1, h⟩) (ms1_0 ⟨n + 1, h⟩) (hs1_0 ⟨n + 1, h⟩) (ms1_1 ⟨n + 1, h⟩)
        (hs1_1 ⟨n + 1, h⟩) (ms1_2 ⟨n + 1, h⟩) (hs1_2 ⟨n + 1, h⟩) (ms1_3 ⟨n + 1, h⟩) (hs1_3 ⟨n + 1, h⟩)
        (fun hh => hB ((hcond1_0 ⟨n + 1, h⟩).mp hh)) (iblk1 V c 0 ⟨n + 1, h⟩) (iblk1 V c 1 ⟨n + 1, h⟩)
        (run2 V c n) (run3 V c n)).trans ?_
      exact step3 (iblk1 V c 0 ⟨n + 1, h⟩) (iblk1 V c 1 ⟨n + 1, h⟩) (run3 V c n) (shifted V c) (n + 1) (by omega)
        (fun p q => blk_terms V c ⟨n + 1, h⟩ p q (iblk1 V c 0 ⟨n + 1, h⟩) (iblk1 V c 1 ⟨n + 1, h⟩) rfl rfl) (fun q => rfl)

/-- The whole column sums, as contents of the two 1×128 result arrays. -/
def total2 (c : Dev nD) : S1x128.Idx → EReal := fun j => ∑ p : Fin 50000, shifted V c (j 1) p
def total3 (c : Dev nD) : S1x128.Idx → EReal := fun j => ∑ p : Fin 50000, shifted V c (j 1) p * shifted V c (j 1) p

theorem run2_last (c : Dev nD) : run2 V c 24 = total2 V c := funext fun j => partial_all _
theorem run3_last (c : Dev nD) : run3 V c 24 = total3 V c := funext fun j => partial_all _

end Run

/-! ## The result arrays: written back once, after the last point, whose block is the whole 1×128 array -/

section Final

open Cert.StatsSum Cert.BlockSum

variable (V : (c : Dev nD) → (b : Ref sig .tc) → Buf (Elt Ideal) ((c : Thread nD τ).loc b))

/-- The last grid point. -/
abbrev tLast : Fin cfg1.N := ⟨24, by have hN : cfg1.N = 25 := N_1; omega⟩

/-- Block (0, 0) of a 1×128 array is the array: what a write-back of a row G writes is G read through the block. -/
theorem cut_eq_read2 (t : Fin cfg1.N) (G : S1x128.Idx → EReal) :
    (cfg1.win 2).cut (grid1.coords t) G = ((cfg1.win 2).blk t).view.read (Elt Ideal) G := by
  obtain ⟨-, -, -, -, e0, e1, -⟩ := idx_facts t
  funext j
  rw [View.read_apply]
  show G _ = G (((cfg1.win 2).blk t).view.emb j)
  refine congrArg G ?_
  funext a; apply Fin.ext
  match a with
  | ⟨0, _⟩ => show (j 0).val = win1_2.index t (0 : Fin 2) * 1 + 1 * (j 0).val; rw [e0]; omega
  | ⟨1, _⟩ => show (j 1).val = win1_2.index t (1 : Fin 2) * 128 + 1 * (j 1).val; rw [e1]; omega

theorem cut_eq_read3 (t : Fin cfg1.N) (G : S1x128.Idx → EReal) :
    (cfg1.win 3).cut (grid1.coords t) G = ((cfg1.win 3).blk t).view.read (Elt Ideal) G := by
  obtain ⟨-, -, -, -, -, -, e0, e1⟩ := idx_facts t
  funext j
  rw [View.read_apply]
  show G _ = G (((cfg1.win 3).blk t).view.emb j)
  refine congrArg G ?_
  funext a; apply Fin.ext
  match a with
  | ⟨0, _⟩ => show (j 0).val = win1_3.index t (0 : Fin 2) * 1 + 1 * (j 0).val; rw [e0]; omega
  | ⟨1, _⟩ => show (j 1).val = win1_3.index t (1 : Fin 2) * 128 + 1 * (j 1).val; rw [e1]; omega

/-- The one write-back of the first output, at the last point, writes the whole column sums. -/
theorem flushed2_eq (c : Dev nD) (t : Fin cfg1.N) (hf : (cfg1.win 2).flush t = true) :
    (dat1 V c).flushed 2 t = ((cfg1.win 2).blk t).view.read (Elt Ideal) (total2 V c) := by
  have h24 : t.val = 24 := by have := (flush1_2 t).mp hf; have := lt25 t; omega
  show (cfg1.win 2).cut (grid1.coords t) ((dat1 V c).after 2 t) = _
  rw [after1_2]
  have e : outsAt1 V c t.val t.isLt = (run2 V c 24, run3 V c 24) := by rw [outsAt_eq V c t.val t.isLt, h24]
  rw [e]
  dsimp only
  rw [run2_last]
  exact cut_eq_read2 t (total2 V c)

/-- Likewise the second output: the whole column sums of the squares. -/
theorem flushed3_eq (c : Dev nD) (t : Fin cfg1.N) (hf : (cfg1.win 3).flush t = true) :
    (dat1 V c).flushed 3 t = ((cfg1.win 3).blk t).view.read (Elt Ideal) (total3 V c) := by
  have h24 : t.val = 24 := by have := (flush1_3 t).mp hf; have := lt25 t; omega
  show (cfg1.win 3).cut (grid1.coords t) ((dat1 V c).after 3 t) = _
  rw [after1_3]
  have e : outsAt1 V c t.val t.isLt = (run2 V c 24, run3 V c 24) := by rw [outsAt_eq V c t.val t.isLt, h24]
  rw [e]
  dsimp only
  rw [run3_last]
  exact cut_eq_read3 t (total3 V c)

/-- An index of a 1×128 result array is in a point's block iff each coordinate is in the block's range. -/
theorem mem_blk2 (t : Fin cfg1.N) (i : S1x128.Idx) :
    i ∈ ((cfg1.win 2).blk t).view.set ↔ ∀ a : Fin 2, win1_2.index t a * S1x128.size a ≤ (i a).val
      ∧ (i a).val < win1_2.index t a * S1x128.size a + S1x128.size a := by
  show i ∈ ((View.whole main_v45_0).slice (win1_2.rect t)).set ↔ _
  rw [View.set_slice_whole, Rect.mem_set_unit]
  exact Iff.rfl

theorem mem_blk3 (t : Fin cfg1.N) (i : S1x128.Idx) :
    i ∈ ((cfg1.win 3).blk t).view.set ↔ ∀ a : Fin 2, win1_3.index t a * S1x128.size a ≤ (i a).val
      ∧ (i a).val < win1_3.index t a * S1x128.size a + S1x128.size a := by
  show i ∈ ((View.whole main_v45_1).slice (win1_3.rect t)).set ↔ _
  rw [View.set_slice_whole, Rect.mem_set_unit]
  exact Iff.rfl

/-- The last point's block covers the whole 1×128 array. -/
theorem cover2 (i : S1x128.Idx) : ∃ t : Fin cfg1.N, (cfg1.win 2).flush t = true ∧ i ∈ ((cfg1.win 2).blk t).view.set := by
  refine ⟨tLast, (flush1_2 tLast).mpr rfl, ?_⟩
  obtain ⟨-, -, -, -, e0, e1, -⟩ := idx_facts tLast
  rw [mem_blk2]
  intro a
  have h0 : (i 0).val < 1 := (i 0).isLt
  have h1 : (i 1).val < 128 := (i 1).isLt
  match a with
  | ⟨0, _⟩ => show win1_2.index tLast (0 : Fin 2) * 1 ≤ (i 0).val ∧ (i 0).val < win1_2.index tLast (0 : Fin 2) * 1 + 1; rw [e0]; omega
  | ⟨1, _⟩ => show win1_2.index tLast (1 : Fin 2) * 128 ≤ (i 1).val ∧ (i 1).val < win1_2.index tLast (1 : Fin 2) * 128 + 128; rw [e1]; omega

theorem cover3 (i : S1x128.Idx) : ∃ t : Fin cfg1.N, (cfg1.win 3).flush t = true ∧ i ∈ ((cfg1.win 3).blk t).view.set := by
  refine ⟨tLast, (flush1_3 tLast).mpr rfl, ?_⟩
  obtain ⟨-, -, -, -, -, -, e0, e1⟩ := idx_facts tLast
  rw [mem_blk3]
  intro a
  have h0 : (i 0).val < 1 := (i 0).isLt
  have h1 : (i 1).val < 128 := (i 1).isLt
  match a with
  | ⟨0, _⟩ => show win1_3.index tLast (0 : Fin 2) * 1 ≤ (i 0).val ∧ (i 0).val < win1_3.index tLast (0 : Fin 2) * 1 + 1; rw [e0]; omega
  | ⟨1, _⟩ => show win1_3.index tLast (1 : Fin 2) * 128 ≤ (i 1).val ∧ (i 1).val < win1_3.index tLast (1 : Fin 2) * 128 + 128; rw [e1]; omega

/-- After the region the first result array holds, in column q, the sum over all 50000 rows of (x + bias). -/
theorem final1_sum (c : Dev nD) : (dat1 V c).arrAt 2 cfg1.N
    = fun j : S1x128.Idx => ∑ p : Fin 50000, (arrX V c (ix2 p (j 1)) + rowB V c (ix2 0 (j 1))) :=
  (dat1 V c).arrAt_eq_of_cover 2 (total2 V c) (fun t hf => flushed2_eq V c t hf) (fun i => cover2 i)

/-- After the region the second result array holds, in column q, the sum over all 50000 rows of (x + bias)². -/
theorem final1_sumsq (c : Dev nD) : (dat1 V c).arrAt 3 cfg1.N
    = fun j : S1x128.Idx => ∑ p : Fin 50000, (arrX V c (ix2 p (j 1)) + rowB V c (ix2 0 (j 1)))
        * (arrX V c (ix2 p (j 1)) + rowB V c (ix2 0 (j 1))) :=
  (dat1 V c).arrAt_eq_of_cover 3 (total3 V c) (fun t hf => flushed3_eq V c t hf) (fun i => cover3 i)

end Final

end Cert.KernelIdeal.StatsValue
end
-- ==== Proof.RegStats4.lean ====
/-
  The batch-norm statistics kernel of the second layer, at the exact (extended-real) values.

  The same kernel as the first layer's, run on the second layer's 50000×128 array and bias row: 25 blocks of 2000
  rows, two carried 1×128 rows set to zero at the first block, the first gaining per column the block's sum of
  x + b and the second the block's sum of (x + b)².  The column sums and the block-by-block summation are taken
  from the first layer's file; the results are ∑ₚ (x(p, q) + b(q)) and ∑ₚ (x(p, q) + b(q))².
-/
import proofs.«129027_j70815420776783_1_alg».proof.Proof.RegStats1
import Idealize.ShloMosaic.Lib.Pipeline.Value
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.StatsValue4
open Cert.KernelIdeal Cert.KernelIdeal.Gen

/-- The zero offsets of a whole-block access, spelt as a constant function. -/
theorem hz : (![0, 0] : Fin 2 → Nat) = fun _ => 0 := funext fun a => by fin_cases a <;> rfl

section Pieces
variable {F : FTy → Type} [FloatOps F]

/-- Away from the first grid point the body leaves in the first output the carried row plus the column sums of
    the point's block of (x + bias row): its one covering store's value, the loads reading whole buffers. -/
theorem out_B_2 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S2000x128 .f32) (x1 xo2 xo3 : Vec F S1x128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero hz]
  simp only [View.readAt_eq_ld, h1.read_unread, h2.read_unread, h3.read_unread,
    View.ld_unit_zero (S := S2000x128) hz, View.ld_unit_zero (S := S1x128) hz]

/-- Likewise the second output: the carried row plus the column sums of the squares. -/
theorem out_B_3 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S2000x128 .f32) (x1 xo2 xo3 : Vec F S1x128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero hz]
  simp only [View.readAt_eq_ld, h1.read_unread, h2.read_unread, h4.read_unread,
    View.ld_unit_zero (S := S2000x128) hz, View.ld_unit_zero (S := S1x128) hz]

/-- At the first grid point the body first stores the zero row, reads it back, and leaves the zero row plus the
    column sums of the block. -/
theorem out_A_2 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S2000x128 .f32) (x1 : Vec F S1x128 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread,
    View.ld_unit_zero (S := S2000x128) hz, View.ld_unit_zero (S := S1x128) hz]

/-- Likewise the second output at the first grid point: the zero row plus the column sums of the squares. -/
theorem out_A_3 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S2000x128 .f32) (x1 : Vec F S1x128 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread,
    View.ld_unit_zero (S := S2000x128) hz, View.ld_unit_zero (S := S1x128) hz]

end Pieces

/-! ## The body's values at the exact reals, read one entry at a time -/

section AtIdeal

open Cert.StatsSum Cert.BlockSum

/-- The block plus the bias row on every row. -/
theorem pay3_eq (x0 : Vec Ideal S2000x128 .f32) (x1 : Vec Ideal S1x128 .f32) :
    k4_pay3 (F := Ideal) x0 x1 = Cert.RowBias.addRow x0 x1 :=
  Cert.RowBias.addf_spread_eq x0 x1 _ _ _

/-- The first output's new row at column q: the carried entry plus the sum over the block's rows of (x + bias). -/
theorem pay4_apply (x0 : Vec Ideal S2000x128 .f32) (x1 acc : Vec Ideal S1x128 .f32) (q : Fin 128) :
    k4_pay4 (F := Ideal) x0 x1 acc (ix2 0 q) = acc (ix2 0 q) + ∑ p : Fin 2000, (x0 (ix2 p q) + x1 (ix2 0 q)) := by
  unfold k4_pay4
  rw [pay3_eq]
  exact addColSum_apply acc (Cert.RowBias.addRow x0 x1) _ _ _ _ _ q

/-- The second output's new row at column q: the carried entry plus the sum over the block's rows of (x + bias)². -/
theorem pay5_apply (x0 : Vec Ideal S2000x128 .f32) (x1 acc : Vec Ideal S1x128 .f32) (q : Fin 128) :
    k4_pay5 (F := Ideal) x0 x1 acc (ix2 0 q)
      = acc (ix2 0 q) + ∑ p : Fin 2000, (x0 (ix2 p q) + x1 (ix2 0 q)) * (x0 (ix2 p q) + x1 (ix2 0 q)) := by
  unfold k4_pay5
  rw [pay3_eq]
  exact addColSum_apply acc (mulf (Cert.RowBias.addRow x0 x1) (Cert.RowBias.addRow x0 x1)) _ _ _ _ _ q

/-- The zero rows stored at the first point hold 0. -/
theorem pay1_apply (q : Fin 128) : k4_pay1 (F := Ideal) (ix2 0 q) = 0 := Ideal.ofBits_zero_f32
theorem pay2_apply (q : Fin 128) : k4_pay2 (F := Ideal) (ix2 0 q) = 0 := Ideal.ofBits_zero_f32

/-- One step of the accumulation, for any summand f q p: if the block's entries are the terms of block n and the
    carried row holds the sum of the first 2000·n terms, the new row holds the sum of the first 2000·(n + 1). -/
theorem step2 (x0 : Vec Ideal S2000x128 .f32) (x1 acc : Vec Ideal S1x128 .f32) (f : Fin 128 → Fin 50000 → EReal)
    (n : ℕ) (hn : n < 25)
    (hx : ∀ (p : Fin 2000) (q : Fin 128), x0 (ix2 p q) + x1 (ix2 0 q) = f q (row n hn p))
    (hacc : ∀ q : Fin 128, acc (ix2 0 q) = partialSum (f q) (2000 * n)) :
    k4_pay4 (F := Ideal) x0 x1 acc = fun j => partialSum (f (j 1)) (2000 * (n + 1)) := by
  funext j
  obtain ⟨u, q, rfl⟩ : ∃ (u : Fin 1) (q : Fin 128), j = ix2 u q := ⟨j 0, j 1, eq_ix2 j⟩
  obtain rfl : u = 0 := Subsingleton.elim _ _
  refine (pay4_apply x0 x1 acc q).trans ?_
  show _ = partialSum (f q) (2000 * (n + 1))
  rw [hacc, ← partial_step (f q) n hn]
  exact congrArg _ (Finset.sum_congr rfl fun p _ => hx p q)

/-- The same step for the squares. -/
theorem step3 (x0 : Vec Ideal S2000x128 .f32) (x1 acc : Vec Ideal S1x128 .f32) (f : Fin 128 → Fin 50000 → EReal)
    (n : ℕ) (hn : n < 25)
    (hx : ∀ (p : Fin 2000) (q : Fin 128), x0 (ix2 p q) + x1 (ix2 0 q) = f q (row n hn p))
    (hacc : ∀ q : Fin 128, acc (ix2 0 q) = partialSum (fun p => f q p * f q p) (2000 * n)) :
    k4_pay5 (F := Ideal) x0 x1 acc = fun j => partialSum (fun p => f (j 1) p * f (j 1) p) (2000 * (n + 1)) := by
  funext j
  obtain ⟨u, q, rfl⟩ : ∃ (u : Fin 1) (q : Fin 128), j = ix2 u q := ⟨j 0, j 1, eq_ix2 j⟩
  obtain rfl : u = 0 := Subsingleton.elim _ _
  refine (pay5_apply x0 x1 acc q).trans ?_
  show _ = partialSum (fun p => f q p * f q p) (2000 * (n + 1))
  rw [hacc, ← partial_step (fun p => f q p * f q p) n hn]
  exact congrArg _ (Finset.sum_congr rfl fun p _ => by rw [hx p q])

end AtIdeal

/-! ## The 25 grid points: the outputs hold the running sums -/

section Run

open Cert.StatsSum Cert.BlockSum

variable (V : (c : Dev nD) → (b : Ref sig .tc) → Buf (Elt Ideal) ((c : Thread nD τ).loc b))

/-- The 50000×128 array and the 1×128 bias row as the region finds them. -/
abbrev arrX (c : Dev nD) : S50000x128.Idx → EReal := V c (Pipeline.arrRef spec4 0)
abbrev rowB (c : Dev nD) : S1x128.Idx → EReal := V c (Pipeline.arrRef spec4 1)

/-- Entry (p, q) of the 50000×128 array plus entry q of the bias row: the summand of column q. -/
def shifted (c : Dev nD) (q : Fin 128) (p : Fin 50000) : EReal := arrX V c (ix2 p q) + rowB V c (ix2 0 q)

/-- The printed index maps, decided over the grid: the array's block at point t is block t of its rows, and the
    three 1×128 windows stay at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem lt25 (t : Fin cfg4.N) : t.val < 25 := by have := t.isLt; have hN : cfg4.N = 25 := N_4; omega

/-- The array's block at point t holds, at (p, q), the array's entry (2000·t + p, q). -/
theorem iblk0_apply (c : Dev nD) (t : Fin cfg4.N) (p : Fin 2000) (q : Fin 128) :
    (iblk4 V c 0 t : Vec Ideal S2000x128 .f32) (ix2 p q) = arrX V c (ix2 (row t.val (lt25 t) p) q) := by
  obtain ⟨e0, e1, -⟩ := idx_facts t
  unfold iblk4
  rw [View.read_apply]
  show V c (Pipeline.arrRef spec4 0) (((cfg4.win 0).blk t).view.emb (ix2 p q)) = V c (Pipeline.arrRef spec4 0) _
  refine congrArg _ ?_
  funext a; apply Fin.ext
  match a with
  | ⟨0, _⟩ => show win4_0.index t (0 : Fin 2) * 2000 + 1 * p.val = 2000 * t.val + p.val; rw [e0]; omega
  | ⟨1, _⟩ => show win4_0.index t (1 : Fin 2) * 128 + 1 * q.val = q.val; rw [e1]; omega

/-- The bias row's block at every point is the bias row. -/
theorem iblk1_apply (c : Dev nD) (t : Fin cfg4.N) (q : Fin 128) :
    (iblk4 V c 1 t : Vec Ideal S1x128 .f32) (ix2 0 q) = rowB V c (ix2 0 q) := by
  obtain ⟨-, -, e0, e1, -⟩ := idx_facts t
  unfold iblk4
  rw [View.read_apply]
  show V c (Pipeline.arrRef spec4 1) (((cfg4.win 1).blk t).view.emb (ix2 0 q)) = V c (Pipeline.arrRef spec4 1) _
  refine congrArg _ ?_
  funext a; apply Fin.ext
  match a with
  | ⟨0, _⟩ => show win4_1.index t (0 : Fin 2) * 1 + 1 * 0 = 0; rw [e0]
  | ⟨1, _⟩ => show win4_1.index t (1 : Fin 2) * 128 + 1 * q.val = q.val; rw [e1]; omega

/-- So the block's entries plus the bias are the summands of block t. -/
theorem blk_terms (c : Dev nD) (t : Fin cfg4.N) (p : Fin 2000) (q : Fin 128)
    (x0 : Vec Ideal S2000x128 .f32) (x1 : Vec Ideal S1x128 .f32) (h0 : x0 = iblk4 V c 0 t) (h1 : x1 = iblk4 V c 1 t) :
    x0 (ix2 p q) + x1 (ix2 0 q) = shifted V c q (row t.val (lt25 t) p) := by
  subst h0 h1
  rw [iblk0_apply V c t p q, iblk1_apply V c t q]; rfl

/-- The running sums after point n: per column, the sum of the first 2000·(n + 1) summands, and of their squares. -/
def run2 (c : Dev nD) (n : ℕ) : Vec Ideal S1x128 .f32 := fun j => partialSum (shifted V c (j 1)) (2000 * (n + 1))
def run3 (c : Dev nD) (n : ℕ) : Vec Ideal S1x128 .f32 :=
  fun j => partialSum (fun p => shifted V c (j 1) p * shifted V c (j 1) p) (2000 * (n + 1))

/-- What the two outputs hold after point n is the running sums: by induction on the point. -/
theorem outsAt_eq (c : Dev nD) : ∀ (n : ℕ) (h : n < cfg4.N), outsAt4 V c n h = (run2 V c n, run3 V c n)
  | 0, h => by
    rw [outsAt4_A V c ⟨0, h⟩ rfl]
    refine Prod.ext ?_ ?_
    · dsimp only
      refine (out_A_2 (F := Ideal) c (grid4.coords ⟨0, h⟩) (ms4_0 ⟨0, h⟩) (hs4_0 ⟨0, h⟩) (ms4_1 ⟨0, h⟩) (hs4_1 ⟨0, h⟩)
        (ms4_2 ⟨0, h⟩) (hs4_2 ⟨0, h⟩) (ms4_3 ⟨0, h⟩) (hs4_3 ⟨0, h⟩) ((hcond4_0 ⟨0, h⟩).mpr rfl)
        (iblk4 V c 0 ⟨0, h⟩) (iblk4 V c 1 ⟨0, h⟩)).trans ?_
      exact step2 (iblk4 V c 0 ⟨0, h⟩) (iblk4 V c 1 ⟨0, h⟩) (k4_pay1 (F := Ideal)) (shifted V c) 0 (by omega)
        (fun p q => blk_terms V c ⟨0, h⟩ p q (iblk4 V c 0 ⟨0, h⟩) (iblk4 V c 1 ⟨0, h⟩) rfl rfl) (fun q => (pay1_apply q).trans (partialSum_zero _).symm)
    · dsimp only
      refine (out_A_3 (F := Ideal) c (grid4.coords ⟨0, h⟩) (ms4_0 ⟨0, h⟩) (hs4_0 ⟨0, h⟩) (ms4_1 ⟨0, h⟩) (hs4_1 ⟨0, h⟩)
        (ms4_2 ⟨0, h⟩) (hs4_2 ⟨0, h⟩) (ms4_3 ⟨0, h⟩) (hs4_3 ⟨0, h⟩) ((hcond4_0 ⟨0, h⟩).mpr rfl)
        (iblk4 V c 0 ⟨0, h⟩) (iblk4 V c 1 ⟨0, h⟩)).trans ?_
      exact step3 (iblk4 V c 0 ⟨0, h⟩) (iblk4 V c 1 ⟨0, h⟩) (k4_pay2 (F := Ideal)) (shifted V c) 0 (by omega)
        (fun p q => blk_terms V c ⟨0, h⟩ p q (iblk4 V c 0 ⟨0, h⟩) (iblk4 V c 1 ⟨0, h⟩) rfl rfl) (fun q => (pay2_apply q).trans (partialSum_zero _).symm)
  | n + 1, h => by
    have hN : cfg4.N = 25 := N_4
    have hB : ¬(⟨n + 1, h⟩ : Fin cfg4.N).val % 25 = 0 := by dsimp only; omega
    have ih : outsAt4 V c ((⟨n + 1, h⟩ : Fin cfg4.N).val - 1)
        (Nat.lt_of_le_of_lt (Nat.sub_le _ _) (⟨n + 1, h⟩ : Fin cfg4.N).isLt) = (run2 V c n, run3 V c n) :=
      outsAt_eq c n (Nat.lt_of_succ_lt h)
    rw [outsAt4_B V c ⟨n + 1, h⟩ hB, ih]
    refine Prod.ext ?_ ?_
    · dsimp only
      refine (out_B_2 (F := Ideal) c (grid4.coords ⟨n + 1, h⟩) (ms4_0 ⟨n + 1, h⟩) (hs4_0 ⟨n + 1, h⟩) (ms4_1 ⟨n + 1, h⟩)
        (hs4_1 ⟨n + 1, h⟩) (ms4_2 ⟨n + 1, h⟩) (hs4_2 ⟨n + 1, h⟩) (ms4_3 ⟨n + 1, h⟩) (hs4_3 ⟨n + 1, h⟩)
        (fun hh => hB ((hcond4_0 ⟨n + 1, h⟩).mp hh)) (iblk4 V c 0 ⟨n + 1, h⟩) (iblk4 V c 1 ⟨n + 1, h⟩)
        (run2 V c n) (run3 V c n)).trans ?_
      exact step2 (iblk4 V c 0 ⟨n + 1, h⟩) (iblk4 V c 1 ⟨n + 1, h⟩) (run2 V c n) (shifted V c) (n + 1) (by omega)
        (fun p q => blk_terms V c ⟨n + 1, h⟩ p q (iblk4 V c 0 ⟨n + 1, h⟩) (iblk4 V c 1 ⟨n + 1, h⟩) rfl rfl) (fun q => rfl)
    · dsimp only
      refine (out_B_3 (F := Ideal) c (grid4.coords ⟨n + 1, h⟩) (ms4_0 ⟨n + 1, h⟩) (hs4_0 ⟨n + 1, h⟩) (ms4_1 ⟨n + 1, h⟩)
        (hs4_1 ⟨n + 1, h⟩) (ms4_2 ⟨n + 1, h⟩) (hs4_2 ⟨n + 1, h⟩) (ms4_3 ⟨n + 1, h⟩) (hs4_3 ⟨n + 1, h⟩)
        (fun hh => hB ((hcond4_0 ⟨n + 1, h⟩).mp hh)) (iblk4 V c 0 ⟨n + 1, h⟩) (iblk4 V c 1 ⟨n + 1, h⟩)
        (run2 V c n) (run3 V c n)).trans ?_
      exact step3 (iblk4 V c 0 ⟨n + 1, h⟩) (iblk4 V c 1 ⟨n + 1, h⟩) (run3 V c n) (shifted V c) (n + 1) (by omega)
        (fun p q => blk_terms V c ⟨n + 1, h⟩ p q (iblk4 V c 0 ⟨n + 1, h⟩) (iblk4 V c 1 ⟨n + 1, h⟩) rfl rfl) (fun q => rfl)

/-- The whole column sums, as contents of the two 1×128 result arrays. -/
def total2 (c : Dev nD) : S1x128.Idx → EReal := fun j => ∑ p : Fin 50000, shifted V c (j 1) p
def total3 (c : Dev nD) : S1x128.Idx → EReal := fun j => ∑ p : Fin 50000, shifted V c (j 1) p * shifted V c (j 1) p

theorem run2_last (c : Dev nD) : run2 V c 24 = total2 V c := funext fun j => partial_all _
theorem run3_last (c : Dev nD) : run3 V c 24 = total3 V c := funext fun j => partial_all _

end Run

/-! ## The result arrays: written back once, after the last point, whose block is the whole 1×128 array -/

section Final

open Cert.StatsSum Cert.BlockSum

variable (V : (c : Dev nD) → (b : Ref sig .tc) → Buf (Elt Ideal) ((c : Thread nD τ).loc b))

/-- The last grid point. -/
abbrev tLast : Fin cfg4.N := ⟨24, by have hN : cfg4.N = 25 := N_4; omega⟩

/-- Block (0, 0) of a 1×128 array is the array: what a write-back of a row G writes is G read through the block. -/
theorem cut_eq_read2 (t : Fin cfg4.N) (G : S1x128.Idx → EReal) :
    (cfg4.win 2).cut (grid4.coords t) G = ((cfg4.win 2).blk t).view.read (Elt Ideal) G := by
  obtain ⟨-, -, -, -, e0, e1, -⟩ := idx_facts t
  funext j
  rw [View.read_apply]
  show G _ = G (((cfg4.win 2).blk t).view.emb j)
  refine congrArg G ?_
  funext a; apply Fin.ext
  match a with
  | ⟨0, _⟩ => show (j 0).val = win4_2.index t (0 : Fin 2) * 1 + 1 * (j 0).val; rw [e0]; omega
  | ⟨1, _⟩ => show (j 1).val = win4_2.index t (1 : Fin 2) * 128 + 1 * (j 1).val; rw [e1]; omega

theorem cut_eq_read3 (t : Fin cfg4.N) (G : S1x128.Idx → EReal) :
    (cfg4.win 3).cut (grid4.coords t) G = ((cfg4.win 3).blk t).view.read (Elt Ideal) G := by
  obtain ⟨-, -, -, -, -, -, e0, e1⟩ := idx_facts t
  funext j
  rw [View.read_apply]
  show G _ = G (((cfg4.win 3).blk t).view.emb j)
  refine congrArg G ?_
  funext a; apply Fin.ext
  match a with
  | ⟨0, _⟩ => show (j 0).val = win4_3.index t (0 : Fin 2) * 1 + 1 * (j 0).val; rw [e0]; omega
  | ⟨1, _⟩ => show (j 1).val = win4_3.index t (1 : Fin 2) * 128 + 1 * (j 1).val; rw [e1]; omega

/-- The one write-back of the first output, at the last point, writes the whole column sums. -/
theorem flushed2_eq (c : Dev nD) (t : Fin cfg4.N) (hf : (cfg4.win 2).flush t = true) :
    (dat4 V c).flushed 2 t = ((cfg4.win 2).blk t).view.read (Elt Ideal) (total2 V c) := by
  have h24 : t.val = 24 := by have := (flush4_2 t).mp hf; have := lt25 t; omega
  show (cfg4.win 2).cut (grid4.coords t) ((dat4 V c).after 2 t) = _
  rw [after4_2]
  have e : outsAt4 V c t.val t.isLt = (run2 V c 24, run3 V c 24) := by rw [outsAt_eq V c t.val t.isLt, h24]
  rw [e]
  dsimp only
  rw [run2_last]
  exact cut_eq_read2 t (total2 V c)

/-- Likewise the second output: the whole column sums of the squares. -/
theorem flushed3_eq (c : Dev nD) (t : Fin cfg4.N) (hf : (cfg4.win 3).flush t = true) :
    (dat4 V c).flushed 3 t = ((cfg4.win 3).blk t).view.read (Elt Ideal) (total3 V c) := by
  have h24 : t.val = 24 := by have := (flush4_3 t).mp hf; have := lt25 t; omega
  show (cfg4.win 3).cut (grid4.coords t) ((dat4 V c).after 3 t) = _
  rw [after4_3]
  have e : outsAt4 V c t.val t.isLt = (run2 V c 24, run3 V c 24) := by rw [outsAt_eq V c t.val t.isLt, h24]
  rw [e]
  dsimp only
  rw [run3_last]
  exact cut_eq_read3 t (total3 V c)

/-- An index of a 1×128 result array is in a point's block iff each coordinate is in the block's range. -/
theorem mem_blk2 (t : Fin cfg4.N) (i : S1x128.Idx) :
    i ∈ ((cfg4.win 2).blk t).view.set ↔ ∀ a : Fin 2, win4_2.index t a * S1x128.size a ≤ (i a).val
      ∧ (i a).val < win4_2.index t a * S1x128.size a + S1x128.size a := by
  show i ∈ ((View.whole main_v71_0).slice (win4_2.rect t)).set ↔ _
  rw [View.set_slice_whole, Rect.mem_set_unit]
  exact Iff.rfl

theorem mem_blk3 (t : Fin cfg4.N) (i : S1x128.Idx) :
    i ∈ ((cfg4.win 3).blk t).view.set ↔ ∀ a : Fin 2, win4_3.index t a * S1x128.size a ≤ (i a).val
      ∧ (i a).val < win4_3.index t a * S1x128.size a + S1x128.size a := by
  show i ∈ ((View.whole main_v71_1).slice (win4_3.rect t)).set ↔ _
  rw [View.set_slice_whole, Rect.mem_set_unit]
  exact Iff.rfl

/-- The last point's block covers the whole 1×128 array. -/
theorem cover2 (i : S1x128.Idx) : ∃ t : Fin cfg4.N, (cfg4.win 2).flush t = true ∧ i ∈ ((cfg4.win 2).blk t).view.set := by
  refine ⟨tLast, (flush4_2 tLast).mpr rfl, ?_⟩
  obtain ⟨-, -, -, -, e0, e1, -⟩ := idx_facts tLast
  rw [mem_blk2]
  intro a
  have h0 : (i 0).val < 1 := (i 0).isLt
  have h1 : (i 1).val < 128 := (i 1).isLt
  match a with
  | ⟨0, _⟩ => show win4_2.index tLast (0 : Fin 2) * 1 ≤ (i 0).val ∧ (i 0).val < win4_2.index tLast (0 : Fin 2) * 1 + 1; rw [e0]; omega
  | ⟨1, _⟩ => show win4_2.index tLast (1 : Fin 2) * 128 ≤ (i 1).val ∧ (i 1).val < win4_2.index tLast (1 : Fin 2) * 128 + 128; rw [e1]; omega

theorem cover3 (i : S1x128.Idx) : ∃ t : Fin cfg4.N, (cfg4.win 3).flush t = true ∧ i ∈ ((cfg4.win 3).blk t).view.set := by
  refine ⟨tLast, (flush4_3 tLast).mpr rfl, ?_⟩
  obtain ⟨-, -, -, -, -, -, e0, e1⟩ := idx_facts tLast
  rw [mem_blk3]
  intro a
  have h0 : (i 0).val < 1 := (i 0).isLt
  have h1 : (i 1).val < 128 := (i 1).isLt
  match a with
  | ⟨0, _⟩ => show win4_3.index tLast (0 : Fin 2) * 1 ≤ (i 0).val ∧ (i 0).val < win4_3.index tLast (0 : Fin 2) * 1 + 1; rw [e0]; omega
  | ⟨1, _⟩ => show win4_3.index tLast (1 : Fin 2) * 128 ≤ (i 1).val ∧ (i 1).val < win4_3.index tLast (1 : Fin 2) * 128 + 128; rw [e1]; omega

/-- After the region the first result array holds, in column q, the sum over all 50000 rows of (x + bias). -/
theorem final4_sum (c : Dev nD) : (dat4 V c).arrAt 2 cfg4.N
    = fun j : S1x128.Idx => ∑ p : Fin 50000, (arrX V c (ix2 p (j 1)) + rowB V c (ix2 0 (j 1))) :=
  (dat4 V c).arrAt_eq_of_cover 2 (total2 V c) (fun t hf => flushed2_eq V c t hf) (fun i => cover2 i)

/-- After the region the second result array holds, in column q, the sum over all 50000 rows of (x + bias)². -/
theorem final4_sumsq (c : Dev nD) : (dat4 V c).arrAt 3 cfg4.N
    = fun j : S1x128.Idx => ∑ p : Fin 50000, (arrX V c (ix2 p (j 1)) + rowB V c (ix2 0 (j 1)))
        * (arrX V c (ix2 p (j 1)) + rowB V c (ix2 0 (j 1))) :=
  (dat4 V c).arrAt_eq_of_cover 3 (total3 V c) (fun t hf => flushed3_eq V c t hf) (fun i => cover3 i)

end Final

end Cert.KernelIdeal.StatsValue4
end
-- ==== Proof.Spec.lean ====
/-
  The mathematics shared by the two programs, on the extended reals.

  A node-feature array has 50000 rows (nodes) and 128 columns (features). Batch normalisation over the
  node axis takes, per column q, the mean of the column and its variance, and maps every entry to
  max(γ(q)·(y − mean(q))·(var(q) + ε)^(−1/2) + β(q), 0). One program takes the variance as the mean of the
  squares minus the square of the mean, the other as the mean of the squared deviations from the mean.
-/
import Idealize.ShloMosaic.PureOps.Ideal
import Idealize.ShloMosaic.Lib.ValueIdx

noncomputable section

open scoped BigOperators

namespace Cert.Gcn

open Idealize.ShloMosaic Idealize.ShloMosaic.ValueIdx

/-- Node features: 50000 nodes by 128 features. -/
abbrev SA : Shape := ⟨2, ![50000, 128]⟩
/-- One row of 128 features. -/
abbrev SR : Shape := ⟨2, ![1, 128]⟩
/-- A vector of 128 features. -/
abbrev SV : Shape := ⟨1, ![128]⟩

/-- The variance's guard ε: the single-precision number nearest 1e-5. -/
def eps : EReal := Ideal.ofBits .f32 0x3727C5AC#32
/-- The number of nodes, 50000, as both programs spell it. -/
def cnt : EReal := Ideal.ofBits .f32 0x47435000#32

/-- The sum of column q over all nodes. -/
def colSum (Y : SA.Idx → EReal) (q : Fin 128) : EReal := ∑ p : Fin 50000, Y (ix2 p q)

/-- The mean of column q. -/
def mean (Y : SA.Idx → EReal) (q : Fin 128) : EReal := Ideal.div (colSum Y q) cnt

/-- The variance of column q as mean of squares minus squared mean. -/
def varK (Y : SA.Idx → EReal) (q : Fin 128) : EReal :=
  Ideal.div (∑ p : Fin 50000, Y (ix2 p q) * Y (ix2 p q)) cnt - mean Y q * mean Y q

/-- The variance of column q as the mean of the squared deviations from the mean. -/
def varR (Y : SA.Idx → EReal) (q : Fin 128) : EReal :=
  Ideal.div (∑ p : Fin 50000, (Y (ix2 p q) - mean Y q) * (Y (ix2 p q) - mean Y q)) cnt

/-- Normalise, scale, shift and clamp below at zero, column by column. -/
def scaleShift (Y : SA.Idx → EReal) (μ v γ β : Fin 128 → EReal) : SA.Idx → EReal :=
  fun i => max (γ (i 1) * (Y i - μ (i 1)) * Ideal.rsqrt (v (i 1) + eps) + β (i 1)) 0

/-- Every entry is a real number. -/
def AllReal {ι : Type} (f : ι → EReal) : Prop := ∀ i, ∃ r : ℝ, f i = (r : EReal)

end Cert.Gcn

end
-- ==== Proof.RegApply2.lean ====
/-
  The first normalisation kernel, read as one function of whole arrays.

  The 50000 rows of the array are cut into 25 consecutive blocks of 2000 rows.  Grid point t reads block t and five
  rows of 128 numbers (bias, mean, variance, scale, shift), computes entry by entry
  max(scale·((x + bias) − mean)·(variance + ε)^(−1/2) + shift, 0) with each row spread over the block's rows, and writes
  the result to rows 2000t … 2000t + 1999 of the output.  Every entry depends only on the entry of the array at the same
  place and on the five rows at its column, so block t of the output is block t of the whole normalised array, and the
  25 blocks, which tile the rows, leave the whole normalised array.
-/
import proofs.«129027_j70815420776783_1_alg».proof.Proof.Gen.KernelIdeal.Frame
import proofs.«129027_j70815420776783_1_alg».proof.Proof.Spec
import proofs.«129027_j70815420776783_1_alg».proof.Proof.LibRowBias
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The offsets (0, 0) are zero on every axis. -/
theorem start2 : (![0, 0] : Fin 2 → Nat) = fun _ => 0 := funext fun a => by fin_cases a <;> rfl

/-- One entry of the normalisation from the six numbers it reads: the entry a, the bias b, the mean m, the variance
    v, the scale g and the shift s give max(g·((a + b) − m)·(v + ε)^(−1/2) + s, 0). -/
def entry2 (a b m v g s : EReal) : EReal := max (g * (a + b - m) * Ideal.rsqrt (v + Cert.Gcn.eps) + s) 0

/-- The value the body stores, at an entry (p, q): the six numbers are the block's entry (p, q) and the five rows'
    entries (0, q); every row is spread over the 2000 rows of the block before it is used. -/
theorem pay2_apply (x : Vec Ideal S2000x128 .f32) (b vr g mu bt : Vec Ideal S1x128 .f32) (j : S2000x128.Idx) :
    k2_pay1 x b vr g mu bt j
      = entry2 (x j) (b (ix2 0 (j 1))) (mu (ix2 0 (j 1))) (vr (ix2 0 (j 1))) (g (ix2 0 (j 1))) (bt (ix2 0 (j 1))) := by
  unfold k2_pay1
  simp only [shapeCast_self]
  show max (broadcastTo S2000x128 g broadcasts_S1x128_S2000x128 j
        * (x j + broadcastTo S2000x128 b broadcasts_S1x128_S2000x128 j - broadcastTo S2000x128 mu broadcasts_S1x128_S2000x128 j)
        * broadcastTo S2000x128 (rsqrt (addf vr (broadcast S1x128 (Scalar.ofBits (F := Ideal) .f32 0x3727C5AC#32))))
            broadcasts_S1x128_S2000x128 j
        + broadcastTo S2000x128 bt broadcasts_S1x128_S2000x128 j) (Ideal.ofBits .f32 0x00000000#32) = _
  rw [Ideal.ofBits_zero_f32]
  simp only [Cert.RowBias.spreadRow_apply]
  rfl

/-- The block indices over the 25 grid points: the two 2000-row windows sit at block (t, 0), each row at (0, 0). -/
theorem where2_0 : ∀ t : Fin cfg2.N, win2_0.index t (0 : Fin 2) = t.val ∧ win2_0.index t (1 : Fin 2) = 0
    ∧ win2_6.index t (0 : Fin 2) = t.val ∧ win2_6.index t (1 : Fin 2) = 0 :=
  (by decide +kernel : ∀ t : Fin grid2.N, _)

theorem where2_1 : ∀ t : Fin cfg2.N, win2_1.index t (0 : Fin 2) = 0 ∧ win2_1.index t (1 : Fin 2) = 0 :=
  (by decide +kernel : ∀ t : Fin grid2.N, _)

theorem where2_2 : ∀ t : Fin cfg2.N, win2_2.index t (0 : Fin 2) = 0 ∧ win2_2.index t (1 : Fin 2) = 0 :=
  (by decide +kernel : ∀ t : Fin grid2.N, _)

theorem where2_3 : ∀ t : Fin cfg2.N, win2_3.index t (0 : Fin 2) = 0 ∧ win2_3.index t (1 : Fin 2) = 0 :=
  (by decide +kernel : ∀ t : Fin grid2.N, _)

theorem where2_4 : ∀ t : Fin cfg2.N, win2_4.index t (0 : Fin 2) = 0 ∧ win2_4.index t (1 : Fin 2) = 0 :=
  (by decide +kernel : ∀ t : Fin grid2.N, _)

theorem where2_5 : ∀ t : Fin cfg2.N, win2_5.index t (0 : Fin 2) = 0 ∧ win2_5.index t (1 : Fin 2) = 0 :=
  (by decide +kernel : ∀ t : Fin grid2.N, _)

section AnyValues

variable {F : FTy → Type} [FloatOps F]
variable (V : (c : Dev nD) → (b : Ref sig .tc) → Buf (Elt F) ((c : Thread nD τ).loc b))

/-- Block t of the array is its rows 2000t … 2000t + 1999. -/
theorem rows2_apply (c : Dev nD) (t : Fin cfg2.N) (y : S2000x128.Idx) (k : S50000x128.Idx)
    (hk0 : (k 0).val = 2000 * t.val + (y 0).val) (hk1 : (k 1).val = (y 1).val) :
    (iblk2 V c 0 t : Vec F S2000x128 .f32) y = (V c (Pipeline.arrRef spec2 0) : S50000x128.Idx → Elt F .f32) k := by
  obtain ⟨e0, e1, -⟩ := where2_0 t
  unfold iblk2
  rw [View.read_apply]
  show V c (Pipeline.arrRef spec2 0) _ = V c (Pipeline.arrRef spec2 0) _
  refine congrArg (V c (Pipeline.arrRef spec2 0)) ?_
  funext a
  apply Fin.ext
  match a with
  | ⟨0, _⟩ => show win2_0.index t 0 * 2000 + 1 * (y 0).val = (k 0).val; rw [e0, hk0]; omega
  | ⟨1, _⟩ => show win2_0.index t 1 * 128 + 1 * (y 1).val = (k 1).val; rw [e1, hk1]; omega

/-- The bias row's one block is the whole row. -/
theorem row2_1_apply (c : Dev nD) (t : Fin cfg2.N) (y : S1x128.Idx) :
    (iblk2 V c 1 t : Vec F S1x128 .f32) y = (V c (Pipeline.arrRef spec2 1) : S1x128.Idx → Elt F .f32) y := by
  obtain ⟨e0, e1⟩ := where2_1 t
  unfold iblk2
  rw [View.read_apply]
  show V c (Pipeline.arrRef spec2 1) _ = V c (Pipeline.arrRef spec2 1) _
  refine congrArg (V c (Pipeline.arrRef spec2 1)) ?_
  funext a
  apply Fin.ext
  match a with
  | ⟨0, _⟩ => show win2_1.index t 0 * 1 + 1 * (y 0).val = (y 0).val; rw [e0]; omega
  | ⟨1, _⟩ => show win2_1.index t 1 * 128 + 1 * (y 1).val = (y 1).val; rw [e1]; omega

/-- The mean row's one block is the whole row. -/
theorem row2_2_apply (c : Dev nD) (t : Fin cfg2.N) (y : S1x128.Idx) :
    (iblk2 V c 2 t : Vec F S1x128 .f32) y = (V c (Pipeline.arrRef spec2 2) : S1x128.Idx → Elt F .f32) y := by
  obtain ⟨e0, e1⟩ := where2_2 t
  unfold iblk2
  rw [View.read_apply]
  show V c (Pipeline.arrRef spec2 2) _ = V c (Pipeline.arrRef spec2 2) _
  refine congrArg (V c (Pipeline.arrRef spec2 2)) ?_
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

/-- The variance row's one block is the whole row. -/
theorem row2_3_apply (c : Dev nD) (t : Fin cfg2.N) (y : S1x128.Idx) :
    (iblk2 V c 3 t : Vec F S1x128 .f32) y = (V c (Pipeline.arrRef spec2 3) : S1x128.Idx → Elt F .f32) y := by
  obtain ⟨e0, e1⟩ := where2_3 t
  unfold iblk2
  rw [View.read_apply]
  show V c (Pipeline.arrRef spec2 3) _ = V c (Pipeline.arrRef spec2 3) _
  refine congrArg (V c (Pipeline.arrRef spec2 3)) ?_
  funext a
  apply Fin.ext
  match a with
  | ⟨0, _⟩ => show win2_3.index t 0 * 1 + 1 * (y 0).val = (y 0).val; rw [e0]; omega
  | ⟨1, _⟩ => show win2_3.index t 1 * 128 + 1 * (y 1).val = (y 1).val; rw [e1]; omega

/-- The scale row's one block is the whole row. -/
theorem row2_4_apply (c : Dev nD) (t : Fin cfg2.N) (y : S1x128.Idx) :
    (iblk2 V c 4 t : Vec F S1x128 .f32) y = (V c (Pipeline.arrRef spec2 4) : S1x128.Idx → Elt F .f32) y := by
  obtain ⟨e0, e1⟩ := where2_4 t
  unfold iblk2
  rw [View.read_apply]
  show V c (Pipeline.arrRef spec2 4) _ = V c (Pipeline.arrRef spec2 4) _
  refine congrArg (V c (Pipeline.arrRef spec2 4)) ?_
  funext a
  apply Fin.ext
  match a with
  | ⟨0, _⟩ => show win2_4.index t 0 * 1 + 1 * (y 0).val = (y 0).val; rw [e0]; omega
  | ⟨1, _⟩ => show win2_4.index t 1 * 128 + 1 * (y 1).val = (y 1).val; rw [e1]; omega

/-- The shift row's one block is the whole row. -/
theorem row2_5_apply (c : Dev nD) (t : Fin cfg2.N) (y : S1x128.Idx) :
    (iblk2 V c 5 t : Vec F S1x128 .f32) y = (V c (Pipeline.arrRef spec2 5) : S1x128.Idx → Elt F .f32) y := by
  obtain ⟨e0, e1⟩ := where2_5 t
  unfold iblk2
  rw [View.read_apply]
  show V c (Pipeline.arrRef spec2 5) _ = V c (Pipeline.arrRef spec2 5) _
  refine congrArg (V c (Pipeline.arrRef spec2 5)) ?_
  funext a
  apply Fin.ext
  match a with
  | ⟨0, _⟩ => show win2_5.index t 0 * 1 + 1 * (y 0).val = (y 0).val; rw [e0]; omega
  | ⟨1, _⟩ => show win2_5.index t 1 * 128 + 1 * (y 1).val = (y 1).val; rw [e1]; omega

end AnyValues

section ExactValues

variable (V : (c : Dev nD) → (b : Ref sig .tc) → Buf (Elt Ideal) ((c : Thread nD τ).loc b))

/-- The six arrays as the region finds them, each as a function of its index: the 50000×128 array and the bias, mean,
    variance, scale and shift rows. -/
abbrev arr2_0 (c : Dev nD) : S50000x128.Idx → EReal := V c (Pipeline.arrRef spec2 0)
abbrev arr2_1 (c : Dev nD) : S1x128.Idx → EReal := V c (Pipeline.arrRef spec2 1)
abbrev arr2_2 (c : Dev nD) : S1x128.Idx → EReal := V c (Pipeline.arrRef spec2 2)
abbrev arr2_3 (c : Dev nD) : S1x128.Idx → EReal := V c (Pipeline.arrRef spec2 3)
abbrev arr2_4 (c : Dev nD) : S1x128.Idx → EReal := V c (Pipeline.arrRef spec2 4)
abbrev arr2_5 (c : Dev nD) : S1x128.Idx → EReal := V c (Pipeline.arrRef spec2 5)

/-- The whole normalised array, from the six arrays as the region finds them: the bias row is added to every row,
    and the result is normalised column by column with the mean, variance, scale and shift rows. -/
abbrev whole2 (c : Dev nD) : S50000x128.Idx → EReal :=
  Cert.Gcn.scaleShift
    (fun i => arr2_0 V c i
      + arr2_1 V c (ix2 0 (i 1)))
    (fun q => arr2_2 V c (ix2 0 q))
    (fun q => arr2_3 V c (ix2 0 q))
    (fun q => arr2_4 V c (ix2 0 q))
    (fun q => arr2_5 V c (ix2 0 q))

/-- The whole array at an entry is the one-entry function of the six numbers there. -/
theorem whole2_apply (c : Dev nD) (i : S50000x128.Idx) :
    whole2 V c i = entry2 (arr2_0 V c i) (arr2_1 V c (ix2 0 (i 1))) (arr2_2 V c (ix2 0 (i 1)))
      (arr2_3 V c (ix2 0 (i 1))) (arr2_4 V c (ix2 0 (i 1))) (arr2_5 V c (ix2 0 (i 1))) := rfl

/-- Grid point t writes back block t of the whole normalised array: entry (p, q) of the block reads entry
    (2000t + p, q) of the array and the five rows at column q. -/
theorem wrote2 (c : Dev nD) (t : Fin cfg2.N) :
    (dat2 (F := Ideal) V c).flushed 6 t = ((cfg2.win 6).blk t).view.read (Elt Ideal) (whole2 V c) := by
  show (cfg2.win 6).cut (grid2.coords t) ((dat2 V c).after 6 t) = _
  rw [after2_6]
  unfold out2_6
  rw [View.canon_unit_zero start2]
  simp only [View.ld_unit_zero (S := S2000x128) start2, View.ld_unit_zero (S := S1x128) start2]
  obtain ⟨-, -, e2, e3⟩ := where2_0 t
  funext j
  show k2_pay1 (iblk2 V c 0 t) (iblk2 V c 1 t) (iblk2 V c 3 t) (iblk2 V c 4 t) (iblk2 V c 2 t) (iblk2 V c 5 t) j
    = whole2 V c (((cfg2.win 6).blk t).view.emb j)
  refine (pay2_apply (iblk2 V c 0 t) (iblk2 V c 1 t) (iblk2 V c 3 t) (iblk2 V c 4 t) (iblk2 V c 2 t) (iblk2 V c 5 t) j).trans ?_
  refine Eq.trans ?_ (whole2_apply V c (((cfg2.win 6).blk t).view.emb j)).symm
  have hq : (ix2 0 (j 1) : S1x128.Idx) = ix2 0 ((((cfg2.win 6).blk t).view.emb j : S50000x128.Idx) 1) := by
    funext a
    apply Fin.ext
    match a with
    | ⟨0, _⟩ => rfl
    | ⟨1, _⟩ => show (j 1).val = win2_6.index t 1 * 128 + 1 * (j 1).val; rw [e3]; omega
  have h0 : (iblk2 V c 0 t : Vec Ideal S2000x128 .f32) j
      = arr2_0 V c (((cfg2.win 6).blk t).view.emb j) := by
    refine rows2_apply V c t j _ ?_ ?_
    · show win2_6.index t 0 * 2000 + 1 * (j 0).val = 2000 * t.val + (j 0).val
      rw [e2]; omega
    · show win2_6.index t 1 * 128 + 1 * (j 1).val = (j 1).val
      rw [e3]; omega
  have h1 := (row2_1_apply V c t (ix2 0 (j 1))).trans (congrArg (arr2_1 V c) hq)
  have h2 := (row2_2_apply V c t (ix2 0 (j 1))).trans (congrArg (arr2_2 V c) hq)
  have h3 := (row2_3_apply V c t (ix2 0 (j 1))).trans (congrArg (arr2_3 V c) hq)
  have h4 := (row2_4_apply V c t (ix2 0 (j 1))).trans (congrArg (arr2_4 V c) hq)
  have h5 := (row2_5_apply V c t (ix2 0 (j 1))).trans (congrArg (arr2_5 V c) hq)
  rw [h0, h1, h2, h3, h4, h5]
  rfl

/-- An index of the output lies in point t's block iff each coordinate lies in the block's range on its axis. -/
theorem inBlock2 (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v55).slice (win2_6.rect t)).set ↔ _
  rw [View.set_slice_whole, Rect.mem_set_unit]
  exact Iff.rfl

/-- Row r of the output is written by grid point r / 2000: the 25 blocks tile the 50000 rows. -/
theorem covered2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by omega⟩, rfl⟩
  obtain ⟨-, -, e2, e3⟩ := where2_0 t
  refine ⟨t, flush2_6 t, ?_⟩
  rw [inBlock2]
  intro a
  match a with
  | ⟨0, _⟩ =>
    show win2_6.index t 0 * 2000 ≤ (i 0).val ∧ (i 0).val < win2_6.index t 0 * 2000 + 2000
    rw [e2, ht]; omega
  | ⟨1, _⟩ =>
    show win2_6.index t 1 * 128 ≤ (i 1).val ∧ (i 1).val < win2_6.index t 1 * 128 + 128
    rw [e3]; omega

/-- After the region the output array holds the whole normalised array of the six arrays the region found. -/
theorem final2 (c : Dev nD) :
    (dat2 (F := Ideal) V c).arrAt 6 cfg2.N
      = Cert.Gcn.scaleShift
          (fun i => arr2_0 V c i
            + arr2_1 V c (ix2 0 (i 1)))
          (fun q => arr2_2 V c (ix2 0 q))
          (fun q => arr2_3 V c (ix2 0 q))
          (fun q => arr2_4 V c (ix2 0 q))
          (fun q => arr2_5 V c (ix2 0 q)) :=
  (dat2 V c).arrAt_eq_of_cover 6 (whole2 V c) (fun t _ => wrote2 V c t) covered2

end ExactValues

end Cert.KernelIdeal.RegionValue

end
-- ==== Proof.RegApply5.lean ====
/-
  The second normalisation kernel, read as one function of whole arrays.

  The 50000 rows of the array are cut into 25 consecutive blocks of 2000 rows.  Grid point t reads block t and five
  rows of 128 numbers (bias, mean, variance, scale, shift), computes entry by entry
  max(scale·((x + bias) − mean)·(variance + ε)^(−1/2) + shift, 0) with each row spread over the block's rows, and writes
  the result to rows 2000t … 2000t + 1999 of the output.  Every entry depends only on the entry of the array at the same
  place and on the five rows at its column, so block t of the output is block t of the whole normalised array, and the
  25 blocks, which tile the rows, leave the whole normalised array.
-/
import proofs.«129027_j70815420776783_1_alg».proof.Proof.Gen.KernelIdeal.Frame
import proofs.«129027_j70815420776783_1_alg».proof.Proof.Spec
import proofs.«129027_j70815420776783_1_alg».proof.Proof.LibRowBias
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The offsets (0, 0) are zero on every axis. -/
theorem start5 : (![0, 0] : Fin 2 → Nat) = fun _ => 0 := funext fun a => by fin_cases a <;> rfl

/-- One entry of the normalisation from the six numbers it reads: the entry a, the bias b, the mean m, the variance
    v, the scale g and the shift s give max(g·((a + b) − m)·(v + ε)^(−1/2) + s, 0). -/
def entry5 (a b m v g s : EReal) : EReal := max (g * (a + b - m) * Ideal.rsqrt (v + Cert.Gcn.eps) + s) 0

/-- The value the body stores, at an entry (p, q): the six numbers are the block's entry (p, q) and the five rows'
    entries (0, q); every row is spread over the 2000 rows of the block before it is used. -/
theorem pay5_apply (x : Vec Ideal S2000x128 .f32) (b vr g mu bt : Vec Ideal S1x128 .f32) (j : S2000x128.Idx) :
    k5_pay1 x b vr g mu bt j
      = entry5 (x j) (b (ix2 0 (j 1))) (mu (ix2 0 (j 1))) (vr (ix2 0 (j 1))) (g (ix2 0 (j 1))) (bt (ix2 0 (j 1))) := by
  unfold k5_pay1
  simp only [shapeCast_self]
  show max (broadcastTo S2000x128 g broadcasts_S1x128_S2000x128 j
        * (x j + broadcastTo S2000x128 b broadcasts_S1x128_S2000x128 j - broadcastTo S2000x128 mu broadcasts_S1x128_S2000x128 j)
        * broadcastTo S2000x128 (rsqrt (addf vr (broadcast S1x128 (Scalar.ofBits (F := Ideal) .f32 0x3727C5AC#32))))
            broadcasts_S1x128_S2000x128 j
        + broadcastTo S2000x128 bt broadcasts_S1x128_S2000x128 j) (Ideal.ofBits .f32 0x00000000#32) = _
  rw [Ideal.ofBits_zero_f32]
  simp only [Cert.RowBias.spreadRow_apply]
  rfl

/-- The block indices over the 25 grid points: the two 2000-row windows sit at block (t, 0), each row at (0, 0). -/
theorem where5_0 : ∀ t : Fin cfg5.N, win5_0.index t (0 : Fin 2) = t.val ∧ win5_0.index t (1 : Fin 2) = 0
    ∧ win5_6.index t (0 : Fin 2) = t.val ∧ win5_6.index t (1 : Fin 2) = 0 :=
  (by decide +kernel : ∀ t : Fin grid5.N, _)

theorem where5_1 : ∀ t : Fin cfg5.N, win5_1.index t (0 : Fin 2) = 0 ∧ win5_1.index t (1 : Fin 2) = 0 :=
  (by decide +kernel : ∀ t : Fin grid5.N, _)

theorem where5_2 : ∀ t : Fin cfg5.N, win5_2.index t (0 : Fin 2) = 0 ∧ win5_2.index t (1 : Fin 2) = 0 :=
  (by decide +kernel : ∀ t : Fin grid5.N, _)

theorem where5_3 : ∀ t : Fin cfg5.N, win5_3.index t (0 : Fin 2) = 0 ∧ win5_3.index t (1 : Fin 2) = 0 :=
  (by decide +kernel : ∀ t : Fin grid5.N, _)

theorem where5_4 : ∀ t : Fin cfg5.N, win5_4.index t (0 : Fin 2) = 0 ∧ win5_4.index t (1 : Fin 2) = 0 :=
  (by decide +kernel : ∀ t : Fin grid5.N, _)

theorem where5_5 : ∀ t : Fin cfg5.N, win5_5.index t (0 : Fin 2) = 0 ∧ win5_5.index t (1 : Fin 2) = 0 :=
  (by decide +kernel : ∀ t : Fin grid5.N, _)

section AnyValues

variable {F : FTy → Type} [FloatOps F]
variable (V : (c : Dev nD) → (b : Ref sig .tc) → Buf (Elt F) ((c : Thread nD τ).loc b))

/-- Block t of the array is its rows 2000t … 2000t + 1999. -/
theorem rows5_apply (c : Dev nD) (t : Fin cfg5.N) (y : S2000x128.Idx) (k : S50000x128.Idx)
    (hk0 : (k 0).val = 2000 * t.val + (y 0).val) (hk1 : (k 1).val = (y 1).val) :
    (iblk5 V c 0 t : Vec F S2000x128 .f32) y = (V c (Pipeline.arrRef spec5 0) : S50000x128.Idx → Elt F .f32) k := by
  obtain ⟨e0, e1, -⟩ := where5_0 t
  unfold iblk5
  rw [View.read_apply]
  show V c (Pipeline.arrRef spec5 0) _ = V c (Pipeline.arrRef spec5 0) _
  refine congrArg (V c (Pipeline.arrRef spec5 0)) ?_
  funext a
  apply Fin.ext
  match a with
  | ⟨0, _⟩ => show win5_0.index t 0 * 2000 + 1 * (y 0).val = (k 0).val; rw [e0, hk0]; omega
  | ⟨1, _⟩ => show win5_0.index t 1 * 128 + 1 * (y 1).val = (k 1).val; rw [e1, hk1]; omega

/-- The bias row's one block is the whole row. -/
theorem row5_1_apply (c : Dev nD) (t : Fin cfg5.N) (y : S1x128.Idx) :
    (iblk5 V c 1 t : Vec F S1x128 .f32) y = (V c (Pipeline.arrRef spec5 1) : S1x128.Idx → Elt F .f32) y := by
  obtain ⟨e0, e1⟩ := where5_1 t
  unfold iblk5
  rw [View.read_apply]
  show V c (Pipeline.arrRef spec5 1) _ = V c (Pipeline.arrRef spec5 1) _
  refine congrArg (V c (Pipeline.arrRef spec5 1)) ?_
  funext a
  apply Fin.ext
  match a with
  | ⟨0, _⟩ => show win5_1.index t 0 * 1 + 1 * (y 0).val = (y 0).val; rw [e0]; omega
  | ⟨1, _⟩ => show win5_1.index t 1 * 128 + 1 * (y 1).val = (y 1).val; rw [e1]; omega

/-- The mean row's one block is the whole row. -/
theorem row5_2_apply (c : Dev nD) (t : Fin cfg5.N) (y : S1x128.Idx) :
    (iblk5 V c 2 t : Vec F S1x128 .f32) y = (V c (Pipeline.arrRef spec5 2) : S1x128.Idx → Elt F .f32) y := by
  obtain ⟨e0, e1⟩ := where5_2 t
  unfold iblk5
  rw [View.read_apply]
  show V c (Pipeline.arrRef spec5 2) _ = V c (Pipeline.arrRef spec5 2) _
  refine congrArg (V c (Pipeline.arrRef spec5 2)) ?_
  funext a
  apply Fin.ext
  match a with
  | ⟨0, _⟩ => show win5_2.index t 0 * 1 + 1 * (y 0).val = (y 0).val; rw [e0]; omega
  | ⟨1, _⟩ => show win5_2.index t 1 * 128 + 1 * (y 1).val = (y 1).val; rw [e1]; omega

/-- The variance row's one block is the whole row. -/
theorem row5_3_apply (c : Dev nD) (t : Fin cfg5.N) (y : S1x128.Idx) :
    (iblk5 V c 3 t : Vec F S1x128 .f32) y = (V c (Pipeline.arrRef spec5 3) : S1x128.Idx → Elt F .f32) y := by
  obtain ⟨e0, e1⟩ := where5_3 t
  unfold iblk5
  rw [View.read_apply]
  show V c (Pipeline.arrRef spec5 3) _ = V c (Pipeline.arrRef spec5 3) _
  refine congrArg (V c (Pipeline.arrRef spec5 3)) ?_
  funext a
  apply Fin.ext
  match a with
  | ⟨0, _⟩ => show win5_3.index t 0 * 1 + 1 * (y 0).val = (y 0).val; rw [e0]; omega
  | ⟨1, _⟩ => show win5_3.index t 1 * 128 + 1 * (y 1).val = (y 1).val; rw [e1]; omega

/-- The scale row's one block is the whole row. -/
theorem row5_4_apply (c : Dev nD) (t : Fin cfg5.N) (y : S1x128.Idx) :
    (iblk5 V c 4 t : Vec F S1x128 .f32) y = (V c (Pipeline.arrRef spec5 4) : S1x128.Idx → Elt F .f32) y := by
  obtain ⟨e0, e1⟩ := where5_4 t
  unfold iblk5
  rw [View.read_apply]
  show V c (Pipeline.arrRef spec5 4) _ = V c (Pipeline.arrRef spec5 4) _
  refine congrArg (V c (Pipeline.arrRef spec5 4)) ?_
  funext a
  apply Fin.ext
  match a with
  | ⟨0, _⟩ => show win5_4.index t 0 * 1 + 1 * (y 0).val = (y 0).val; rw [e0]; omega
  | ⟨1, _⟩ => show win5_4.index t 1 * 128 + 1 * (y 1).val = (y 1).val; rw [e1]; omega

/-- The shift row's one block is the whole row. -/
theorem row5_5_apply (c : Dev nD) (t : Fin cfg5.N) (y : S1x128.Idx) :
    (iblk5 V c 5 t : Vec F S1x128 .f32) y = (V c (Pipeline.arrRef spec5 5) : S1x128.Idx → Elt F .f32) y := by
  obtain ⟨e0, e1⟩ := where5_5 t
  unfold iblk5
  rw [View.read_apply]
  show V c (Pipeline.arrRef spec5 5) _ = V c (Pipeline.arrRef spec5 5) _
  refine congrArg (V c (Pipeline.arrRef spec5 5)) ?_
  funext a
  apply Fin.ext
  match a with
  | ⟨0, _⟩ => show win5_5.index t 0 * 1 + 1 * (y 0).val = (y 0).val; rw [e0]; omega
  | ⟨1, _⟩ => show win5_5.index t 1 * 128 + 1 * (y 1).val = (y 1).val; rw [e1]; omega

end AnyValues

section ExactValues

variable (V : (c : Dev nD) → (b : Ref sig .tc) → Buf (Elt Ideal) ((c : Thread nD τ).loc b))

/-- The six arrays as the region finds them, each as a function of its index: the 50000×128 array and the bias, mean,
    variance, scale and shift rows. -/
abbrev arr5_0 (c : Dev nD) : S50000x128.Idx → EReal := V c (Pipeline.arrRef spec5 0)
abbrev arr5_1 (c : Dev nD) : S1x128.Idx → EReal := V c (Pipeline.arrRef spec5 1)
abbrev arr5_2 (c : Dev nD) : S1x128.Idx → EReal := V c (Pipeline.arrRef spec5 2)
abbrev arr5_3 (c : Dev nD) : S1x128.Idx → EReal := V c (Pipeline.arrRef spec5 3)
abbrev arr5_4 (c : Dev nD) : S1x128.Idx → EReal := V c (Pipeline.arrRef spec5 4)
abbrev arr5_5 (c : Dev nD) : S1x128.Idx → EReal := V c (Pipeline.arrRef spec5 5)

/-- The whole normalised array, from the six arrays as the region finds them: the bias row is added to every row,
    and the result is normalised column by column with the mean, variance, scale and shift rows. -/
abbrev whole5 (c : Dev nD) : S50000x128.Idx → EReal :=
  Cert.Gcn.scaleShift
    (fun i => arr5_0 V c i
      + arr5_1 V c (ix2 0 (i 1)))
    (fun q => arr5_2 V c (ix2 0 q))
    (fun q => arr5_3 V c (ix2 0 q))
    (fun q => arr5_4 V c (ix2 0 q))
    (fun q => arr5_5 V c (ix2 0 q))

/-- The whole array at an entry is the one-entry function of the six numbers there. -/
theorem whole5_apply (c : Dev nD) (i : S50000x128.Idx) :
    whole5 V c i = entry5 (arr5_0 V c i) (arr5_1 V c (ix2 0 (i 1))) (arr5_2 V c (ix2 0 (i 1)))
      (arr5_3 V c (ix2 0 (i 1))) (arr5_4 V c (ix2 0 (i 1))) (arr5_5 V c (ix2 0 (i 1))) := rfl

/-- Grid point t writes back block t of the whole normalised array: entry (p, q) of the block reads entry
    (2000t + p, q) of the array and the five rows at column q. -/
theorem wrote5 (c : Dev nD) (t : Fin cfg5.N) :
    (dat5 (F := Ideal) V c).flushed 6 t = ((cfg5.win 6).blk t).view.read (Elt Ideal) (whole5 V c) := by
  show (cfg5.win 6).cut (grid5.coords t) ((dat5 V c).after 6 t) = _
  rw [after5_6]
  unfold out5_6
  rw [View.canon_unit_zero start5]
  simp only [View.ld_unit_zero (S := S2000x128) start5, View.ld_unit_zero (S := S1x128) start5]
  obtain ⟨-, -, e2, e3⟩ := where5_0 t
  funext j
  show k5_pay1 (iblk5 V c 0 t) (iblk5 V c 1 t) (iblk5 V c 3 t) (iblk5 V c 4 t) (iblk5 V c 2 t) (iblk5 V c 5 t) j
    = whole5 V c (((cfg5.win 6).blk t).view.emb j)
  refine (pay5_apply (iblk5 V c 0 t) (iblk5 V c 1 t) (iblk5 V c 3 t) (iblk5 V c 4 t) (iblk5 V c 2 t) (iblk5 V c 5 t) j).trans ?_
  refine Eq.trans ?_ (whole5_apply V c (((cfg5.win 6).blk t).view.emb j)).symm
  have hq : (ix2 0 (j 1) : S1x128.Idx) = ix2 0 ((((cfg5.win 6).blk t).view.emb j : S50000x128.Idx) 1) := by
    funext a
    apply Fin.ext
    match a with
    | ⟨0, _⟩ => rfl
    | ⟨1, _⟩ => show (j 1).val = win5_6.index t 1 * 128 + 1 * (j 1).val; rw [e3]; omega
  have h0 : (iblk5 V c 0 t : Vec Ideal S2000x128 .f32) j
      = arr5_0 V c (((cfg5.win 6).blk t).view.emb j) := by
    refine rows5_apply V c t j _ ?_ ?_
    · show win5_6.index t 0 * 2000 + 1 * (j 0).val = 2000 * t.val + (j 0).val
      rw [e2]; omega
    · show win5_6.index t 1 * 128 + 1 * (j 1).val = (j 1).val
      rw [e3]; omega
  have h1 := (row5_1_apply V c t (ix2 0 (j 1))).trans (congrArg (arr5_1 V c) hq)
  have h2 := (row5_2_apply V c t (ix2 0 (j 1))).trans (congrArg (arr5_2 V c) hq)
  have h3 := (row5_3_apply V c t (ix2 0 (j 1))).trans (congrArg (arr5_3 V c) hq)
  have h4 := (row5_4_apply V c t (ix2 0 (j 1))).trans (congrArg (arr5_4 V c) hq)
  have h5 := (row5_5_apply V c t (ix2 0 (j 1))).trans (congrArg (arr5_5 V c) hq)
  rw [h0, h1, h2, h3, h4, h5]
  rfl

/-- An index of the output lies in point t's block iff each coordinate lies in the block's range on its axis. -/
theorem inBlock5 (t : Fin cfg5.N) (i : S50000x128.Idx) :
    i ∈ ((cfg5.win 6).blk t).view.set ↔ ∀ a : Fin 2, win5_6.index t a * S2000x128.size a ≤ (i a).val
      ∧ (i a).val < win5_6.index t a * S2000x128.size a + S2000x128.size a := by
  show i ∈ ((View.whole main_v81).slice (win5_6.rect t)).set ↔ _
  rw [View.set_slice_whole, Rect.mem_set_unit]
  exact Iff.rfl

/-- Row r of the output is written by grid point r / 2000: the 25 blocks tile the 50000 rows. -/
theorem covered5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 25 := N_5
  obtain ⟨t, ht⟩ : ∃ t : Fin cfg5.N, t.val = (i 0).val / 2000 := ⟨⟨(i 0).val / 2000, by omega⟩, rfl⟩
  obtain ⟨-, -, e2, e3⟩ := where5_0 t
  refine ⟨t, flush5_6 t, ?_⟩
  rw [inBlock5]
  intro a
  match a with
  | ⟨0, _⟩ =>
    show win5_6.index t 0 * 2000 ≤ (i 0).val ∧ (i 0).val < win5_6.index t 0 * 2000 + 2000
    rw [e2, ht]; omega
  | ⟨1, _⟩ =>
    show win5_6.index t 1 * 128 ≤ (i 1).val ∧ (i 1).val < win5_6.index t 1 * 128 + 128
    rw [e3]; omega

/-- After the region the output array holds the whole normalised array of the six arrays the region found. -/
theorem final5 (c : Dev nD) :
    (dat5 (F := Ideal) V c).arrAt 6 cfg5.N
      = Cert.Gcn.scaleShift
          (fun i => arr5_0 V c i
            + arr5_1 V c (ix2 0 (i 1)))
          (fun q => arr5_2 V c (ix2 0 q))
          (fun q => arr5_3 V c (ix2 0 q))
          (fun q => arr5_4 V c (ix2 0 q))
          (fun q => arr5_5 V c (ix2 0 q)) :=
  (dat5 V c).arrAt_eq_of_cover 6 (whole5 V c) (fun t _ => wrote5 V c t) covered5

end ExactValues

end Cert.KernelIdeal.RegionValue

end
-- ==== Proof.Algebra.lean ====
/-
  Real-number algebra behind batch normalisation, on the extended reals.

  When every entry of a column is a real number, its mean and both forms of its variance are real numbers,
  the two forms of the variance agree, the variance is nonnegative, and the normalised, scaled, shifted and
  clamped entries are real numbers again.
-/
import proofs.«129027_j70815420776783_1_alg».proof.Proof.Spec

noncomputable section

open scoped BigOperators

namespace Cert.Gcn

open Idealize.ShloMosaic Idealize.ShloMosaic.ValueIdx

/-- The single-precision pattern 0x47435000 denotes the real number 50000. -/
theorem cnt_eq : cnt = ((50000 : ℝ) : EReal) := by
  simp [cnt, Ideal.ofBits, Ideal.ieee, -EReal.coe_mul]; norm_num

/-- The guard ε is a positive real number: 10995116 · 2^(-40), the single-precision number nearest 1e-5. -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

/-- The sum of two real numbers, taken in the extended reals, is a real number. -/
theorem allReal_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- The product of two real numbers, taken in the extended reals, is a real number. -/
theorem allReal_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of real numbers, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real-valued extended reals is real-valued. -/
theorem allReal_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact allReal_add (h a (Finset.mem_insert_self a s))
      (ih fun i hi => h i (Finset.mem_insert_of_mem hi))

/-- Division by the node count is multiplication by the real number 1/50000. -/
theorem div_cnt (x : EReal) : Ideal.div x cnt = x * (((1 / 50000 : ℝ)) : EReal) := by
  rw [cnt_eq]; exact Ideal.div_coe (by norm_num) x

/-- The mean of a column of real numbers y is the real number (Σ y) · (1/50000). -/
theorem mean_eq (Y : SA.Idx → EReal) (q : Fin 128) (y : Fin 50000 → ℝ)
    (hy : ∀ p : Fin 50000, Y (ix2 p q) = (y p : EReal)) :
    mean Y q = (((∑ p, y p) * (1 / 50000) : ℝ) : EReal) := by
  rw [mean, div_cnt, colSum, EReal.coe_mul, ← coe_sum]
  simp only [hy]

/-- Mean of squares minus squared mean, for a real column y with mean m = (Σ y)/50000. -/
theorem varK_eq (Y : SA.Idx → EReal) (q : Fin 128) (y : Fin 50000 → ℝ)
    (hy : ∀ p : Fin 50000, Y (ix2 p q) = (y p : EReal)) :
    varK Y q = (((∑ p, y p * y p) * (1 / 50000)
      - ((∑ p, y p) * (1 / 50000)) * ((∑ p, y p) * (1 / 50000)) : ℝ) : EReal) := by
  rw [varK, div_cnt, mean_eq Y q y hy]
  simp only [hy, EReal.coe_sub, EReal.coe_mul, ← coe_sum]

/-- Mean of the squared deviations, for a real column y with mean m = (Σ y)/50000. -/
theorem varR_eq (Y : SA.Idx → EReal) (q : Fin 128) (y : Fin 50000 → ℝ)
    (hy : ∀ p : Fin 50000, Y (ix2 p q) = (y p : EReal)) :
    varR Y q = (((∑ p, (y p - (∑ p, y p) * (1 / 50000)) * (y p - (∑ p, y p) * (1 / 50000)))
      * (1 / 50000) : ℝ) : EReal) := by
  rw [varR, div_cnt, mean_eq Y q y hy]
  simp only [hy, EReal.coe_sub, EReal.coe_mul, ← coe_sum]

/-- Over the reals, (1/n)·Σ(y − m)² = (1/n)·Σy² − m² when m = (1/n)·Σy and n = 50000 is the number of terms. -/
theorem real_var_identity (y : Fin 50000 → ℝ) :
    (∑ p, (y p - (∑ p, y p) * (1 / 50000)) * (y p - (∑ p, y p) * (1 / 50000))) * (1 / 50000)
      = (∑ p, y p * y p) * (1 / 50000) - ((∑ p, y p) * (1 / 50000)) * ((∑ p, y p) * (1 / 50000)) := by
  generalize hm : (∑ p, y p) * (1 / 50000 : ℝ) = m
  have h1 : ∀ p, (y p - m) * (y p - m) = y p * y p - 2 * m * y p + m * m := fun p => by ring
  simp only [h1, Finset.sum_add_distrib, Finset.sum_sub_distrib, ← Finset.mul_sum, Finset.sum_const,
    Finset.card_univ, Fintype.card_fin, nsmul_eq_mul]
  rw [← hm]; push_cast; ring

/-- For a column of real numbers, the two forms of the variance agree. -/
theorem varK_eq_varR (Y : SA.Idx → EReal) (q : Fin 128)
    (h : ∀ p : Fin 50000, ∃ r : ℝ, Y (ValueIdx.ix2 p q) = (r : EReal)) : varK Y q = varR Y q := by
  choose y hy using h
  rw [varK_eq Y q y hy, varR_eq Y q y hy, real_var_identity]

/-- The mean of a column of real numbers is a real number. -/
theorem mean_real (Y : SA.Idx → EReal) (q : Fin 128)
    (h : ∀ p : Fin 50000, ∃ r : ℝ, Y (ValueIdx.ix2 p q) = (r : EReal)) : ∃ r : ℝ, mean Y q = (r : EReal) := by
  choose y hy using h
  exact ⟨_, mean_eq Y q y hy⟩

/-- The variance of a column of real numbers, as a mean of squares, is a nonnegative real number. -/
theorem varR_real_nonneg (Y : SA.Idx → EReal) (q : Fin 128)
    (h : ∀ p : Fin 50000, ∃ r : ℝ, Y (ValueIdx.ix2 p q) = (r : EReal)) :
    ∃ r : ℝ, 0 ≤ r ∧ varR Y q = (r : EReal) := by
  choose y hy using h
  refine ⟨_, ?_, varR_eq Y q y hy⟩
  exact mul_nonneg (Finset.sum_nonneg fun p _ => mul_self_nonneg _) (by norm_num)

/-- The reciprocal square root of a positive real number is a real number. -/
theorem rsqrt_pos_real (r : ℝ) (hr : 0 < r) : ∃ s : ℝ, Ideal.rsqrt (r : EReal) = (s : EReal) := by
  refine ⟨(Real.sqrt r)⁻¹, ?_⟩
  rw [Ideal.rsqrt_coe, if_neg (not_lt.mpr hr.le), if_neg hr.ne']

/-- With real inputs, max(γ·(y − mean)·(var + ε)^(−1/2) + β, 0) is a real number at every entry: the variance is
    nonnegative and ε is positive, so the reciprocal square root is taken of a positive real number. -/
theorem scaleShift_real (Y : SA.Idx → EReal) (γ β : Fin 128 → EReal) (hY : AllReal Y) (hγ : AllReal γ)
    (hβ : AllReal β) : AllReal (scaleShift Y (mean Y) (varR Y) γ β) := by
  intro i
  have hcol : ∀ p : Fin 50000, ∃ r : ℝ, Y (ValueIdx.ix2 p (i 1)) = (r : EReal) := fun p => hY _
  obtain ⟨g, hg⟩ := hγ (i 1)
  obtain ⟨b, hb⟩ := hβ (i 1)
  obtain ⟨y, hy⟩ := hY i
  obtain ⟨m, hm⟩ := mean_real Y (i 1) hcol
  obtain ⟨v, hv0, hv⟩ := varR_real_nonneg Y (i 1) hcol
  obtain ⟨e, he0, he⟩ := eps_pos
  obtain ⟨s, hs⟩ := rsqrt_pos_real (v + e) (by linarith)
  refine ⟨max (g * (y - m) * s + b) 0, ?_⟩
  show max (γ (i 1) * (Y i - mean Y (i 1)) * Ideal.rsqrt (varR Y (i 1) + eps) + β (i 1)) 0 = _
  rw [hg, hb, hy, hm, hv, he, ← EReal.coe_add v e, hs, ← EReal.coe_sub, ← EReal.coe_mul, ← EReal.coe_mul,
    ← EReal.coe_add, EReal.coe_strictMono.monotone.map_max, EReal.coe_zero]

end Cert.Gcn

end
-- ==== Proof.Layer.lean ====
/-
  One batch-normalised layer as a function of the aggregated features, the bias, the scale and the shift.

  The bias is added to every row; the column means and variances are taken over the 50000 nodes; every entry
  is normalised, scaled, shifted and clamped below at zero. The two programs differ only in how the variance
  is taken, and the two variances agree when every entry of the biased features is a real number:
  (1/n)·Σy² − ((1/n)·Σy)² = (1/n)·Σ(y − (1/n)·Σy)².
-/
import proofs.«129027_j70815420776783_1_alg».proof.Proof.Spec
import proofs.«129027_j70815420776783_1_alg».proof.Proof.Algebra

noncomputable section

open scoped BigOperators

namespace Cert.Gcn

open Idealize.ShloMosaic Idealize.ShloMosaic.ValueIdx

/-- The features with the bias added to every row. -/
def withBias (P : SA.Idx → EReal) (b : SV.Idx → EReal) : SA.Idx → EReal := fun i => P i + b (ix1 (i 1))

/-- The layer with the variance as mean of squares minus squared mean. -/
def bnK (P : SA.Idx → EReal) (b γ β : SV.Idx → EReal) : SA.Idx → EReal :=
  scaleShift (withBias P b) (mean (withBias P b)) (varK (withBias P b)) (fun q => γ (ix1 q)) (fun q => β (ix1 q))

/-- The layer with the variance as the mean of the squared deviations. -/
def bnR (P : SA.Idx → EReal) (b γ β : SV.Idx → EReal) : SA.Idx → EReal :=
  scaleShift (withBias P b) (mean (withBias P b)) (varR (withBias P b)) (fun q => γ (ix1 q)) (fun q => β (ix1 q))

/-- Real features and a real bias give real biased features. -/
theorem withBias_real (P : SA.Idx → EReal) (b : SV.Idx → EReal) (hP : AllReal P) (hb : AllReal b) :
    AllReal (withBias P b) := fun i => allReal_add (hP i) (hb _)

/-- On real biased features the two variances agree, so the two layers are one function. -/
theorem bnK_eq_bnR (P : SA.Idx → EReal) (b γ β : SV.Idx → EReal) (hP : AllReal P) (hb : AllReal b) :
    bnK P b γ β = bnR P b γ β := by
  have hv : varK (withBias P b) = varR (withBias P b) :=
    funext fun q => varK_eq_varR (withBias P b) q (fun p => withBias_real P b hP hb _)
  unfold bnK bnR
  rw [hv]

/-- Real features, bias, scale and shift give a real layer output. -/
theorem bnR_real (P : SA.Idx → EReal) (b γ β : SV.Idx → EReal) (hP : AllReal P) (hb : AllReal b)
    (hγ : AllReal γ) (hβ : AllReal β) : AllReal (bnR P b γ β) :=
  scaleShift_real (withBias P b) _ _ (withBias_real P b hP hb) (fun q => hγ _) (fun q => hβ _)

end Cert.Gcn

end
-- ==== Proof.KLayer.lean ====
/-
  One batch-normalised layer of the kernel program as a function of the aggregated features and of the bias, scale
  and shift vectors.

  The statistics launch leaves the column sums and the column sums of squares of the biased features; the host
  divides them by the node count, giving the column means and, as mean of squares minus squared mean, the column
  variances; the normalising launch maps every entry to max(γ·(y − mean)·(var + ε)^(−1/2) + β, 0).
-/
import proofs.«129027_j70815420776783_1_alg».proof.Proof.Reads
import proofs.«129027_j70815420776783_1_alg».proof.Proof.ChainStats
import proofs.«129027_j70815420776783_1_alg».proof.Proof.ChainConv
import proofs.«129027_j70815420776783_1_alg».proof.Proof.RegStats1
import proofs.«129027_j70815420776783_1_alg».proof.Proof.RegStats4
import proofs.«129027_j70815420776783_1_alg».proof.Proof.RegApply2
import proofs.«129027_j70815420776783_1_alg».proof.Proof.RegApply5
import proofs.«129027_j70815420776783_1_alg».proof.Proof.Layer
import proofs.«129027_j70815420776783_1_alg».proof.Proof.LibRowBias

set_option maxRecDepth 16384

noncomputable section

open scoped BigOperators

namespace Cert.Gcn

open Idealize.ShloMosaic Idealize.ShloMosaic.ValueIdx

/-- If a 1×128 row S holds the column sums of the features plus a bias row r, and r holds the bias vector b, then
    S(0, q) over the node count is the mean of column q of the biased features. -/
theorem mean_of_sum (P : SA.Idx → EReal) (b : SV.Idx → EReal) (r S : SR.Idx → EReal)
    (hr : ∀ q : Fin 128, r (ix2 0 q) = b (ix1 q))
    (hS : S = fun j : SR.Idx => ∑ p : Fin 50000, (P (ix2 p (j 1)) + r (ix2 0 (j 1)))) (q : Fin 128) :
    Ideal.div (S (ix2 0 q)) cnt = mean (withBias P b) q := by
  subst hS
  show Ideal.div (∑ p : Fin 50000, (P (ix2 p q) + r (ix2 0 q))) cnt
    = Ideal.div (∑ p : Fin 50000, (P (ix2 p q) + b (ix1 q))) cnt
  rw [hr]

/-- Likewise the mean of the squares minus the squared mean is the variance of column q of the biased features. -/
theorem varK_of_sums (P : SA.Idx → EReal) (b : SV.Idx → EReal) (r S Q : SR.Idx → EReal)
    (hr : ∀ q : Fin 128, r (ix2 0 q) = b (ix1 q))
    (hS : S = fun j : SR.Idx => ∑ p : Fin 50000, (P (ix2 p (j 1)) + r (ix2 0 (j 1))))
    (hQ : Q = fun j : SR.Idx => ∑ p : Fin 50000, (P (ix2 p (j 1)) + r (ix2 0 (j 1)))
        * (P (ix2 p (j 1)) + r (ix2 0 (j 1)))) (q : Fin 128) :
    Ideal.div (Q (ix2 0 q)) cnt - Ideal.div (S (ix2 0 q)) cnt * Ideal.div (S (ix2 0 q)) cnt
      = varK (withBias P b) q := by
  have hm := mean_of_sum P b r S hr hS q
  subst hQ
  show Ideal.div (∑ p : Fin 50000, (P (ix2 p q) + r (ix2 0 q)) * (P (ix2 p q) + r (ix2 0 q))) cnt
      - Ideal.div (S (ix2 0 q)) cnt * Ideal.div (S (ix2 0 q)) cnt
    = Ideal.div (∑ p : Fin 50000, (P (ix2 p q) + b (ix1 q)) * (P (ix2 p q) + b (ix1 q))) cnt
      - mean (withBias P b) q * mean (withBias P b) q
  rw [hm, hr]

/-- The normalising map fed with rows that hold the bias, the column means, the column variances, the scale and the
    shift is the batch-normalised layer. -/
theorem scaleShift_rows_eq_bnK (X P : SA.Idx → EReal) (B M Vr G Bt : SR.Idx → EReal) (b γ β : SV.Idx → EReal)
    (hX : X = P) (hB : ∀ q : Fin 128, B (ix2 0 q) = b (ix1 q))
    (hM : ∀ q : Fin 128, M (ix2 0 q) = mean (withBias P b) q)
    (hV : ∀ q : Fin 128, Vr (ix2 0 q) = varK (withBias P b) q)
    (hG : ∀ q : Fin 128, G (ix2 0 q) = γ (ix1 q)) (hBt : ∀ q : Fin 128, Bt (ix2 0 q) = β (ix1 q)) :
    scaleShift (fun i => X i + B (ix2 0 (i 1))) (fun q => M (ix2 0 q)) (fun q => Vr (ix2 0 q))
      (fun q => G (ix2 0 q)) (fun q => Bt (ix2 0 q)) = bnK P b γ β := by
  subst hX
  have e1 : (fun i : SA.Idx => X i + B (ix2 0 (i 1))) = withBias X b :=
    funext fun i => congrArg (fun t => X i + t) (hB (i 1))
  rw [e1, funext hM, funext hV, funext hG, funext hBt]
  rfl

end Cert.Gcn

namespace Cert.KernelIdeal.Chain

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- A buffer's contents read as a 50000×128 array, a 1×128 row or a 128-vector of extended reals. -/
abbrev mat (x : S50000x128.Idx → EReal) : S50000x128.Idx → EReal := x
abbrev row (x : S1x128.Idx → EReal) : S1x128.Idx → EReal := x
abbrev vec (x : S128.Idx → EReal) : S128.Idx → EReal := x

/-! ## Layer 1 -/

/-- The bias row the statistics launch reads holds the bias vector. -/
theorem row1a (c : Dev nD) (q : Fin 128) :
    row (W5 m ρ c (Proc.devRef .tc main_v44)) (ix2 0 q) = vec (m ((c.tc : Thread nD τ).loc main_arg4)) (ix1 q) :=
  (congrFun (W5_v44 m ρ c) (ix2 0 q)).trans
    ((Cert.RowBias.asRow_apply _ _ q).trans (congrFun (rd4_0_main_arg4 m ρ c) (ix1 q)))

/-- After the statistics launch the first result row holds the column sums of the biased features. -/
theorem sum1 (c : Dev nD) : row (W6 m ρ c (Proc.devRef .tc main_v45_0))
    = fun j : S1x128.Idx => ∑ p : Fin 50000, (mat (W5 m ρ c (Proc.devRef .tc main_v43)) (ix2 p (j 1))
        + row (W5 m ρ c (Proc.devRef .tc main_v44)) (ix2 0 (j 1))) :=
  (W6_arr m ρ c 2).trans (StatsValue.final1_sum (V5 m ρ) c)

/-- After the statistics launch the second result row holds the column sums of the squared biased features. -/
theorem sumsq1 (c : Dev nD) : row (W6 m ρ c (Proc.devRef .tc main_v45_1))
    = fun j : S1x128.Idx => ∑ p : Fin 50000, (mat (W5 m ρ c (Proc.devRef .tc main_v43)) (ix2 p (j 1))
        + row (W5 m ρ c (Proc.devRef .tc main_v44)) (ix2 0 (j 1)))
      * (mat (W5 m ρ c (Proc.devRef .tc main_v43)) (ix2 p (j 1))
        + row (W5 m ρ c (Proc.devRef .tc main_v44)) (ix2 0 (j 1))) :=
  (W6_arr m ρ c 3).trans (StatsValue.final1_sumsq (V5 m ρ) c)

/-- The mean row: the column sums over the node count are the column means of the biased features. -/
theorem mean1 (c : Dev nD) (q : Fin 128) : row (W7 m ρ c (Proc.devRef .tc main_v47)) (ix2 0 q)
    = Cert.Gcn.mean (Cert.Gcn.withBias (W5 m ρ c (Proc.devRef .tc main_v43)) (m ((c.tc : Thread nD τ).loc main_arg4))) q :=
  (congrFun (W7_v47 m ρ c) (ix2 0 q)).trans
    (Cert.Gcn.mean_of_sum (W5 m ρ c (Proc.devRef .tc main_v43)) (m ((c.tc : Thread nD τ).loc main_arg4))
      (W5 m ρ c (Proc.devRef .tc main_v44)) (W6 m ρ c (Proc.devRef .tc main_v45_0))
      (row1a m ρ c) (sum1 m ρ c) q)

/-- The variance row: mean of squares minus squared mean of the biased features. -/
theorem var1 (c : Dev nD) (q : Fin 128) : row (W7 m ρ c (Proc.devRef .tc main_v51)) (ix2 0 q)
    = Cert.Gcn.varK (Cert.Gcn.withBias (W5 m ρ c (Proc.devRef .tc main_v43)) (m ((c.tc : Thread nD τ).loc main_arg4))) q :=
  (congrFun (W7_v51 m ρ c) (ix2 0 q)).trans
    (Cert.Gcn.varK_of_sums (W5 m ρ c (Proc.devRef .tc main_v43)) (m ((c.tc : Thread nD τ).loc main_arg4))
      (W5 m ρ c (Proc.devRef .tc main_v44)) (W6 m ρ c (Proc.devRef .tc main_v45_0))
      (W6 m ρ c (Proc.devRef .tc main_v45_1))
      (row1a m ρ c) (sum1 m ρ c) (sumsq1 m ρ c) q)

/-- The bias row the normalising launch reads holds the bias vector. -/
theorem row1b (c : Dev nD) (q : Fin 128) :
    row (W7 m ρ c (Proc.devRef .tc main_v52)) (ix2 0 q) = vec (m ((c.tc : Thread nD τ).loc main_arg4)) (ix1 q) :=
  (congrFun (W7_v52 m ρ c) (ix2 0 q)).trans
    ((Cert.RowBias.asRow_apply _ _ q).trans (congrFun (rd6_0_main_arg4 m ρ c) (ix1 q)))

/-- The scale row holds the scale vector. -/
theorem row1g (c : Dev nD) (q : Fin 128) :
    row (W7 m ρ c (Proc.devRef .tc main_v53)) (ix2 0 q) = vec (m ((c.tc : Thread nD τ).loc main_arg5)) (ix1 q) :=
  (congrFun (W7_v53 m ρ c) (ix2 0 q)).trans
    ((Cert.RowBias.asRow_apply _ _ q).trans (congrFun (rd6_0_main_arg5 m ρ c) (ix1 q)))

/-- The shift row holds the shift vector. -/
theorem row1s (c : Dev nD) (q : Fin 128) :
    row (W7 m ρ c (Proc.devRef .tc main_v54)) (ix2 0 q) = vec (m ((c.tc : Thread nD τ).loc main_arg6)) (ix1 q) :=
  (congrFun (W7_v54 m ρ c) (ix2 0 q)).trans
    ((Cert.RowBias.asRow_apply _ _ q).trans (congrFun (rd6_0_main_arg6 m ρ c) (ix1 q)))

/-- Layer 1's output: the batch-normalised layer, with the variance as mean of squares minus squared mean, of the
    aggregated features and the layer's bias, scale and shift vectors. -/
theorem W8_v55 (c : Dev nD) : W8 m ρ c (Proc.devRef .tc main_v55)
    = Cert.Gcn.bnK (W5 m ρ c (Proc.devRef .tc main_v43)) (m ((c.tc : Thread nD τ).loc main_arg4))
        (m ((c.tc : Thread nD τ).loc main_arg5)) (m ((c.tc : Thread nD τ).loc main_arg6)) :=
  (W8_arr m ρ c 6).trans ((RegionValue.final2 (V7 m ρ) c).trans
    (Cert.Gcn.scaleShift_rows_eq_bnK (W7 m ρ c (Proc.devRef .tc main_v43)) (W5 m ρ c (Proc.devRef .tc main_v43))
      (W7 m ρ c (Proc.devRef .tc main_v52)) (W7 m ρ c (Proc.devRef .tc main_v47))
      (W7 m ρ c (Proc.devRef .tc main_v51)) (W7 m ρ c (Proc.devRef .tc main_v53))
      (W7 m ρ c (Proc.devRef .tc main_v54)) (m ((c.tc : Thread nD τ).loc main_arg4))
      (m ((c.tc : Thread nD τ).loc main_arg5)) (m ((c.tc : Thread nD τ).loc main_arg6))
      (rd7_5_main_v43 m ρ c) (row1b m ρ c) (mean1 m ρ c) (var1 m ρ c) (row1g m ρ c) (row1s m ρ c)))

/-! ## Layer 2 -/

/-- The bias row the statistics launch reads holds the bias vector. -/
theorem row2a (c : Dev nD) (q : Fin 128) :
    row (W10 m ρ c (Proc.devRef .tc main_v70)) (ix2 0 q) = vec (m ((c.tc : Thread nD τ).loc main_arg8)) (ix1 q) :=
  (congrFun (W10_v70 m ρ c) (ix2 0 q)).trans
    ((Cert.RowBias.asRow_apply _ _ q).trans (congrFun (rd9_0_main_arg8 m ρ c) (ix1 q)))

/-- After the statistics launch the first result row holds the column sums of the biased features. -/
theorem sum2 (c : Dev nD) : row (W11 m ρ c (Proc.devRef .tc main_v71_0))
    = fun j : S1x128.Idx => ∑ p : Fin 50000, (mat (W10 m ρ c (Proc.devRef .tc main_v69)) (ix2 p (j 1))
        + row (W10 m ρ c (Proc.devRef .tc main_v70)) (ix2 0 (j 1))) :=
  (W11_arr m ρ c 2).trans (StatsValue4.final4_sum (V10 m ρ) c)

/-- After the statistics launch the second result row holds the column sums of the squared biased features. -/
theorem sumsq2 (c : Dev nD) : row (W11 m ρ c (Proc.devRef .tc main_v71_1))
    = fun j : S1x128.Idx => ∑ p : Fin 50000, (mat (W10 m ρ c (Proc.devRef .tc main_v69)) (ix2 p (j 1))
        + row (W10 m ρ c (Proc.devRef .tc main_v70)) (ix2 0 (j 1)))
      * (mat (W10 m ρ c (Proc.devRef .tc main_v69)) (ix2 p (j 1))
        + row (W10 m ρ c (Proc.devRef .tc main_v70)) (ix2 0 (j 1))) :=
  (W11_arr m ρ c 3).trans (StatsValue4.final4_sumsq (V10 m ρ) c)

/-- The mean row: the column sums over the node count are the column means of the biased features. -/
theorem mean2 (c : Dev nD) (q : Fin 128) : row (W12 m ρ c (Proc.devRef .tc main_v73)) (ix2 0 q)
    = Cert.Gcn.mean (Cert.Gcn.withBias (W10 m ρ c (Proc.devRef .tc main_v69)) (m ((c.tc : Thread nD τ).loc main_arg8))) q :=
  (congrFun (W12_v73 m ρ c) (ix2 0 q)).trans
    (Cert.Gcn.mean_of_sum (W10 m ρ c (Proc.devRef .tc main_v69)) (m ((c.tc : Thread nD τ).loc main_arg8))
      (W10 m ρ c (Proc.devRef .tc main_v70)) (W11 m ρ c (Proc.devRef .tc main_v71_0))
      (row2a m ρ c) (sum2 m ρ c) q)

/-- The variance row: mean of squares minus squared mean of the biased features. -/
theorem var2 (c : Dev nD) (q : Fin 128) : row (W12 m ρ c (Proc.devRef .tc main_v77)) (ix2 0 q)
    = Cert.Gcn.varK (Cert.Gcn.withBias (W10 m ρ c (Proc.devRef .tc main_v69)) (m ((c.tc : Thread nD τ).loc main_arg8))) q :=
  (congrFun (W12_v77 m ρ c) (ix2 0 q)).trans
    (Cert.Gcn.varK_of_sums (W10 m ρ c (Proc.devRef .tc main_v69)) (m ((c.tc : Thread nD τ).loc main_arg8))
      (W10 m ρ c (Proc.devRef .tc main_v70)) (W11 m ρ c (Proc.devRef .tc main_v71_0))
      (W11 m ρ c (Proc.devRef .tc main_v71_1))
      (row2a m ρ c) (sum2 m ρ c) (sumsq2 m ρ c) q)

/-- The bias row the normalising launch reads holds the bias vector. -/
theorem row2b (c : Dev nD) (q : Fin 128) :
    row (W12 m ρ c (Proc.devRef .tc main_v78)) (ix2 0 q) = vec (m ((c.tc : Thread nD τ).loc main_arg8)) (ix1 q) :=
  (congrFun (W12_v78 m ρ c) (ix2 0 q)).trans
    ((Cert.RowBias.asRow_apply _ _ q).trans (congrFun (rd11_0_main_arg8 m ρ c) (ix1 q)))

/-- The scale row holds the scale vector. -/
theorem row2g (c : Dev nD) (q : Fin 128) :
    row (W12 m ρ c (Proc.devRef .tc main_v79)) (ix2 0 q) = vec (m ((c.tc : Thread nD τ).loc main_arg9)) (ix1 q) :=
  (congrFun (W12_v79 m ρ c) (ix2 0 q)).trans
    ((Cert.RowBias.asRow_apply _ _ q).trans (congrFun (rd11_0_main_arg9 m ρ c) (ix1 q)))

/-- The shift row holds the shift vector. -/
theorem row2s (c : Dev nD) (q : Fin 128) :
    row (W12 m ρ c (Proc.devRef .tc main_v80)) (ix2 0 q) = vec (m ((c.tc : Thread nD τ).loc main_arg10)) (ix1 q) :=
  (congrFun (W12_v80 m ρ c) (ix2 0 q)).trans
    ((Cert.RowBias.asRow_apply _ _ q).trans (congrFun (rd11_0_main_arg10 m ρ c) (ix1 q)))

/-- Layer 2's output: the batch-normalised layer, with the variance as mean of squares minus squared mean, of the
    aggregated features and the layer's bias, scale and shift vectors. -/
theorem W13_v81 (c : Dev nD) : W13 m ρ c (Proc.devRef .tc main_v81)
    = Cert.Gcn.bnK (W10 m ρ c (Proc.devRef .tc main_v69)) (m ((c.tc : Thread nD τ).loc main_arg8))
        (m ((c.tc : Thread nD τ).loc main_arg9)) (m ((c.tc : Thread nD τ).loc main_arg10)) :=
  (W13_arr m ρ c 6).trans ((RegionValue.final5 (V12 m ρ) c).trans
    (Cert.Gcn.scaleShift_rows_eq_bnK (W12 m ρ c (Proc.devRef .tc main_v69)) (W10 m ρ c (Proc.devRef .tc main_v69))
      (W12 m ρ c (Proc.devRef .tc main_v78)) (W12 m ρ c (Proc.devRef .tc main_v73))
      (W12 m ρ c (Proc.devRef .tc main_v77)) (W12 m ρ c (Proc.devRef .tc main_v79))
      (W12 m ρ c (Proc.devRef .tc main_v80)) (m ((c.tc : Thread nD τ).loc main_arg8))
      (m ((c.tc : Thread nD τ).loc main_arg9)) (m ((c.tc : Thread nD τ).loc main_arg10))
      (rd12_10_main_v69 m ρ c) (row2b m ρ c) (mean2 m ρ c) (var2 m ρ c) (row2g m ρ c) (row2s m ρ c)))

end Cert.KernelIdeal.Chain

end
-- ==== Proof.LibNormSum.lean ====
/-
  Scaling a finite sum on the extended reals.

  Multiplication on the extended reals does not distribute over addition in general (`⊤ + ⊥`), but it does
  when the factor is a nonnegative real. Hence a sum accumulated at a destination and then scaled by the
  destination's factor is the sum of the terms each scaled by the factor of its own destination.
-/
import Idealize.ShloMosaic.PureOps.Ideal

noncomputable section

open scoped BigOperators

namespace Cert.NormSum

open Idealize.ShloMosaic

/-- A nonnegative real factor distributes over a finite sum of extended reals. -/
theorem mul_sum_of_nonneg_real {ι : Type*} (a : EReal) (h0 : 0 ≤ a) (ht : a ≠ ⊤) (s : Finset ι) (f : ι → EReal) :
    a * ∑ i ∈ s, f i = ∑ i ∈ s, a * f i := by
  induction s using Finset.cons_induction with
  | empty => simp
  | cons i s hi ih =>
    rw [Finset.sum_cons, Finset.sum_cons, EReal.left_distrib_of_nonneg_of_ne_top h0 ht, ih]

/-- Scaling the accumulated sum by `a(n)` is accumulating terms scaled by `a` at their own destination,
    when every term that lands on `n` has destination factor `a(n)`. -/
theorem normalized_sum_eq {M : Nat} (an : EReal) (h0 : 0 ≤ an) (ht : an ≠ ⊤) (hit : Fin M → Prop)
    [DecidablePred hit] (h ws wd : Fin M → EReal) (hd : ∀ e, hit e → wd e = an) :
    an * (0 + ∑ e : Fin M, if hit e then h e * ws e else 0)
      = 0 + ∑ e : Fin M, if hit e then h e * (ws e * wd e) else 0 := by
  rw [zero_add, zero_add, mul_sum_of_nonneg_real an h0 ht]
  refine Finset.sum_congr rfl fun e _ => ?_
  by_cases he : hit e
  · rw [if_pos he, if_pos he, hd e he, mul_comm an, mul_assoc]
  · rw [if_neg he, if_neg he, mul_zero]

/-- A finite count, accumulated on the extended reals, is a nonnegative real. -/
theorem count_finset_nonneg_real {ι : Type*} (s : Finset ι) (p : ι → Prop) [DecidablePred p] :
    ∃ r : ℝ, 0 ≤ r ∧ (∑ e ∈ s, if p e then (1 : EReal) else 0) = (r : EReal) := by
  induction s using Finset.cons_induction with
  | empty => exact ⟨0, le_rfl, by simp⟩
  | cons i s hi ih =>
    obtain ⟨r, hr0, hr⟩ := ih
    rw [Finset.sum_cons, hr]
    by_cases hp : p i
    · refine ⟨1 + r, by linarith, ?_⟩
      rw [if_pos hp, EReal.coe_add, EReal.coe_one]
    · refine ⟨r, hr0, ?_⟩
      rw [if_neg hp, zero_add]

/-- The number of indices satisfying `p`, accumulated from zero, is a nonnegative real. -/
theorem count_nonneg_real {M : Nat} (p : Fin M → Prop) [DecidablePred p] :
    ∃ r : ℝ, 0 ≤ r ∧ (0 + ∑ e : Fin M, if p e then (1 : EReal) else 0) = (r : EReal) := by
  rw [zero_add]
  exact count_finset_nonneg_real Finset.univ p

/-- The guarded inverse square root of a nonnegative real is a nonnegative real: zero at zero (the guard
    selects the constant), `1 / √r` at a positive `r`. -/
theorem guarded_rsqrt_nonneg_real (r : ℝ) (hr : 0 ≤ r) :
    ∃ r' : ℝ, 0 ≤ r' ∧
      Scalar.select (Ideal.cmp .ogt (r : EReal) 0) (Ideal.rsqrt (r : EReal)) (0 : EReal) = (r' : EReal) := by
  rcases hr.eq_or_lt with h | h
  · subst h
    refine ⟨0, le_rfl, ?_⟩
    have h0 : Ideal.cmp .ogt ((0 : ℝ) : EReal) 0 ≠ 1 := by
      show BitVec.ofBool (decide ((0 : EReal) < ((0 : ℝ) : EReal))) ≠ 1
      rw [EReal.coe_zero, decide_eq_false (lt_irrefl _)]
      decide
    unfold Scalar.select
    rw [if_neg h0, EReal.coe_zero]
  · refine ⟨(Real.sqrt r)⁻¹, inv_nonneg.2 (Real.sqrt_nonneg r), ?_⟩
    have h1 : Ideal.cmp .ogt (r : EReal) 0 = 1 := by
      show BitVec.ofBool (decide ((0 : EReal) < (r : EReal))) = 1
      rw [decide_eq_true (EReal.coe_pos.2 h)]
      rfl
    unfold Scalar.select
    rw [if_pos h1, Ideal.rsqrt_coe, if_neg (not_lt.2 hr), if_neg h.ne']

end Cert.NormSum

end
-- ==== Proof.ConvReal.lean ====
/-
  Real inputs give real outputs along the message-passing stretches.

  Every edge weight is a real number: a node's degree is a finite count, its guarded inverse square root is a
  real number, and a weight is the product of two of them. An aggregated feature is zero plus a finite sum of
  products of a real feature and a real weight, hence real. An entry of a product of real arrays is a finite
  sum of products of real numbers, hence real.
-/
import proofs.«129027_j70815420776783_1_alg».proof.Proof.ChainNorm
import proofs.«129027_j70815420776783_1_alg».proof.Proof.ChainConv
import proofs.«129027_j70815420776783_1_alg».proof.Proof.Algebra
import proofs.«129027_j70815420776783_1_alg».proof.Proof.LibNormSum
import proofs.«129027_j70815420776783_1_alg».proof.Proof.LibRowsProduct
import Idealize.ShloMosaic.Lib.IdealHost

noncomputable section

open scoped BigOperators

namespace Cert.KernelIdeal.ChainReal

open Cert.KernelIdeal Cert.KernelIdeal.Chain Cert.Gcn
open Idealize.ShloMosaic Idealize.ShloMosaic.ValueIdx

/-- A gather reads the table at some index, so a gather of a real table is real. -/
theorem allReal_gather {s si t : Shape} {w : Nat} (d : GatherDims s si t) (x : s.Idx → EReal) (idx : IVec si w)
    (hx : AllReal x) : AllReal (Host.gather d x idx) := fun _ => hx _

/-- A broadcast reads its operand at some index, so a broadcast of a real array is real. -/
theorem allReal_broadcastInDim {s t : Shape} (dims : Fin s.rank → Fin t.rank) (h : s.BroadcastsInDim t dims)
    (x : s.Idx → EReal) (hx : AllReal x) : AllReal (broadcastInDim t dims h x) := fun _ => hx _

/-- An accumulating scatter adds to each entry of the table a finite sum of updates, so with a real table and
    real updates it is real. -/
theorem allReal_hostScatterAdd {s si u : Shape} {w : Nat} (d : ScatterDims s si u) (x : s.Idx → EReal)
    (idx : IVec si w) (upd : u.Idx → EReal) (hx : AllReal x) (hu : AllReal upd) :
    AllReal (Ideal.hostScatterAdd d x idx upd) := by
  intro i
  unfold Ideal.hostScatterAdd
  exact allReal_add (hx i) (allReal_sum _ _ fun j _ => hu j)

/-- An accumulating scatter of ones into zeros is, at every entry, the number of updates that land there: a
    nonnegative real number. -/
theorem hostScatterAdd_count {s si u : Shape} {w : Nat} (d : ScatterDims s si u) (x : s.Idx → EReal)
    (idx : IVec si w) (upd : u.Idx → EReal) (hx : ∀ i, x i = 0) (hu : ∀ j, upd j = 1) (i : s.Idx) :
    ∃ r : ℝ, 0 ≤ r ∧ Ideal.hostScatterAdd d x idx upd i = (r : EReal) := by
  unfold Ideal.hostScatterAdd
  rw [hx i, zero_add, Finset.sum_filter]
  simp only [hu]
  exact Cert.NormSum.count_finset_nonneg_real _ _

/-- Every entry is a nonnegative real number. -/
def NonnegReal {ι : Type} (f : ι → EReal) : Prop := ∀ i, ∃ r : ℝ, 0 ≤ r ∧ f i = (r : EReal)

/-- An accumulating scatter of ones into zeros is a count at every entry. -/
theorem hostScatterAdd_nonnegReal {s si u : Shape} {w : Nat} (d : ScatterDims s si u) (x : s.Idx → EReal)
    (idx : IVec si w) (upd : u.Idx → EReal) (hx : ∀ i, x i = 0) (hu : ∀ j, upd j = 1) :
    NonnegReal (Ideal.hostScatterAdd d x idx upd) := fun i => hostScatterAdd_count d x idx upd hx hu i

/-- A node's degree is zero plus one for every edge whose destination is the node: a nonnegative real number. -/
theorem degK_real (E : IVec S2x800000 32) : NonnegReal (degK E : S50000.Idx → EReal) := by
  unfold degK Host.scatterAdd
  rw [Ideal.hostScatterAdd_def]
  refine hostScatterAdd_nonnegReal _ _ _ _ (fun i => ?_) (fun j => ?_)
  · rw [broadcastInDim_scalar_apply, constant_apply, Ideal.ofBits_zero_f32]
  · rw [broadcastInDim_scalar_apply, constant_apply, Ideal.ofBits_one_f32]

/-- The host's inverse square root at an index is the inverse square root of the entry. -/
theorem hostRsqrt_apply {s : Shape} {φ : FTy} (x : FVec Ideal s φ) (i : s.Idx) :
    Host.rsqrt x i = Ideal.rsqrt (x i) := rfl

/-- The guarded inverse square root of a node's degree is a real number: the degree is a nonnegative real, the
    guard compares it with zero, and zero is what the guard selects when the degree is not positive. -/
theorem dinvK_real (E : IVec S2x800000 32) : AllReal (dinvK E : S50000.Idx → EReal) := by
  unfold dinvK
  intro n
  rw [select_apply, cmpf_apply, Ideal.cmpf_def, hostRsqrt_apply, broadcastInDim_scalar_apply,
    broadcastInDim_scalar_apply, id, constant_apply, Ideal.ofBits_zero_f32]
  obtain ⟨r, hr0, hr⟩ := degK_real E n
  rw [hr]
  obtain ⟨r', _, hr'⟩ := Cert.NormSum.guarded_rsqrt_nonneg_real r hr0
  exact ⟨r', hr'⟩

/-- Every edge weight is a real number: the product of the guarded inverse square roots of the degrees at the
    edge's two ends. -/
theorem normK_real (E : IVec S2x800000 32) : AllReal (normK E : S850000.Idx → EReal) := by
  intro i
  have hd := dinvK_real E
  unfold normK
  rw [mulf_apply]
  exact allReal_mul (allReal_gather _ _ _ hd i) (allReal_gather _ _ _ hd i)

/-- The aggregated features are real when the features are: an entry is zero plus a finite sum of products of a
    gathered feature and an edge weight. -/
theorem convK_real (h : S50000x128.Idx → EReal) (E : IVec S2x800000 32) (hh : AllReal h) :
    AllReal (convK h (srcK E) (dstK E) (normK E) : S50000x128.Idx → EReal) := by
  have hw := normK_real E
  unfold convK Host.scatterAdd
  rw [Ideal.hostScatterAdd_def]
  refine allReal_hostScatterAdd _ _ _ _ (fun i => ⟨0, ?_⟩) (fun j => ?_)
  · rw [broadcastInDim_scalar_apply, constant_apply, Ideal.ofBits_zero_f32, EReal.coe_zero]
  · rw [mulf_apply]
    exact allReal_mul (allReal_gather _ _ _ hh j)
      (allReal_broadcastInDim _ _ _ (allReal_broadcastInDim _ _ _ hw) j)

/-- An entry of the product of a real 50000×128 array with a real 128×128 matrix is a finite sum of products of
    real numbers, so it is a real number. -/
theorem rowsTimes_real (x : (⟨2, ![50000, 128]⟩ : Shape).Idx → EReal) (w : (⟨2, ![128, 128]⟩ : Shape).Idx → EReal)
    (hx : AllReal x) (hw : AllReal w) : AllReal (Cert.RowsProduct.rowsTimes x w) := by
  intro j
  show ∃ r : ℝ, Cert.RowDot.rowDot (Cert.RowDot.rowOf x (j 0)) w (j 1) = (r : EReal)
  unfold Cert.RowDot.rowDot Cert.RowDot.rowOf
  exact allReal_sum _ _ fun k _ => allReal_mul (hx _) (hw _)

end Cert.KernelIdeal.ChainReal
end
-- ==== Proof.PreReal.lean ====
/-
  From the precondition to real-valued arguments.

  The precondition is a conjunction of statements "every entry a of this array satisfies |a| < +∞", one per
  floating-point argument. On the extended reals |a| = max(a, −a) is +∞ at both infinities, so |a| < +∞ holds
  exactly when a is a real number.
-/
import proofs.«129027_j70815420776783_1_alg».proof.Defs
import proofs.«129027_j70815420776783_1_alg».proof.Proof.Gen.Pre_finite_inputs
import proofs.«129027_j70815420776783_1_alg».proof.Proof.Spec
import Idealize.ShloMosaic.Lib.ReduceAll

noncomputable section

namespace Cert.Gcn

open Idealize.ShloMosaic Idealize.SL.Sem

/-- The single-precision pattern 0x7F800000 denotes +∞. -/
theorem ofBits_inf : Ideal.ofBits .f32 0x7F800000#32 = (⊤ : EReal) := by
  simp [Ideal.ofBits, Ideal.ieee]

/-- An extended real x with max(x, −x) < +∞ is a real number: at x = −∞ and at x = +∞ the maximum is +∞. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- If the conjunction over all entries of "|a| < +∞" is true, every entry of a is a real number. The bound is a
    constant spread over the array's shape, the conjunction a reduction by "and" into a result with one entry. -/
theorem allReal_of_all {s z t u : Shape} {axes : List (Fin s.rank)} [Subsingleton t.Idx]
    (a : FVec Ideal s .f32) (dims : Fin z.rank → Fin s.rank) (hb : z.BroadcastsInDim s dims)
    (init : IVec u 1) (hr : s.ReducesTo axes t) (hu : 0 < u.numel) (j : t.Idx)
    (e : Host.reduce IntOp.andi
      (cmpf .olt (Host.absf a) (broadcastInDim s dims hb (constant z .f32 0x7F800000#32))) init hr hu j = 1#1) :
    AllReal a := by
  intro i
  exact real_of_abs_lt_inf (a i) (Host.reduce_andi_all _ init hr hu j e i)

/-- The shape with no axes has exactly one index. -/
instance : Subsingleton Cert.Pre_finite_inputs.S_.Idx := ⟨fun _ _ => funext fun d => d.elim0⟩

/-- Under the precondition, the node features, both layers' weights and biases, and the first layer's scale and
    shift vectors hold real numbers only. -/
theorem pre_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8)) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e3⟩, e4⟩, e5⟩, e6⟩, e7⟩, e8⟩, -⟩, -⟩, -⟩, -⟩ := h0
  exact ⟨allReal_of_all _ _ _ _ _ _ _ e0, allReal_of_all _ _ _ _ _ _ _ e3, allReal_of_all _ _ _ _ _ _ _ e4,
    allReal_of_all _ _ _ _ _ _ _ e5, allReal_of_all _ _ _ _ _ _ _ e6, allReal_of_all _ _ _ _ _ _ _ e7,
    allReal_of_all _ _ _ _ _ _ _ e8⟩

end Cert.Gcn

end
-- ==== Proof.Conv.lean ====
/-
  The reference program's graph convolution and its tail, as functions of the value they consume.

  A layer of the reference multiplies the node features by a weight matrix, gathers the rows of the
  product at the source node of every edge (and of every self loop), scales each gathered row by the
  symmetric degree normalisation of its edge, and adds the scaled rows into the row of the edge's target
  node. `conv h E` is that message passing applied to an already multiplied feature array `h` over the edge
  list `E`. Both layers of the reference are `conv` of a matrix product: the second layer recomputes the
  edge indices and the normalisation from the same edge list, so they are the same terms.

  After the second layer the reference adds the rows of every graph of the batch, divides by the number
  of rows of the graph (at least one), multiplies by the classifier's matrix and adds its bias: `tail`.
-/
import proofs.«129027_j70815420776783_1_alg».proof.Proof.RefReadP
import proofs.«129027_j70815420776783_1_alg».proof.Proof.Spec

noncomputable section

namespace Cert.Gcn

open Cert.ReferenceIdeal Cert.ReferenceIdeal.Gen Cert.ReferenceIdeal.Read Idealize.ShloMosaic Idealize.ShloMosaic.TcCoe Idealize.SL.Sem Idealize.ShloMosaic.StableHlo

/-- Message passing over the edge list `E` (with self loops): gather the rows of `h` at the source
    nodes, scale by the edge normalisation, add into the rows of the target nodes. -/
def conv (h : FVec Ideal S50000x128 .f32)
    (E : IVec S2x800000 32) :
    FVec Ideal S50000x128 .f32 :=
  Host.scatterAdd scatter_S50000x128_S850000x1_S850000x128_1_0_0_1 (val_main_v41 (F := Ideal))
    (val_main_v42 (F := Ideal) E)
    (mulf (Host.gather gather_S50000x128_S850000x1_S850000x128_1_0_n_n_0_1_1128 h (val_main_v36 (F := Ideal) E))
      (val_main_v39 (F := Ideal) E))

/-- Mean pooling of the node features `y` over the graphs of the batch, then the dense classifier. -/
def tail (y : FVec Ideal S50000x128 .f32)
    (batch : IVec S50000 32)
    (Wfc : FVec Ideal S128x10 .f32)
    (bfc : FVec Ideal S10 .f32) :
    FVec Ideal S64x10 .f32 :=
  addf
    (Host.dotGeneral dot_S64x128_S128x10_S64x10_1_0_0_1_n_n none
      (Host.divf
        (Host.scatterAdd scatter_S64x128_S50000x1_S50000x128_1_0_0_1 (val_main_v146 (F := Ideal))
          (val_main_v147 (F := Ideal) batch) y)
        (val_main_v156 (F := Ideal) batch))
      Wfc)
    (val_main_v160 (F := Ideal) bfc)

/-- The first layer's message passing is `conv` of the product of the input features and the first weight matrix. -/
theorem v43_eq (x0 : FVec Ideal S50000x128 .f32)
    (x1 : IVec S2x800000 32)
    (x3 : FVec Ideal S128x128 .f32) :
    val_main_v43 (F := Ideal) x0 x1 x3
      = conv (Host.dotGeneral (F := Ideal) dot_S50000x128_S128x128_S50000x128_1_0_0_1_n_n none x0 x3) x1 := rfl

/-- The second layer's message passing is `conv` of the product of the first layer's output and the second
    weight matrix: its indices and its normalisation are recomputed from the same edge list. -/
theorem v116_eq (x0 : FVec Ideal S50000x128 .f32)
    (x1 : IVec S2x800000 32)
    (x3 : FVec Ideal S128x128 .f32)
    (x4 x5 x6 : FVec Ideal S128 .f32)
    (x7 : FVec Ideal S128x128 .f32) :
    val_main_v116 (F := Ideal) x0 x1 x3 x4 x5 x6 x7
      = conv (Host.dotGeneral (F := Ideal) (φ₁ := .f32) dot_S50000x128_S128x128_S50000x128_1_0_0_1_n_n none
          (val_main_v72 (F := Ideal) x0 x1 x3 x4 x5 x6) x7) x1 := rfl

/-- The reference's result is `tail` of the second layer's output. -/
theorem v161_eq_tail (x0 : FVec Ideal S50000x128 .f32)
    (x1 : IVec S2x800000 32)
    (x2 : IVec S50000 32)
    (x3 : FVec Ideal S128x128 .f32)
    (x4 x5 x6 : FVec Ideal S128 .f32)
    (x7 : FVec Ideal S128x128 .f32)
    (x8 x9 x10 : FVec Ideal S128 .f32)
    (x11 : FVec Ideal S128x10 .f32)
    (x12 : FVec Ideal S10 .f32) :
    val_main_v161 (F := Ideal) x0 x1 x2 x3 x4 x5 x6 x7 x8 x9 x10 x11 x12
      = tail (val_main_v145 (F := Ideal) x0 x1 x3 x4 x5 x6 x7 x8 x9 x10) x2 x11 x12 := rfl

end Cert.Gcn

end
-- ==== Proof.RefBN.lean ====
/-
  The reference's batch-normalisation stages, read at an entry.

  After the graph convolution a layer of the reference adds the bias to every row, takes per column the
  mean over the 50000 nodes and the mean of the squared deviations from it, and maps every entry to
  max(γ·(y − mean)·(var + ε)^(−1/2) + β, 0). Each stage is read at an index: a row broadcast reads its
  vector at the column, the reduction over the node axis is the sum over the rows of the column (its
  initial value is the zero word), and the count and ε are the literal words of the specification.
-/
import proofs.«129027_j70815420776783_1_alg».proof.Proof.RefReadP
import proofs.«129027_j70815420776783_1_alg».proof.Proof.Spec

noncomputable section

open scoped BigOperators

namespace Cert.Gcn

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The column mean with the count's word written out. -/
theorem mean_unfold (Y : SA.Idx → EReal) (q : Fin 128) :
    mean Y q = Ideal.div (∑ p : Fin 50000, Y (ix2 p q)) (Ideal.ofBits .f32 0x47435000#32) := rfl

/-- The mean of the squared deviations with the count's word written out. -/
theorem varR_unfold (Y : SA.Idx → EReal) (q : Fin 128) :
    varR Y q = Ideal.div (∑ p : Fin 50000, (Y (ix2 p q) - mean Y q) * (Y (ix2 p q) - mean Y q))
      (Ideal.ofBits .f32 0x47435000#32) := rfl

section Layer1

variable (x0 : FVec Ideal S50000x128 .f32) (x1 : IVec S2x800000 32) (x3 : FVec Ideal S128x128 .f32) (x4 x5 x6 : FVec Ideal S128 .f32)

/-- The layer's aggregated features plus the bias, at an entry. -/
theorem pre1_at (p : Fin 50000) (q : Fin 128) :
    val_main_v46 (F := Ideal) x0 x1 x3 x4 (ix2 p q)
      = val_main_v43 (F := Ideal) x0 x1 x3 (ix2 p q) + x4 (ix1 q) := by
  rw [val_main_v46_apply, val_main_v45_apply, val_main_v44_apply]
  exact congrArg (fun j => val_main_v43 (F := Ideal) x0 x1 x3 (ix2 p q) + x4 j)
    (funext fun a => Fin.ext (by match a with | ⟨0, _⟩ => rfl))

/-- The reduction over the node axis divided by the node count is the column mean. -/
theorem mean1_at (q : Fin 128) :
    val_main_v49 (F := Ideal) x0 x1 x3 x4 (ix1 q) = mean (fun i => val_main_v43 (F := Ideal) x0 x1 x3 i + x4 (ix1 (i 1))) q := by
  rw [val_main_v49_apply, val_main_v47_apply, val_main_v48_apply, val_main_cst_10_apply, val_main_cst_9_apply]
  simp only [Ideal.hostDivf_def, Ideal.ofBits_def, Ideal.ofBits_zero_f32, zero_add]
  rw [mean_unfold]
  refine congrArg (fun s : EReal => Ideal.div s (Ideal.ofBits .f32 0x47435000#32)) (Finset.sum_congr rfl fun k _ => ?_)
  have e : idx_main_v47 (ix1 q) k = ix2 k q :=
    funext fun a => Fin.ext (by match a with | ⟨0, _⟩ => rfl | ⟨1, _⟩ => rfl)
  rw [e]
  exact pre1_at x0 x1 x3 x4 k q

/-- The mean of the squared deviations from the column mean. -/
theorem var1_at (q : Fin 128) :
    val_main_v56 (F := Ideal) x0 x1 x3 x4 (ix1 q) = varR (fun i => val_main_v43 (F := Ideal) x0 x1 x3 i + x4 (ix1 (i 1))) q := by
  rw [val_main_v56_apply, val_main_v54_apply, val_main_v55_apply, val_main_cst_12_apply, val_main_cst_11_apply]
  simp only [Ideal.hostDivf_def, Ideal.ofBits_def, Ideal.ofBits_zero_f32, zero_add]
  rw [varR_unfold]
  refine congrArg (fun s : EReal => Ideal.div s (Ideal.ofBits .f32 0x47435000#32)) (Finset.sum_congr rfl fun k _ => ?_)
  have e : idx_main_v54 (ix1 q) k = ix2 k q :=
    funext fun a => Fin.ext (by match a with | ⟨0, _⟩ => rfl | ⟨1, _⟩ => rfl)
  have e2 : idx_main_v50 (idx_main_v51 (ix2 k q)) = ix1 q :=
    funext fun a => Fin.ext (by match a with | ⟨0, _⟩ => rfl)
  rw [e, val_main_v53_apply, val_main_v52_apply, val_main_v51_apply, val_main_v50_apply, e2, pre1_at, mean1_at]
  rfl

/-- The layer's output: batch normalisation of the biased aggregated features over the node axis, clamped below at zero. -/
theorem layer1_eq :
    val_main_v72 (F := Ideal) x0 x1 x3 x4 x5 x6
      = scaleShift (fun i => val_main_v43 (F := Ideal) x0 x1 x3 i + x4 (ix1 (i 1))) (mean (fun i => val_main_v43 (F := Ideal) x0 x1 x3 i + x4 (ix1 (i 1)))) (varR (fun i => val_main_v43 (F := Ideal) x0 x1 x3 i + x4 (ix1 (i 1))))
          (fun q => x5 (ix1 q)) (fun q => x6 (ix1 q)) := by
  funext i
  obtain ⟨p, q, rfl⟩ : ∃ (p : Fin 50000) (q : Fin 128), i = ix2 p q := ⟨i 0, i 1, eq_ix2 i⟩
  have e1 : idx_main_v57 (idx_main_v58 (ix2 p q)) = ix1 q :=
    funext fun a => Fin.ext (by match a with | ⟨0, _⟩ => rfl)
  have e2 : idx_main_v60 (idx_main_v61 (ix2 p q)) = ix1 q :=
    funext fun a => Fin.ext (by match a with | ⟨0, _⟩ => rfl)
  have e3 : idx_main_v66 (idx_main_v67 (ix2 p q)) = ix1 q :=
    funext fun a => Fin.ext (by match a with | ⟨0, _⟩ => rfl)
  have e4 : idx_main_v69 (idx_main_v70 (ix2 p q)) = ix1 q :=
    funext fun a => Fin.ext (by match a with | ⟨0, _⟩ => rfl)
  rw [val_main_v72_apply, val_main_v71_apply, val_main_v68_apply, val_main_v62_apply, val_main_v61_apply, val_main_v60_apply, e2,
    val_main_v59_apply, val_main_v58_apply, val_main_v57_apply, e1, val_main_v67_apply, val_main_v66_apply, e3,
    val_main_v65_apply, val_main_v64_apply, val_main_v63_apply, val_main_cst_13_apply, val_main_v70_apply, val_main_v69_apply, e4,
    val_main_call1_v0_apply, val_main_call1_cst_apply, pre1_at, mean1_at, var1_at]
  simp only [Ideal.ofBits_def, Ideal.ofBits_zero_f32]
  rfl

end Layer1

section Layer2

variable (x0 : FVec Ideal S50000x128 .f32) (x1 : IVec S2x800000 32) (x3 : FVec Ideal S128x128 .f32) (x4 x5 x6 : FVec Ideal S128 .f32) (x7 : FVec Ideal S128x128 .f32) (x8 x9 x10 : FVec Ideal S128 .f32)

/-- The layer's aggregated features plus the bias, at an entry. -/
theorem pre2_at (p : Fin 50000) (q : Fin 128) :
    val_main_v119 (F := Ideal) x0 x1 x3 x4 x5 x6 x7 x8 (ix2 p q)
      = val_main_v116 (F := Ideal) x0 x1 x3 x4 x5 x6 x7 (ix2 p q) + x8 (ix1 q) := by
  rw [val_main_v119_apply, val_main_v118_apply, val_main_v117_apply]
  exact congrArg (fun j => val_main_v116 (F := Ideal) x0 x1 x3 x4 x5 x6 x7 (ix2 p q) + x8 j)
    (funext fun a => Fin.ext (by match a with | ⟨0, _⟩ => rfl))

/-- The reduction over the node axis divided by the node count is the column mean. -/
theorem mean2_at (q : Fin 128) :
    val_main_v122 (F := Ideal) x0 x1 x3 x4 x5 x6 x7 x8 (ix1 q) = mean (fun i => val_main_v116 (F := Ideal) x0 x1 x3 x4 x5 x6 x7 i + x8 (ix1 (i 1))) q := by
  rw [val_main_v122_apply, val_main_v120_apply, val_main_v121_apply, val_main_cst_26_apply, val_main_cst_25_apply]
  simp only [Ideal.hostDivf_def, Ideal.ofBits_def, Ideal.ofBits_zero_f32, zero_add]
  rw [mean_unfold]
  refine congrArg (fun s : EReal => Ideal.div s (Ideal.ofBits .f32 0x47435000#32)) (Finset.sum_congr rfl fun k _ => ?_)
  have e : idx_main_v120 (ix1 q) k = ix2 k q :=
    funext fun a => Fin.ext (by match a with | ⟨0, _⟩ => rfl | ⟨1, _⟩ => rfl)
  rw [e]
  exact pre2_at x0 x1 x3 x4 x5 x6 x7 x8 k q

/-- The mean of the squared deviations from the column mean. -/
theorem var2_at (q : Fin 128) :
    val_main_v129 (F := Ideal) x0 x1 x3 x4 x5 x6 x7 x8 (ix1 q) = varR (fun i => val_main_v116 (F := Ideal) x0 x1 x3 x4 x5 x6 x7 i + x8 (ix1 (i 1))) q := by
  rw [val_main_v129_apply, val_main_v127_apply, val_main_v128_apply, val_main_cst_28_apply, val_main_cst_27_apply]
  simp only [Ideal.hostDivf_def, Ideal.ofBits_def, Ideal.ofBits_zero_f32, zero_add]
  rw [varR_unfold]
  refine congrArg (fun s : EReal => Ideal.div s (Ideal.ofBits .f32 0x47435000#32)) (Finset.sum_congr rfl fun k _ => ?_)
  have e : idx_main_v127 (ix1 q) k = ix2 k q :=
    funext fun a => Fin.ext (by match a with | ⟨0, _⟩ => rfl | ⟨1, _⟩ => rfl)
  have e2 : idx_main_v123 (idx_main_v124 (ix2 k q)) = ix1 q :=
    funext fun a => Fin.ext (by match a with | ⟨0, _⟩ => rfl)
  rw [e, val_main_v126_apply, val_main_v125_apply, val_main_v124_apply, val_main_v123_apply, e2, pre2_at, mean2_at]
  rfl

/-- The layer's output: batch normalisation of the biased aggregated features over the node axis, clamped below at zero. -/
theorem layer2_eq :
    val_main_v145 (F := Ideal) x0 x1 x3 x4 x5 x6 x7 x8 x9 x10
      = scaleShift (fun i => val_main_v116 (F := Ideal) x0 x1 x3 x4 x5 x6 x7 i + x8 (ix1 (i 1))) (mean (fun i => val_main_v116 (F := Ideal) x0 x1 x3 x4 x5 x6 x7 i + x8 (ix1 (i 1)))) (varR (fun i => val_main_v116 (F := Ideal) x0 x1 x3 x4 x5 x6 x7 i + x8 (ix1 (i 1))))
          (fun q => x9 (ix1 q)) (fun q => x10 (ix1 q)) := by
  funext i
  obtain ⟨p, q, rfl⟩ : ∃ (p : Fin 50000) (q : Fin 128), i = ix2 p q := ⟨i 0, i 1, eq_ix2 i⟩
  have e1 : idx_main_v130 (idx_main_v131 (ix2 p q)) = ix1 q :=
    funext fun a => Fin.ext (by match a with | ⟨0, _⟩ => rfl)
  have e2 : idx_main_v133 (idx_main_v134 (ix2 p q)) = ix1 q :=
    funext fun a => Fin.ext (by match a with | ⟨0, _⟩ => rfl)
  have e3 : idx_main_v139 (idx_main_v140 (ix2 p q)) = ix1 q :=
    funext fun a => Fin.ext (by match a with | ⟨0, _⟩ => rfl)
  have e4 : idx_main_v142 (idx_main_v143 (ix2 p q)) = ix1 q :=
    funext fun a => Fin.ext (by match a with | ⟨0, _⟩ => rfl)
  rw [val_main_v145_apply, val_main_v144_apply, val_main_v141_apply, val_main_v135_apply, val_main_v134_apply, val_main_v133_apply, e2,
    val_main_v132_apply, val_main_v131_apply, val_main_v130_apply, e1, val_main_v140_apply, val_main_v139_apply, e3,
    val_main_v138_apply, val_main_v137_apply, val_main_v136_apply, val_main_cst_29_apply, val_main_v143_apply, val_main_v142_apply, e4,
    val_main_call3_v0_apply, val_main_call3_cst_apply, pre2_at, mean2_at, var2_at]
  simp only [Ideal.ofBits_def, Ideal.ofBits_zero_f32]
  rfl

end Layer2

end Cert.Gcn

end
-- ==== Proof.Bridge.lean ====
/-
  The host-side functions of the two programs are the same functions.

  Both programs build, from the edge list, the source and destination index vectors (the edges followed by one
  self-loop per node), the destination-degree counts, their guarded inverse square roots, and the edge weights; both
  pass messages by gathering rows at the (wrapped) source indices, scaling by the edge weights and adding into the
  rows at the destination indices; both end with per-graph mean pooling and a dense layer.  The two programs spell
  these with their own names for the same shapes and the same dimension records, so each function of one program is,
  term for term, the corresponding function of the other: every equation below holds by unfolding the definitions.
  The host's matrix product of the plain dimension numbers is the whole-product function of the two arrays.
-/
import proofs.«129027_j70815420776783_1_alg».proof.Proof.Conv
import proofs.«129027_j70815420776783_1_alg».proof.Proof.ChainNorm
import proofs.«129027_j70815420776783_1_alg».proof.Proof.ChainConv
import proofs.«129027_j70815420776783_1_alg».proof.Proof.ChainTail
import proofs.«129027_j70815420776783_1_alg».proof.Proof.LibRowsProduct

set_option maxRecDepth 16384

noncomputable section

namespace Cert.Gcn

open Idealize.ShloMosaic Cert.KernelIdeal.Chain

/-- The source index vector: the same concatenation in both programs. -/
theorem src_eq_srcK (E : IVec Cert.ReferenceIdeal.S2x800000 32) :
    Cert.ReferenceIdeal.Read.val_main_v3 (F := Ideal) E = srcK E := rfl

/-- The destination index vector. -/
theorem dst_eq_dstK (E : IVec Cert.ReferenceIdeal.S2x800000 32) :
    Cert.ReferenceIdeal.Read.val_main_v6 (F := Ideal) E = dstK E := rfl

/-- The edge weights: the product of the guarded inverse square roots of the degree counts at an edge's two ends. -/
theorem norm_eq_normK (E : IVec Cert.ReferenceIdeal.S2x800000 32) :
    Cert.ReferenceIdeal.Read.val_main_v29 (F := Ideal) E = normK E := rfl

/-- The wrapped source indices the message passing gathers at. -/
theorem wrapSrc_eq (E : IVec Cert.ReferenceIdeal.S2x800000 32) :
    Cert.ReferenceIdeal.Read.val_main_v36 (F := Ideal) E = wrapK (srcK E) := rfl

/-- The destination indices as a column, as the accumulating scatter takes them. -/
theorem dstCol_eq (E : IVec Cert.ReferenceIdeal.S2x800000 32) :
    Cert.ReferenceIdeal.Read.val_main_v42 (F := Ideal) E
      = broadcastInDim Cert.KernelIdeal.S850000x1 ![0] Cert.KernelIdeal.Gen.bcast_S850000_S850000x1_0 (dstK E) := rfl

/-- Message passing over the edge list is the kernel program's, at its source and destination vectors and weights. -/
theorem conv_eq_convK (h : FVec Ideal Cert.ReferenceIdeal.S50000x128 .f32) (E : IVec Cert.ReferenceIdeal.S2x800000 32) :
    conv h E = convK h (srcK E) (dstK E) (normK E) := rfl

/-- Mean pooling per graph followed by the dense layer is the kernel program's. -/
theorem tail_eq_tailK (y : FVec Ideal Cert.ReferenceIdeal.S50000x128 .f32) (batch : IVec Cert.ReferenceIdeal.S50000 32)
    (wfc : FVec Ideal Cert.ReferenceIdeal.S128x10 .f32) (bfc : FVec Ideal Cert.ReferenceIdeal.S10 .f32) :
    tail y batch wfc bfc = tailK y batch wfc bfc := rfl

/-- The host's product of a 50000×128 array with a 128×128 matrix is the whole-product function of the two. -/
theorem hostDot_eq (x : FVec Ideal Cert.ReferenceIdeal.S50000x128 .f32) (w : FVec Ideal Cert.ReferenceIdeal.S128x128 .f32) :
    Host.dotGeneral (F := Ideal) Cert.ReferenceIdeal.dot_S50000x128_S128x128_S50000x128_1_0_0_1_n_n none x w
      = Cert.RowsProduct.rowsTimes x w :=
  Cert.RowsProduct.hostDot_eq_rowsTimes none x w

end Cert.Gcn

end
-- ==== Proof.Assemble.lean ====
/-
  The idealized kernel program's result is the reference's function of the launch contents.

  Both programs are: aggregate (product with W, gather at the sources, scale by the edge weights, scatter-add
  at the destinations), batch-normalise with a rectifier, twice; then pool per graph and apply the dense
  layer. They differ in the variance only (mean of squares minus squared mean against mean of squared
  deviations), and those agree where the biased features are real numbers. Under the precondition the
  node features, the weights, the biases, the scales and the shifts are real; products, gathers and finite
  sums of real numbers are real, and so is a normalised layer, its variance being nonnegative and the guard ε
  positive. So layer by layer the kernel program's arrays are the reference's.
-/
import proofs.«129027_j70815420776783_1_alg».proof.Defs
import proofs.«129027_j70815420776783_1_alg».proof.Proof.KStages
import proofs.«129027_j70815420776783_1_alg».proof.Proof.KLayer
import proofs.«129027_j70815420776783_1_alg».proof.Proof.ConvReal
import proofs.«129027_j70815420776783_1_alg».proof.Proof.PreReal
import proofs.«129027_j70815420776783_1_alg».proof.Proof.Conv
import proofs.«129027_j70815420776783_1_alg».proof.Proof.RefBN
import proofs.«129027_j70815420776783_1_alg».proof.Proof.Bridge
import proofs.«129027_j70815420776783_1_alg».proof.Proof.Layer

set_option maxRecDepth 16384

noncomputable section

namespace Cert.Proof.Assemble

open Cert.KernelIdeal Cert.KernelIdeal.Gen Cert.KernelIdeal.Chain Cert.Gcn
open Idealize.ShloMosaic Idealize.ShloMosaic.TcCoe Idealize.SL.Sem
open Cert.ReferenceIdeal.Read

/-- Under the precondition the kernel program's result buffer ends at the reference's function of the launch
    contents of the thirteen arguments. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    W14 m ρ c (Proc.devRef .tc main_v97)
      = val_main_v161 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  obtain ⟨h0, h3, h4, h5, h6, h7, h8⟩ := pre_real m hpre c
  -- layer 1: the aggregated features are real, so the two variances agree
  have hP1 : AllReal (W5 m ρ c (Proc.devRef .tc main_v43)) := by
    rw [W5_v43_eq]; exact Cert.KernelIdeal.ChainReal.convK_real _ _ (Cert.KernelIdeal.ChainReal.rowsTimes_real _ _ h0 h3)
  have e43 : val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) = W5 m ρ c (Proc.devRef .tc main_v43) := by
    rw [v43_eq, hostDot_eq, conv_eq_convK, W5_v43_eq]
  have e72 : val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = W8 m ρ c (Proc.devRef .tc main_v55) := by
    rw [layer1_eq, e43, W8_v55, bnK_eq_bnR _ _ _ _ hP1 h4]; rfl
  have hy1 : AllReal (W8 m ρ c (Proc.devRef .tc main_v55)) := by
    rw [W8_v55, bnK_eq_bnR _ _ _ _ hP1 h4]; exact bnR_real _ _ _ _ hP1 h4 h5 h6
  -- layer 2
  have hP2 : AllReal (W10 m ρ c (Proc.devRef .tc main_v69)) := by
    rw [W10_v69_eq]; exact Cert.KernelIdeal.ChainReal.convK_real _ _ (Cert.KernelIdeal.ChainReal.rowsTimes_real _ _ hy1 h7)
  have e116 : val_main_v116 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = W10 m ρ c (Proc.devRef .tc main_v69) := by
    rw [v116_eq, e72, hostDot_eq, conv_eq_convK, W10_v69_eq]
  have e145 : val_main_v145 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = W13 m ρ c (Proc.devRef .tc main_v81) := by
    rw [layer2_eq, e116, W13_v81, bnK_eq_bnR _ _ _ _ hP2 h8]; rfl
  -- the pooled dense layer
  rw [W14_result_eq, v161_eq_tail, e145, tail_eq_tailK]

end Cert.Proof.Assemble

end
-- ==== Proof.lean ====
/-
  The certificate: a two-layer graph convolution network — per layer a row-tiled product, message passing over
  the edges with symmetric degree weights, batch normalisation over the nodes and a rectifier; then mean pooling
  per graph and a dense layer — as six kernel launches among host operations, against the plain reference.

  The three programs run and leave their arguments unchanged. The idealized kernel program was printed without
  any rewrite. At the exact instance the two results agree: the programs differ only in how each layer takes the
  variance of a column (mean of squares minus squared mean, against mean of squared deviations), and the two agree
  because under the precondition every entry reaching a variance is a real number.
-/
import proofs.«129027_j70815420776783_1_alg».proof.Defs
import proofs.«129027_j70815420776783_1_alg».proof.Proof.Gen.Kernel
import proofs.«129027_j70815420776783_1_alg».proof.Proof.Gen.Kernel.Skeleton
import proofs.«129027_j70815420776783_1_alg».proof.Proof.Gen.Kernel.Launch
import proofs.«129027_j70815420776783_1_alg».proof.Proof.Gen.Kernel.Points
import proofs.«129027_j70815420776783_1_alg».proof.Proof.Gen.Kernel.Frame
import proofs.«129027_j70815420776783_1_alg».proof.Proof.Gen.KernelIdeal
import proofs.«129027_j70815420776783_1_alg».proof.Proof.Gen.KernelIdeal.Skeleton
import proofs.«129027_j70815420776783_1_alg».proof.Proof.Gen.KernelIdeal.Launch
import proofs.«129027_j70815420776783_1_alg».proof.Proof.Gen.KernelIdeal.Points
import proofs.«129027_j70815420776783_1_alg».proof.Proof.Gen.KernelIdeal.Frame
import proofs.«129027_j70815420776783_1_alg».proof.Proof.Gen.ReferenceIdeal
import proofs.«129027_j70815420776783_1_alg».proof.Proof.Gen.Pre_finite_inputs
import proofs.«129027_j70815420776783_1_alg».proof.Proof.KernelRun
import proofs.«129027_j70815420776783_1_alg».proof.Proof.Assemble
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the idealized kernel program was printed. -/
theorem preserves : Cert.preserves_Kernel_KernelIdeal := trivial

/-- At the exact instance, from memories agreeing on the arguments, both programs end with the same result. -/
theorem algebraic : Cert.algebraic_KernelIdeal_ReferenceIdeal := by
  intro m ρ m' ρ' hpre hagree
  refine ⟨fun c => Cert.KernelIdeal.Gen.W14 m ρ c (Proc.devRef .tc Cert.KernelIdeal.main_v97), Cert.KernelIdeal.RunValue.run_valued m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v161_eq, a0, a1, a2, a3, a4, a5, a6, a7, a8, a9, a10, a11, a12]
  exact (Cert.Proof.Assemble.kernel_value m ρ hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
